-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1 : Shape := ⟨2, ![10000, 1]⟩
abbrev S2x320000 : Shape := ⟨2, ![2, 320000]⟩
abbrev S1x128 : Shape := ⟨2, ![1, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S160000x512 : Shape := ⟨2, ![160000, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x10000 : Shape := ⟨2, ![512, 10000]⟩
abbrev S10000 : Shape := ⟨1, ![10000]⟩
abbrev S_ : Shape := ⟨0, ![]⟩

class Facts : Prop where
  bcast_S_S10000x1 : S_.BroadcastsInDim S10000x1 (![] : Fin 0 → Fin S10000x1.rank)
  reducesTo_S10000x1_S_d0_1 : S10000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S160000x512 : S_.BroadcastsInDim S160000x512 (![] : Fin 0 → Fin S160000x512.rank)
  reducesTo_S160000x512_S_d0_1 : S160000x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x10000 : S_.BroadcastsInDim S512x10000 (![] : Fin 0 → Fin S512x10000.rank)
  reducesTo_S512x10000_S_d0_1 : S512x10000.ReducesTo [0, 1] S_
  bcast_S_S10000 : S_.BroadcastsInDim S10000 (![] : Fin 0 → Fin S10000.rank)
  reducesTo_S10000_S_d0 : S10000.ReducesTo [0] S_

variable [Facts]

def fn_part4 {F : FTy → Type} [FloatOps F] (main_arg15 : FVec F S10000 .f32) (main_v63 : IVec S_ 1) (main_v67 : IVec S_ 1) : IVec S_ 1 :=
  let main_v68 : IVec S_ 1 := andi main_v63 main_v67
  let main_v69 : FVec F S10000 .f32 := Host.absf main_arg15
  let main_cst_26 : FVec F S_ .f32 := constant S_ .f32 0x7F800000#32
  let main_v70 : FVec F S10000 .f32 := broadcastInDim S10000 ![] bcast_S_S10000 main_cst_26
  let main_v71 : IVec S10000 1 := cmpf .olt main_v69 main_v70
  let main_c_27 : IVec S_ 1 := constantI S_ 1 1#1
  let main_v72 : IVec S_ 1 := (fun x v => Host.reduce IntOp.andi x v reducesTo_S10000_S_d0 h_S_) main_v71 main_c_27
  let main_v73 : IVec S_ 1 := andi main_v68 main_v72
  main_v73

def fn_part3 {F : FTy → Type} [FloatOps F] (main_arg12 : FVec F S256x512 .f32) (main_arg13 : FVec F S512 .f32) (main_arg14 : FVec F S512x10000 .f32) (main_arg15 : FVec F S10000 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x512 .f32 := Host.absf main_arg12
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x10000 .f32 := Host.absf main_arg14
  let main_cst_24 : FVec F S_ .f32 := constant S_ .f32 0x7F800000#32
  let main_v65 : FVec F S512x10000 .f32 := broadcastInDim S512x10000 ![] bcast_S_S512x10000 main_cst_24
  let main_v66 : IVec S512x10000 1 := cmpf .olt main_v64 main_v65
  let main_c_25 : IVec S_ 1 := constantI S_ 1 1#1
  let main_v67 : IVec S_ 1 := (fun x v => Host.reduce IntOp.andi x v reducesTo_S512x10000_S_d0_1 h_S_) main_v66 main_c_25
  fn_part4 (F := F) main_arg15 main_v63 main_v67

def fn_part2 {F : FTy → Type} [FloatOps F] (main_arg8 : FVec F S160000x512 .f32) (main_arg9 : FVec F S512 .f32) (main_arg10 : FVec F S512x256 .f32) (main_arg11 : FVec F S256 .f32) (main_arg12 : FVec F S256x512 .f32) (main_arg13 : FVec F S512 .f32) (main_arg14 : FVec F S512x10000 .f32) (main_arg15 : FVec F S10000 .f32) (main_v33 : IVec S_ 1) : IVec S_ 1 :=
  let main_v34 : FVec F S160000x512 .f32 := Host.absf main_arg8
  let main_cst_12 : FVec F S_ .f32 := constant S_ .f32 0x7F800000#32
  let main_v35 : FVec F S160000x512 .f32 := broadcastInDim S160000x512 ![] bcast_S_S160000x512 main_cst_12
  let main_v36 : IVec S160000x512 1 := cmpf .olt main_v34 main_v35
  let main_c_13 : IVec S_ 1 := constantI S_ 1 1#1
  let main_v37 : IVec S_ 1 := (fun x v => Host.reduce IntOp.andi x v reducesTo_S160000x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg10
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S64 .f32) (main_arg6 : FVec F S64x16 .f32) (main_arg7 : FVec F S16 .f32) (main_arg8 : FVec F S160000x512 .f32) (main_arg9 : FVec F S512 .f32) (main_arg10 : FVec F S512x256 .f32) (main_arg11 : FVec F S256 .f32) (main_arg12 : FVec F S256x512 .f32) (main_arg13 : FVec F S512 .f32) (main_arg14 : FVec F S512x10000 .f32) (main_arg15 : FVec F S10000 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S10000x1 .f32) (main_arg1 : IVec S2x320000 32) (main_arg2 : FVec F S1x128 .f32) (main_arg3 : FVec F S128 .f32) (main_arg4 : FVec F S128x64 .f32) (main_arg5 : FVec F S64 .f32) (main_arg6 : FVec F S64x16 .f32) (main_arg7 : FVec F S16 .f32) (main_arg8 : FVec F S160000x512 .f32) (main_arg9 : FVec F S512 .f32) (main_arg10 : FVec F S512x256 .f32) (main_arg11 : FVec F S256 .f32) (main_arg12 : FVec F S256x512 .f32) (main_arg13 : FVec F S512 .f32) (main_arg14 : FVec F S512x10000 .f32) (main_arg15 : FVec F S10000 .f32) : IVec S_ 1 :=
  let main_v0 : FVec F S10000x1 .f32 := Host.absf main_arg0
  let main_cst : FVec F S_ .f32 := constant S_ .f32 0x7F800000#32
  let main_v1 : FVec F S10000x1 .f32 := broadcastInDim S10000x1 ![] bcast_S_S10000x1 main_cst
  let main_v2 : IVec S10000x1 1 := cmpf .olt main_v0 main_v1
  let main_c : IVec S_ 1 := constantI S_ 1 1#1
  let main_v3 : IVec S_ 1 := (fun x v => Host.reduce IntOp.andi x v reducesTo_S10000x1_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S10000x1 : Shape := ⟨2, ![10000, 1]⟩
abbrev S2x320000 : Shape := ⟨2, ![2, 320000]⟩
abbrev S1x128 : Shape := ⟨2, ![1, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S160000x512 : Shape := ⟨2, ![160000, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x10000 : Shape := ⟨2, ![512, 10000]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x128 : Shape := ⟨2, ![10000, 128]⟩
abbrev S_ : Shape := ⟨0, ![]⟩
abbrev S330000x1 : Shape := ⟨2, ![330000, 1]⟩
abbrev S330000x128 : Shape := ⟨2, ![330000, 128]⟩
abbrev S10000x64 : Shape := ⟨2, ![10000, 64]⟩
abbrev S330000x64 : Shape := ⟨2, ![330000, 64]⟩
abbrev S1x64 : Shape := ⟨2, ![1, 64]⟩
abbrev S10000x16 : Shape := ⟨2, ![10000, 16]⟩
abbrev S330000x16 : Shape := ⟨2, ![330000, 16]⟩
abbrev S1x16 : Shape := ⟨2, ![1, 16]⟩
abbrev S1x160000 : Shape := ⟨2, ![1, 160000]⟩
abbrev S1x512 : Shape := ⟨2, ![1, 512]⟩
abbrev S1x256 : Shape := ⟨2, ![1, 256]⟩
abbrev S1x3200 : Shape := ⟨2, ![1, 3200]⟩
abbrev S3200x512 : Shape := ⟨2, ![3200, 512]⟩
abbrev S512x10240 : Shape := ⟨2, ![512, 10240]⟩
abbrev S10240 : Shape := ⟨1, ![10240]⟩
abbrev S1x10240 : Shape := ⟨2, ![1, 10240]⟩
abbrev S512x1024 : Shape := ⟨2, ![512, 1024]⟩
abbrev S1x1024 : Shape := ⟨2, ![1, 1024]⟩
abbrev S1x10000 : Shape := ⟨2, ![1, 10000]⟩

abbrev nBuf : Space → Nat
  | .hbm => 232
  | .vmem => 18
  | .smem => 0
  | _ => 0

abbrev hbmTy0_0 (i : Nat) : BufTy := match i % 128 with
  | 0 => ⟨S10000x1, .f32⟩
  | 1 => ⟨S2x320000, .i32⟩
  | 2 => ⟨S1x128, .f32⟩
  | 3 => ⟨S128, .f32⟩
  | 4 => ⟨S128x64, .f32⟩
  | 5 => ⟨S64, .f32⟩
  | 6 => ⟨S64x16, .f32⟩
  | 7 => ⟨S16, .f32⟩
  | 8 => ⟨S160000x512, .f32⟩
  | 9 => ⟨S512, .f32⟩
  | 10 => ⟨S512x256, .f32⟩
  | 11 => ⟨S256, .f32⟩
  | 12 => ⟨S256x512, .f32⟩
  | 13 => ⟨S512, .f32⟩
  | 14 => ⟨S512x10000, .f32⟩
  | 15 => ⟨S10000, .f32⟩
  | 16 => ⟨S10000, .i32⟩
  | 17 => ⟨S1x320000, .i32⟩
  | 18 => ⟨S320000, .i32⟩
  | 19 => ⟨S330000, .i32⟩
  | 20 => ⟨S1x320000, .i32⟩
  | 21 => ⟨S320000, .i32⟩
  | 22 => ⟨S330000, .i32⟩
  | 23 => ⟨S10000x128, .f32⟩
  | 24 => ⟨S_, .f32⟩
  | 25 => ⟨S10000, .f32⟩
  | 26 => ⟨S_, .f32⟩
  | 27 => ⟨S330000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S10000, .f32⟩
  | 37 => ⟨S_, .f32⟩
  | 38 => ⟨S10000, .f32⟩
  | 39 => ⟨S10000, .f32⟩
  | 40 => ⟨S10000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S_, .i32⟩
  | 51 => ⟨S330000, .i32⟩
  | 52 => ⟨S330000, .i1⟩
  | 53 => ⟨S_, .i32⟩
  | 54 => ⟨S330000, .i32⟩
  | 55 => ⟨S330000, .i32⟩
  | 56 => ⟨S330000, .i32⟩
  | 57 => ⟨S330000x1, .i32⟩
  | 58 => ⟨S330000, .f32⟩
  | 59 => ⟨S330000, .f32⟩
  | 60 => ⟨S_, .i32⟩
  | 61 => ⟨S330000, .i32⟩
  | 62 => ⟨S330000, .i1⟩
  | 63 => ⟨S_, .i32⟩
  | 64 => ⟨S330000, .i32⟩
  | 65 => ⟨S330000, .i32⟩
  | 66 => ⟨S330000, .i32⟩
  | 67 => ⟨S330000x1, .i32⟩
  | 68 => ⟨S330000x128, .f32⟩
  | 69 => ⟨S330000x1, .f32⟩
  | 70 => ⟨S330000x128, .f32⟩
  | 71 => ⟨S330000x128, .f32⟩
  | 72 => ⟨S_, .f32⟩
  | 73 => ⟨S10000x128, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S10000x128, .f32⟩
  | 83 => ⟨S1x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000x64, .f32⟩
  | 90 => ⟨S_, .f32⟩
  | 91 => ⟨S10000, .f32⟩
  | 92 => ⟨S_, .f32⟩
  | 93 => ⟨S330000, .f32⟩
  | 94 => ⟨S_, .i32⟩
  | 95 => ⟨S330000, .i32⟩
  | 96 => ⟨S330000, .i1⟩
  | 97 => ⟨S_, .i32⟩
  | 98 => ⟨S330000, .i32⟩
  | 99 => ⟨S330000, .i32⟩
  | 100 => ⟨S330000, .i32⟩
  | 101 => ⟨S330000x1, .i32⟩
  | 102 => ⟨S10000, .f32⟩
  | 103 => ⟨S_, .f32⟩
  | 104 => ⟨S10000, .f32⟩
  | 105 => ⟨S10000, .f32⟩
  | 106 => ⟨S10000, .f32⟩
  | 107 => ⟨S_, .i32⟩
  | 108 => ⟨S330000, .i32⟩
  | 109 => ⟨S330000, .i1⟩
  | 110 => ⟨S_, .i32⟩
  | 111 => ⟨S330000, .i32⟩
  | 112 => ⟨S330000, .i32⟩
  | 113 => ⟨S330000, .i32⟩
  | 114 => ⟨S330000x1, .i32⟩
  | 115 => ⟨S330000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000, .f32⟩
  | 125 => ⟨S330000, .f32⟩
  | 126 => ⟨S_, .i32⟩
  | 127 => ⟨S330000, .i32⟩
  | _ => ⟨S10000x1, .f32⟩

abbrev hbmTy0_1 (i : Nat) : BufTy := match i % 128 with
  | 0 => ⟨S330000, .i1⟩
  | 1 => ⟨S_, .i32⟩
  | 2 => ⟨S330000, .i32⟩
  | 3 => ⟨S330000, .i32⟩
  | 4 => ⟨S330000, .i32⟩
  | 5 => ⟨S330000x1, .i32⟩
  | 6 => ⟨S330000x64, .f32⟩
  | 7 => ⟨S330000x1, .f32⟩
  | 8 => ⟨S330000x64, .f32⟩
  | 9 => ⟨S330000x64, .f32⟩
  | 10 => ⟨S_, .f32⟩
  | 11 => ⟨S10000x64, .f32⟩
  | 12 => ⟨S_, .i32⟩
  | 13 => ⟨S330000, .i32⟩
  | 14 => ⟨S330000, .i1⟩
  | 15 => ⟨S_, .i32⟩
  | 16 => ⟨S330000, .i32⟩
  | 17 => ⟨S330000, .i32⟩
  | 18 => ⟨S330000, .i32⟩
  | 19 => ⟨S330000x1, .i32⟩
  | 20 => ⟨S10000x64, .f32⟩
  | 21 => ⟨S1x64, .f32⟩
  | 22 => ⟨S10000x64, .f32⟩
  | 23 => ⟨S10000x64, .f32⟩
  | 24 => ⟨S_, .f32⟩
  | 25 => ⟨S10000x64, .f32⟩
  | 26 => ⟨S10000x64, .f32⟩
  | 27 => ⟨S10000x16, .f32⟩
  | 28 => ⟨S_, .f32⟩
  | 29 => ⟨S10000, .f32⟩
  | 30 => ⟨S_, .f32⟩
  | 31 => ⟨S330000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S10000, .f32⟩
  | 41 => ⟨S_, .f32⟩
  | 42 => ⟨S10000, .f32⟩
  | 43 => ⟨S10000, .f32⟩
  | 44 => ⟨S10000, .f32⟩
  | 45 => ⟨S_, .i32⟩
  | 46 => ⟨S330000, .i32⟩
  | 47 => ⟨S330000, .i1⟩
  | 48 => ⟨S_, .i32⟩
  | 49 => ⟨S330000, .i32⟩
  | 50 => ⟨S330000, .i32⟩
  | 51 => ⟨S330000, .i32⟩
  | 52 => ⟨S330000x1, .i32⟩
  | 53 => ⟨S330000, .f32⟩
  | 54 => ⟨S_, .i32⟩
  | 55 => ⟨S330000, .i32⟩
  | 56 => ⟨S330000, .i1⟩
  | 57 => ⟨S_, .i32⟩
  | 58 => ⟨S330000, .i32⟩
  | 59 => ⟨S330000, .i32⟩
  | 60 => ⟨S330000, .i32⟩
  | 61 => ⟨S330000x1, .i32⟩
  | 62 => ⟨S330000, .f32⟩
  | 63 => ⟨S330000, .f32⟩
  | 64 => ⟨S_, .i32⟩
  | 65 => ⟨S330000, .i32⟩
  | 66 => ⟨S330000, .i1⟩
  | 67 => ⟨S_, .i32⟩
  | 68 => ⟨S330000, .i32⟩
  | 69 => ⟨S330000, .i32⟩
  | 70 => ⟨S330000, .i32⟩
  | 71 => ⟨S330000x1, .i32⟩
  | 72 => ⟨S330000x16, .f32⟩
  | 73 => ⟨S330000x1, .f32⟩
  | 74 => ⟨S330000x16, .f32⟩
  | 75 => ⟨S330000x16, .f32⟩
  | 76 => ⟨S_, .f32⟩
  | 77 => ⟨S10000x16, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S10000x16, .f32⟩
  | 87 => ⟨S1x16, .f32⟩
  | 88 => ⟨S10000x16, .f32⟩
  | 89 => ⟨S10000x16, .f32⟩
  | 90 => ⟨S1x160000, .f32⟩
  | 91 => ⟨S1x512, .f32⟩
  | 92 => ⟨S1x256, .f32⟩
  | 93 => ⟨S1x256, .f32⟩
  | 94 => ⟨S_, .i32⟩
  | 95 => ⟨S_, .f32⟩
  | 96 => ⟨S512x10240, .f32⟩
  | 97 => ⟨S_, .i32⟩
  | 98 => ⟨S_, .f32⟩
  | 99 => ⟨S10240, .f32⟩
  | 100 => ⟨S1x512, .f32⟩
  | 101 => ⟨S1x10240, .f32⟩
  | 102 => ⟨S1x10240, .f32⟩
  | 103 => ⟨S1x10000, .f32⟩
  | _ => ⟨S10000x1, .f32⟩

abbrev hbmTy (i : Nat) : BufTy := match i / 128 with
  | 0 => hbmTy0_0 i
  | 1 => hbmTy0_1 i
  | _ => ⟨S10000x1, .f32⟩

abbrev bufTy : (tb : Table) → Fin (tcTables nBuf tb) → BufTy
  | .hbm, ⟨i, _⟩ => hbmTy i
  | .local _ .vmem, ⟨0, _⟩ => ⟨S1x3200, .f32⟩
  | .local _ .vmem, ⟨1, _⟩ => ⟨S1x3200, .f32⟩
  | .local _ .vmem, ⟨2, _⟩ => ⟨S3200x512, .f32⟩
  | .local _ .vmem, ⟨3, _⟩ => ⟨S3200x512, .f32⟩
  | .local _ .vmem, ⟨4, _⟩ => ⟨S1x512, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S1x512, .f32⟩
  | .local _ .vmem, ⟨9, _⟩ => ⟨S1x256, .f32⟩
  | .local _ .vmem, ⟨10, _⟩ => ⟨S256x512, .f32⟩
  | .local _ .vmem, ⟨11, _⟩ => ⟨S1x512, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_c_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call0_cst : Ref sig .tc := ⟨.hbm, 86, rfl⟩
abbrev main_call0_v0 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_v61 : Ref sig .tc := ⟨.hbm, 96, rfl⟩
abbrev main_c_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_c_20 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_21 : Ref sig .tc := ⟨.hbm, 126, rfl⟩
abbrev main_v85 : Ref sig .tc := ⟨.hbm, 127, rfl⟩
abbrev main_v86 : Ref sig .tc := ⟨.hbm, 128, rfl⟩
abbrev main_c_22 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_23 : Ref sig .tc := ⟨.hbm, 138, rfl⟩
abbrev main_v95 : Ref sig .tc := ⟨.hbm, 139, rfl⟩
abbrev main_c_24 : Ref sig .tc := ⟨.hbm, 140, rfl⟩
abbrev main_v96 : Ref sig .tc := ⟨.hbm, 141, rfl⟩
abbrev main_v97 : Ref sig .tc := ⟨.hbm, 142, rfl⟩
abbrev main_c_25 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call1_cst : Ref sig .tc := ⟨.hbm, 152, rfl⟩
abbrev main_call1_v0 : Ref sig .tc := ⟨.hbm, 153, rfl⟩
abbrev main_v106 : Ref sig .tc := ⟨.hbm, 154, rfl⟩
abbrev main_v107 : Ref sig .tc := ⟨.hbm, 155, rfl⟩
abbrev main_cst_26 : Ref sig .tc := ⟨.hbm, 156, rfl⟩
abbrev main_v108 : Ref sig .tc := ⟨.hbm, 157, rfl⟩
abbrev main_cst_27 : Ref sig .tc := ⟨.hbm, 158, rfl⟩
abbrev main_v109 : Ref sig .tc := ⟨.hbm, 159, rfl⟩
abbrev main_c_28 : Ref sig .tc := ⟨.hbm, 160, rfl⟩
abbrev main_v110 : Ref sig .tc := ⟨.hbm, 161, rfl⟩
abbrev main_v111 : Ref sig .tc := ⟨.hbm, 162, rfl⟩
abbrev main_c_29 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_30 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_31 : Ref sig .tc := ⟨.hbm, 173, rfl⟩
abbrev main_v120 : Ref sig .tc := ⟨.hbm, 174, rfl⟩
abbrev main_v121 : Ref sig .tc := ⟨.hbm, 175, rfl⟩
abbrev main_c_32 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_33 : Ref sig .tc := ⟨.hbm, 182, rfl⟩
abbrev main_v127 : Ref sig .tc := ⟨.hbm, 183, rfl⟩
abbrev main_v128 : Ref sig .tc := ⟨.hbm, 184, rfl⟩
abbrev main_c_34 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_c_35 : Ref sig .tc := ⟨.hbm, 192, rfl⟩
abbrev main_v135 : Ref sig .tc := ⟨.hbm, 193, rfl⟩
abbrev main_v136 : Ref sig .tc := ⟨.hbm, 194, rfl⟩
abbrev main_c_36 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_37 : Ref sig .tc := ⟨.hbm, 204, rfl⟩
abbrev main_v145 : Ref sig .tc := ⟨.hbm, 205, rfl⟩
abbrev main_c_38 : Ref sig .tc := ⟨.hbm, 206, rfl⟩
abbrev main_v146 : Ref sig .tc := ⟨.hbm, 207, rfl⟩
abbrev main_v147 : Ref sig .tc := ⟨.hbm, 208, rfl⟩
abbrev main_c_39 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_c_40 : Ref sig .tc := ⟨.hbm, 222, rfl⟩
abbrev main_call2_v0 : Ref sig .tc := ⟨.hbm, 223, rfl⟩
abbrev main_v160 : Ref sig .tc := ⟨.hbm, 224, rfl⟩
abbrev main_c_41 : Ref sig .tc := ⟨.hbm, 225, rfl⟩
abbrev main_call3_v0 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v14 : BitVec 1 := Scalar.cmpi .eq arg0 c49_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  shapeCasts_S10000x16_S1x160000 : S10000x16.ShapeCasts S1x160000
  shapeCasts_S512_S1x512 : S512.ShapeCasts S1x512
  shapeCasts_S256_S1x256 : S256.ShapeCasts S1x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  bitsLt_bf16_f32 : FTy.bits .bf16 < FTy.bits .f32
  inb_S3200x512_S3200x512_0_0 : ∀ a, (![0, 0] : Fin 2 → Nat) a + S3200x512.size a ≤ S3200x512.size a
  h_S3200x512 : 0 < S3200x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  pads_S512x10000_S512x10240_000_02400 : S512x10000.Pads (![0, 0] : Fin 2 → Nat) ![0, 240] ![0, 0] S512x10240
  h_S_ : 0 < S_.numel
  pads_S10000_S10240_02400 : S10000.Pads (![0] : Fin 1 → Nat) ![240] ![0] S10240
  shapeCasts_S10240_S1x10240 : S10240.ShapeCasts S1x10240
  inb_S256x512_S256x512_0_0 : ∀ a, (![0, 0] : Fin 2 → Nat) a + S256x512.size a ≤ S256x512.size a
  h_S256x512 : 0 < S256x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S1x10240_S1x10000_0_0 : S1x10240.Slices ![0, 0] S1x10000
  dot_S10000x1_S1x128_S10000x128_1_0_0_1_n_n_wf : DotDims.WF S10000x1 S1x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x64_S10000x64_1_0_0_1_n_n_wf : DotDims.WF S10000x128 S128x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x16_S10000x16_1_0_0_1_n_n_wf : DotDims.WF S10000x64 S64x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S1x3200_S3200x512_S1x512_1_0_0_1_n_n_wf : DotDims.WF S1x3200 S3200x512 S1x512 [1] [0] [0] [1] [] []
  dot_S1x512_S512x256_S1x256_1_0_0_1_n_n_wf : DotDims.WF S1x512 S512x256 S1x256 [1] [0] [0] [1] [] []
  dot_S1x256_S256x512_S1x512_1_0_0_1_n_n_wf : DotDims.WF S1x256 S256x512 S1x512 [1] [0] [0] [1] [] []
  dot_S1x512_S512x1024_S1x1024_1_0_0_1_n_n_wf : DotDims.WF S1x512 S512x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x160000.size a
  hwx0_0 : ∀ i : grid0.Coords, EltTy.bits .f32 = 32 ∨ (Rect.block (s := S1x160000) S1x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x512.size a ≤ S160000x512.size a
  hwx0_1 : ∀ i : grid0.Coords, EltTy.bits .f32 = 32 ∨ (Rect.block (s := S160000x512) S3200x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x256.size a
  hwx1_0 : ∀ i : grid1.Coords, EltTy.bits .f32 = 32 ∨ (Rect.block (s := S1x256) S1x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x10240.size a
  hwx1_3 : ∀ i : grid1.Coords, EltTy.bits .f32 = 32 ∨ (Rect.block (s := S512x10240) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x10240.size a
  hwx1_4 : ∀ i : grid1.Coords, EltTy.bits .f32 = 32 ∨ (Rect.block (s := S1x10240) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x10240.size a
  hwx1_5 : ∀ i : grid1.Coords, EltTy.bits .f32 = 32 ∨ (Rect.block (s := S1x10240) S1x1024.size (cc1_transform_5 i) (hinb1_5 i)).WholeWords (EltTy.packing .f32)

variable [Facts₀]

def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S1x3200_S3200x512_S1x512_1_0_0_1_n_n : DotDims S1x3200 S3200x512 S1x512 where
  lhsContracting := [1]
  rhsContracting := [0]
  lhsNonContracting := [0]
  rhsNonContracting := [1]
  lhsBatch := []
  rhsBatch := []
  wf := dot_S1x3200_S3200x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x512_S1x512_1_0_0_1_n_n : DotDims S1x256 S256x512 S1x512 where
  lhsContracting := [1]
  rhsContracting := [0]
  lhsNonContracting := [0]
  rhsNonContracting := [1]
  lhsBatch := []
  rhsBatch := []
  wf := dot_S1x256_S256x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win0_0 : Pipeline.Window sig grid0 :=
  Pipeline.Window.ofSpec (Memref.whole main_v156) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S3200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v157) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v158) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v159) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v159) S1x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v162) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v160) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v163) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v164) S1x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x1 : Shape := ⟨2, ![10000, 1]⟩
abbrev S2x320000 : Shape := ⟨2, ![2, 320000]⟩
abbrev S1x128 : Shape := ⟨2, ![1, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S160000x512 : Shape := ⟨2, ![160000, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x10000 : Shape := ⟨2, ![512, 10000]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x128 : Shape := ⟨2, ![10000, 128]⟩
abbrev S_ : Shape := ⟨0, ![]⟩
abbrev S330000x1 : Shape := ⟨2, ![330000, 1]⟩
abbrev S330000x128 : Shape := ⟨2, ![330000, 128]⟩
abbrev S10000x64 : Shape := ⟨2, ![10000, 64]⟩
abbrev S330000x64 : Shape := ⟨2, ![330000, 64]⟩
abbrev S1x64 : Shape := ⟨2, ![1, 64]⟩
abbrev S10000x16 : Shape := ⟨2, ![10000, 16]⟩
abbrev S330000x16 : Shape := ⟨2, ![330000, 16]⟩
abbrev S1x16 : Shape := ⟨2, ![1, 16]⟩
abbrev S1x160000 : Shape := ⟨2, ![1, 160000]⟩
abbrev S1x512 : Shape := ⟨2, ![1, 512]⟩
abbrev S1x256 : Shape := ⟨2, ![1, 256]⟩
abbrev S1x10000 : Shape := ⟨2, ![1, 10000]⟩

abbrev nBuf : Space → Nat
  | .hbm => 237
  | .vmem => 0
  | .smem => 0
  | _ => 0

abbrev hbmTy0_0 (i : Nat) : BufTy := match i % 128 with
  | 0 => ⟨S10000x1, .f32⟩
  | 1 => ⟨S2x320000, .i32⟩
  | 2 => ⟨S1x128, .f32⟩
  | 3 => ⟨S128, .f32⟩
  | 4 => ⟨S128x64, .f32⟩
  | 5 => ⟨S64, .f32⟩
  | 6 => ⟨S64x16, .f32⟩
  | 7 => ⟨S16, .f32⟩
  | 8 => ⟨S160000x512, .f32⟩
  | 9 => ⟨S512, .f32⟩
  | 10 => ⟨S512x256, .f32⟩
  | 11 => ⟨S256, .f32⟩
  | 12 => ⟨S256x512, .f32⟩
  | 13 => ⟨S512, .f32⟩
  | 14 => ⟨S512x10000, .f32⟩
  | 15 => ⟨S10000, .f32⟩
  | 16 => ⟨S10000, .i32⟩
  | 17 => ⟨S1x320000, .i32⟩
  | 18 => ⟨S320000, .i32⟩
  | 19 => ⟨S330000, .i32⟩
  | 20 => ⟨S1x320000, .i32⟩
  | 21 => ⟨S320000, .i32⟩
  | 22 => ⟨S330000, .i32⟩
  | 23 => ⟨S10000x128, .f32⟩
  | 24 => ⟨S_, .f32⟩
  | 25 => ⟨S10000, .f32⟩
  | 26 => ⟨S_, .f32⟩
  | 27 => ⟨S330000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S10000, .f32⟩
  | 37 => ⟨S_, .f32⟩
  | 38 => ⟨S10000, .f32⟩
  | 39 => ⟨S10000, .f32⟩
  | 40 => ⟨S10000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S_, .i32⟩
  | 51 => ⟨S330000, .i32⟩
  | 52 => ⟨S330000, .i1⟩
  | 53 => ⟨S_, .i32⟩
  | 54 => ⟨S330000, .i32⟩
  | 55 => ⟨S330000, .i32⟩
  | 56 => ⟨S330000, .i32⟩
  | 57 => ⟨S330000x1, .i32⟩
  | 58 => ⟨S330000, .f32⟩
  | 59 => ⟨S330000, .f32⟩
  | 60 => ⟨S_, .i32⟩
  | 61 => ⟨S330000, .i32⟩
  | 62 => ⟨S330000, .i1⟩
  | 63 => ⟨S_, .i32⟩
  | 64 => ⟨S330000, .i32⟩
  | 65 => ⟨S330000, .i32⟩
  | 66 => ⟨S330000, .i32⟩
  | 67 => ⟨S330000x1, .i32⟩
  | 68 => ⟨S330000x128, .f32⟩
  | 69 => ⟨S330000x1, .f32⟩
  | 70 => ⟨S330000x128, .f32⟩
  | 71 => ⟨S330000x128, .f32⟩
  | 72 => ⟨S_, .f32⟩
  | 73 => ⟨S10000x128, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S10000x128, .f32⟩
  | 83 => ⟨S1x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000x64, .f32⟩
  | 90 => ⟨S_, .f32⟩
  | 91 => ⟨S10000, .f32⟩
  | 92 => ⟨S_, .f32⟩
  | 93 => ⟨S330000, .f32⟩
  | 94 => ⟨S_, .i32⟩
  | 95 => ⟨S330000, .i32⟩
  | 96 => ⟨S330000, .i1⟩
  | 97 => ⟨S_, .i32⟩
  | 98 => ⟨S330000, .i32⟩
  | 99 => ⟨S330000, .i32⟩
  | 100 => ⟨S330000, .i32⟩
  | 101 => ⟨S330000x1, .i32⟩
  | 102 => ⟨S10000, .f32⟩
  | 103 => ⟨S_, .f32⟩
  | 104 => ⟨S10000, .f32⟩
  | 105 => ⟨S10000, .f32⟩
  | 106 => ⟨S10000, .f32⟩
  | 107 => ⟨S_, .i32⟩
  | 108 => ⟨S330000, .i32⟩
  | 109 => ⟨S330000, .i1⟩
  | 110 => ⟨S_, .i32⟩
  | 111 => ⟨S330000, .i32⟩
  | 112 => ⟨S330000, .i32⟩
  | 113 => ⟨S330000, .i32⟩
  | 114 => ⟨S330000x1, .i32⟩
  | 115 => ⟨S330000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000, .f32⟩
  | 125 => ⟨S330000, .f32⟩
  | 126 => ⟨S_, .i32⟩
  | 127 => ⟨S330000, .i32⟩
  | _ => ⟨S10000x1, .f32⟩

abbrev hbmTy0_1 (i : Nat) : BufTy := match i % 128 with
  | 0 => ⟨S330000, .i1⟩
  | 1 => ⟨S_, .i32⟩
  | 2 => ⟨S330000, .i32⟩
  | 3 => ⟨S330000, .i32⟩
  | 4 => ⟨S330000, .i32⟩
  | 5 => ⟨S330000x1, .i32⟩
  | 6 => ⟨S330000x64, .f32⟩
  | 7 => ⟨S330000x1, .f32⟩
  | 8 => ⟨S330000x64, .f32⟩
  | 9 => ⟨S330000x64, .f32⟩
  | 10 => ⟨S_, .f32⟩
  | 11 => ⟨S10000x64, .f32⟩
  | 12 => ⟨S_, .i32⟩
  | 13 => ⟨S330000, .i32⟩
  | 14 => ⟨S330000, .i1⟩
  | 15 => ⟨S_, .i32⟩
  | 16 => ⟨S330000, .i32⟩
  | 17 => ⟨S330000, .i32⟩
  | 18 => ⟨S330000, .i32⟩
  | 19 => ⟨S330000x1, .i32⟩
  | 20 => ⟨S10000x64, .f32⟩
  | 21 => ⟨S1x64, .f32⟩
  | 22 => ⟨S10000x64, .f32⟩
  | 23 => ⟨S10000x64, .f32⟩
  | 24 => ⟨S_, .f32⟩
  | 25 => ⟨S10000x64, .f32⟩
  | 26 => ⟨S10000x64, .f32⟩
  | 27 => ⟨S10000x16, .f32⟩
  | 28 => ⟨S_, .f32⟩
  | 29 => ⟨S10000, .f32⟩
  | 30 => ⟨S_, .f32⟩
  | 31 => ⟨S330000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S10000, .f32⟩
  | 41 => ⟨S_, .f32⟩
  | 42 => ⟨S10000, .f32⟩
  | 43 => ⟨S10000, .f32⟩
  | 44 => ⟨S10000, .f32⟩
  | 45 => ⟨S_, .i32⟩
  | 46 => ⟨S330000, .i32⟩
  | 47 => ⟨S330000, .i1⟩
  | 48 => ⟨S_, .i32⟩
  | 49 => ⟨S330000, .i32⟩
  | 50 => ⟨S330000, .i32⟩
  | 51 => ⟨S330000, .i32⟩
  | 52 => ⟨S330000x1, .i32⟩
  | 53 => ⟨S330000, .f32⟩
  | 54 => ⟨S_, .i32⟩
  | 55 => ⟨S330000, .i32⟩
  | 56 => ⟨S330000, .i1⟩
  | 57 => ⟨S_, .i32⟩
  | 58 => ⟨S330000, .i32⟩
  | 59 => ⟨S330000, .i32⟩
  | 60 => ⟨S330000, .i32⟩
  | 61 => ⟨S330000x1, .i32⟩
  | 62 => ⟨S330000, .f32⟩
  | 63 => ⟨S330000, .f32⟩
  | 64 => ⟨S_, .i32⟩
  | 65 => ⟨S330000, .i32⟩
  | 66 => ⟨S330000, .i1⟩
  | 67 => ⟨S_, .i32⟩
  | 68 => ⟨S330000, .i32⟩
  | 69 => ⟨S330000, .i32⟩
  | 70 => ⟨S330000, .i32⟩
  | 71 => ⟨S330000x1, .i32⟩
  | 72 => ⟨S330000x16, .f32⟩
  | 73 => ⟨S330000x1, .f32⟩
  | 74 => ⟨S330000x16, .f32⟩
  | 75 => ⟨S330000x16, .f32⟩
  | 76 => ⟨S_, .f32⟩
  | 77 => ⟨S10000x16, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S10000x16, .f32⟩
  | 87 => ⟨S1x16, .f32⟩
  | 88 => ⟨S10000x16, .f32⟩
  | 89 => ⟨S10000x16, .f32⟩
  | 90 => ⟨S1x160000, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x256, .f32⟩
  | 98 => ⟨S1x256, .f32⟩
  | 99 => ⟨S1x256, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S1x10000, .f32⟩
  | 107 => ⟨S1x10000, .f32⟩
  | 108 => ⟨S1x10000, .f32⟩
  | _ => ⟨S10000x1, .f32⟩

abbrev hbmTy (i : Nat) : BufTy := match i / 128 with
  | 0 => hbmTy0_0 i
  | 1 => hbmTy0_1 i
  | _ => ⟨S10000x1, .f32⟩

abbrev bufTy : (tb : Table) → Fin (tcTables nBuf tb) → BufTy
  | .hbm, ⟨i, _⟩ => hbmTy i
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_c_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call0_cst : Ref sig .tc := ⟨.hbm, 86, rfl⟩
abbrev main_call0_v0 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_v61 : Ref sig .tc := ⟨.hbm, 96, rfl⟩
abbrev main_c_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_c_20 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_21 : Ref sig .tc := ⟨.hbm, 126, rfl⟩
abbrev main_v85 : Ref sig .tc := ⟨.hbm, 127, rfl⟩
abbrev main_v86 : Ref sig .tc := ⟨.hbm, 128, rfl⟩
abbrev main_c_22 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_23 : Ref sig .tc := ⟨.hbm, 138, rfl⟩
abbrev main_v95 : Ref sig .tc := ⟨.hbm, 139, rfl⟩
abbrev main_c_24 : Ref sig .tc := ⟨.hbm, 140, rfl⟩
abbrev main_v96 : Ref sig .tc := ⟨.hbm, 141, rfl⟩
abbrev main_v97 : Ref sig .tc := ⟨.hbm, 142, rfl⟩
abbrev main_c_25 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call1_cst : Ref sig .tc := ⟨.hbm, 152, rfl⟩
abbrev main_call1_v0 : Ref sig .tc := ⟨.hbm, 153, rfl⟩
abbrev main_v106 : Ref sig .tc := ⟨.hbm, 154, rfl⟩
abbrev main_v107 : Ref sig .tc := ⟨.hbm, 155, rfl⟩
abbrev main_cst_26 : Ref sig .tc := ⟨.hbm, 156, rfl⟩
abbrev main_v108 : Ref sig .tc := ⟨.hbm, 157, rfl⟩
abbrev main_cst_27 : Ref sig .tc := ⟨.hbm, 158, rfl⟩
abbrev main_v109 : Ref sig .tc := ⟨.hbm, 159, rfl⟩
abbrev main_c_28 : Ref sig .tc := ⟨.hbm, 160, rfl⟩
abbrev main_v110 : Ref sig .tc := ⟨.hbm, 161, rfl⟩
abbrev main_v111 : Ref sig .tc := ⟨.hbm, 162, rfl⟩
abbrev main_c_29 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_30 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_31 : Ref sig .tc := ⟨.hbm, 173, rfl⟩
abbrev main_v120 : Ref sig .tc := ⟨.hbm, 174, rfl⟩
abbrev main_v121 : Ref sig .tc := ⟨.hbm, 175, rfl⟩
abbrev main_c_32 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_33 : Ref sig .tc := ⟨.hbm, 182, rfl⟩
abbrev main_v127 : Ref sig .tc := ⟨.hbm, 183, rfl⟩
abbrev main_v128 : Ref sig .tc := ⟨.hbm, 184, rfl⟩
abbrev main_c_34 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_c_35 : Ref sig .tc := ⟨.hbm, 192, rfl⟩
abbrev main_v135 : Ref sig .tc := ⟨.hbm, 193, rfl⟩
abbrev main_v136 : Ref sig .tc := ⟨.hbm, 194, rfl⟩
abbrev main_c_36 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_37 : Ref sig .tc := ⟨.hbm, 204, rfl⟩
abbrev main_v145 : Ref sig .tc := ⟨.hbm, 205, rfl⟩
abbrev main_c_38 : Ref sig .tc := ⟨.hbm, 206, rfl⟩
abbrev main_v146 : Ref sig .tc := ⟨.hbm, 207, rfl⟩
abbrev main_v147 : Ref sig .tc := ⟨.hbm, 208, rfl⟩
abbrev main_c_39 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_call2_cst : Ref sig .tc := ⟨.hbm, 222, rfl⟩
abbrev main_call2_v0 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_call3_cst : Ref sig .tc := ⟨.hbm, 231, rfl⟩
abbrev main_call3_v0 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  shapeCasts_S10000x16_S1x160000 : S10000x16.ShapeCasts S1x160000
  bcast_S512_S1x512_1 : S512.BroadcastsInDim S1x512 (![1] : Fin 1 → Fin S1x512.rank)
  bcast_S_S1x512 : S_.BroadcastsInDim S1x512 (![] : Fin 0 → Fin S1x512.rank)
  bcast_S256_S1x256_1 : S256.BroadcastsInDim S1x256 (![1] : Fin 1 → Fin S1x256.rank)
  bcast_S10000_S1x10000_1 : S10000.BroadcastsInDim S1x10000 (![1] : Fin 1 → Fin S1x10000.rank)
  dot_S10000x1_S1x128_S10000x128_1_0_0_1_n_n_wf : DotDims.WF S10000x1 S1x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x64_S10000x64_1_0_0_1_n_n_wf : DotDims.WF S10000x128 S128x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x16_S10000x16_1_0_0_1_n_n_wf : DotDims.WF S10000x64 S64x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S1x160000_S160000x512_S1x512_1_0_0_1_n_n_wf : DotDims.WF S1x160000 S160000x512 S1x512 [1] [0] [0] [1] [] []
  dot_S1x512_S512x256_S1x256_1_0_0_1_n_n_wf : DotDims.WF S1x512 S512x256 S1x256 [1] [0] [0] [1] [] []
  dot_S1x256_S256x512_S1x512_1_0_0_1_n_n_wf : DotDims.WF S1x256 S256x512 S1x512 [1] [0] [0] [1] [] []
  dot_S1x512_S512x10000_S1x10000_1_0_0_1_n_n_wf : DotDims.WF S1x512 S512x10000 S1x10000 [1] [0] [0] [1] [] []

variable [Facts₀]

def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S1x160000_S160000x512_S1x512_1_0_0_1_n_n : DotDims S1x160000 S160000x512 S1x512 where
  lhsContracting := [1]
  rhsContracting := [0]
  lhsNonContracting := [0]
  rhsNonContracting := [1]
  lhsBatch := []
  rhsBatch := []
  wf := dot_S1x160000_S160000x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x512_S1x512_1_0_0_1_n_n : DotDims S1x256 S256x512 S1x512 where
  lhsContracting := [1]
  rhsContracting := [0]
  lhsNonContracting := [0]
  rhsNonContracting := [1]
  lhsBatch := []
  rhsBatch := []
  wf := dot_S1x256_S256x512_S1x512_1_0_0_1_n_n_wf
def dot_S1x512_S512x10000_S1x10000_1_0_0_1_n_n : DotDims S1x512 S512x10000 S1x10000 where
  lhsContracting := [1]
  rhsContracting := [0]
  lhsNonContracting := [0]
  rhsNonContracting := [1]
  lhsBatch := []
  rhsBatch := []
  wf := dot_S1x512_S512x10000_S1x10000_1_0_0_1_n_n_wf

class Facts : Prop extends Facts₀ where

variable [Facts]
-- ==== Proof.MainRunIdeal.lean ====
/- The host side of the run of @main, given one segment record per kernel region.

   Between two items of @main core `c` holds every unscoped buffer whole at a valuation `VJ c`: the launch contents
   `V0`, then `StableHlo.after` each host stretch, then, behind a region, the region's output array replaced by an
   unknown `outs`. Beside the buffers rides a rest state `E j c` (j = 0 before the encoder region, 1 between the two
   regions, 2 behind the decoder region). Proved here: @main is the list of its thirteen items as segments, every host
   stretch is a segment from its valuation to the next (`HostSeg.ofOps`), consecutive segments chain, the launch makes
   the first thread state, and at the end EVERY unscoped buffer is read off the last valuation `V13`. No host stretch
   writes an argument and no region may change one, so each argument's entry of `V13` is its launch contents. -/
import proofs.«173102_j37185826849263_1_alg».proof.Proof.Gen.KernelIdeal.Launch
import Idealize.ShloMosaic.Lib.Pipeline.Frame
import Idealize.ShloMosaic.Lib.Pipeline.Regions

-- membership in a list of 70 references, decided, recurses past the default depth
set_option maxRecDepth 2072

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the regions leave in the one unscoped buffer each may change (its output window's array), per core:
    `outs J r c` is the contents of `r` on core `c` after item J−1, read only at two points:
    * `outs 6 main_v159`: what the encoder region (item 5) leaves in `main_v159`, the code `z`
    * `outs 12 main_v164`: what the decoder region (item 11) leaves in `main_v164`, the padded reconstruction -/
abbrev Outs : Type := ℕ → (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev V0 (c : Dev nD) : Valuation τ sig (Elt F) := fun b => m (c, b)
/-- Core `c`'s unscoped buffers after item 0, the host stretch `hostOps0`: the first graph-convolution layer up to its bias (70 operations). -/
abbrev V1 (c : Dev nD) : Valuation τ sig (Elt F) := StableHlo.after hostOps0 (V0 m c)
/-- Core `c`'s unscoped buffers after item 1, the host stretch `hostOps0_1`: the first layer's rectifier (3 operations). -/
abbrev V2 (c : Dev nD) : Valuation τ sig (Elt F) := StableHlo.after hostOps0_1 (V1 m c)
/-- Core `c`'s unscoped buffers after item 2, the host stretch `hostOps0_2`: the second graph-convolution layer up to its bias (63 operations). -/
abbrev V3 (c : Dev nD) : Valuation τ sig (Elt F) := StableHlo.after hostOps0_2 (V2 m c)
/-- Core `c`'s unscoped buffers after item 3, the host stretch `hostOps0_3`: the second layer's rectifier (3 operations). -/
abbrev V4 (c : Dev nD) : Valuation τ sig (Elt F) := StableHlo.after hostOps0_3 (V3 m c)
/-- Core `c`'s unscoped buffers after item 4, the host stretch `hostOps0_4`: the third graph-convolution layer and the reshapes feeding the encoder (66 operations). -/
abbrev V5 (c : Dev nD) : Valuation τ sig (Elt F) := StableHlo.after hostOps0_4 (V4 m c)
/-- Core `c`'s unscoped buffers after item 5, the encoder region (custom_call 0), which may change `main_v159` only. -/
abbrev V6 (c : Dev nD) : Valuation τ sig (Elt F) := Function.update (V5 m c) main_v159 (outs 6 main_v159 c)
/-- Core `c`'s unscoped buffers after item 6, the host stretch `hostOps1`: a zero constant (1 operation). -/
abbrev V7 (c : Dev nD) : Valuation τ sig (Elt F) := StableHlo.after hostOps1 (V6 m outs c)
/-- Core `c`'s unscoped buffers after item 7, the host stretch `hostOps1_1`: the decoder's second weight matrix padded to 10240 columns (2 operations). -/
abbrev V8 (c : Dev nD) : Valuation τ sig (Elt F) := StableHlo.after hostOps1_1 (V7 m outs c)
/-- Core `c`'s unscoped buffers after item 8, the host stretch `hostOps1_2`: a zero constant (1 operation). -/
abbrev V9 (c : Dev nD) : Valuation τ sig (Elt F) := StableHlo.after hostOps1_2 (V8 m outs c)
/-- Core `c`'s unscoped buffers after item 9, the host stretch `hostOps1_3`: the decoder's second bias padded to 10240 entries (2 operations). -/
abbrev V10 (c : Dev nD) : Valuation τ sig (Elt F) := StableHlo.after hostOps1_3 (V9 m outs c)
/-- Core `c`'s unscoped buffers after item 10, the host stretch `hostOps1_4`: the reshapes feeding the decoder (2 operations). -/
abbrev V11 (c : Dev nD) : Valuation τ sig (Elt F) := StableHlo.after hostOps1_4 (V10 m outs c)
/-- Core `c`'s unscoped buffers after item 11, the decoder region (custom_call 1), which may change `main_v164` only. -/
abbrev V12 (c : Dev nD) : Valuation τ sig (Elt F) := Function.update (V11 m outs c) main_v164 (outs 12 main_v164 c)
/-- Core `c`'s unscoped buffers after item 12, the host stretch `hostOps2`: the final slice to 10000 columns (1 operation). -/
abbrev V13 (c : Dev nD) : Valuation τ sig (Elt F) := StableHlo.after hostOps2 (V12 m outs c)

/-! ## What the host stretches write

Every operation of a stretch writes one reference, its result; `hostOpsJ_W` lists the results in order, and a reference
outside the list keeps its contents across the stretch (`StableHlo.after_of_writes_sub`). No operation allocates. -/

theorem hostOps0_fresh : (hostOps0 : List (HloOp τ sig (Elt F))).Forall fun op => op.fresh = ∅ := by
  simp only [List.Forall]; repeat' constructor
/-- The references `hostOps0`'s operations write, in order. -/
abbrev hostOps0_W : List (Ref sig .tc) := [main_v0, main_v1, main_v2, main_v3, main_v4, main_v5, main_v6, main_v7, main_cst, main_v8, main_cst_0, main_v9, main_c, main_v10, main_v11, main_c_1, main_v12, main_v13, main_v14, main_v15, main_v16, main_cst_2, main_v17, main_v18, main_v19, main_c_3, main_v20, main_v21, main_c_4, main_v22, main_v23, main_v24, main_v25, main_v26, main_c_5, main_v27, main_v28, main_c_6, main_v29, main_v30, main_v31, main_v32, main_v33, main_v34, main_c_7, main_v35, main_v36, main_c_8, main_v37, main_v38, main_v39, main_v40, main_v41, main_v42, main_v43, main_v44, main_cst_9, main_v45, main_c_10, main_v46, main_v47, main_c_11, main_v48, main_v49, main_v50, main_v51, main_v52, main_v53, main_v54, main_v55]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_1_fresh : (hostOps0_1 : List (HloOp τ sig (Elt F))).Forall fun op => op.fresh = ∅ := by
  simp only [List.Forall]; repeat' constructor
/-- The references `hostOps0_1`'s operations write, in order. -/
abbrev hostOps0_1_W : List (Ref sig .tc) := [main_call0_cst, main_call0_v0, main_v56]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_2_fresh : (hostOps0_2 : List (HloOp τ sig (Elt F))).Forall fun op => op.fresh = ∅ := by
  simp only [List.Forall]; repeat' constructor
/-- The references `hostOps0_2`'s operations write, in order. -/
abbrev hostOps0_2_W : List (Ref sig .tc) := [main_v57, main_cst_12, main_v58, main_cst_13, main_v59, main_c_14, main_v60, main_v61, main_c_15, main_v62, main_v63, main_v64, main_v65, main_v66, main_cst_16, main_v67, main_v68, main_v69, main_c_17, main_v70, main_v71, main_c_18, main_v72, main_v73, main_v74, main_v75, main_v76, main_c_19, main_v77, main_v78, main_c_20, main_v79, main_v80, main_v81, main_v82, main_v83, main_v84, main_c_21, main_v85, main_v86, main_c_22, main_v87, main_v88, main_v89, main_v90, main_v91, main_v92, main_v93, main_v94, main_cst_23, main_v95, main_c_24, main_v96, main_v97, main_c_25, main_v98, main_v99, main_v100, main_v101, main_v102, main_v103, main_v104, main_v105]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_3_fresh : (hostOps0_3 : List (HloOp τ sig (Elt F))).Forall fun op => op.fresh = ∅ := by
  simp only [List.Forall]; repeat' constructor
/-- The references `hostOps0_3`'s operations write, in order. -/
abbrev hostOps0_3_W : List (Ref sig .tc) := [main_call1_cst, main_call1_v0, main_v106]
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_4_fresh : (hostOps0_4 : List (HloOp τ sig (Elt F))).Forall fun op => op.fresh = ∅ := by
  simp only [List.Forall]; repeat' constructor
/-- The references `hostOps0_4`'s operations write, in order. -/
abbrev hostOps0_4_W : List (Ref sig .tc) := [main_v107, main_cst_26, main_v108, main_cst_27, main_v109, main_c_28, main_v110, main_v111, main_c_29, main_v112, main_v113, main_v114, main_v115, main_v116, main_cst_30, main_v117, main_v118, main_v119, main_c_31, main_v120, main_v121, main_c_32, main_v122, main_v123, main_v124, main_v125, main_v126, main_c_33, main_v127, main_v128, main_c_34, main_v129, main_v130, main_v131, main_v132, main_v133, main_v134, main_c_35, main_v135, main_v136, main_c_36, main_v137, main_v138, main_v139, main_v140, main_v141, main_v142, main_v143, main_v144, main_cst_37, main_v145, main_c_38, main_v146, main_v147, main_c_39, main_v148, main_v149, main_v150, main_v151, main_v152, main_v153, main_v154, main_v155, main_v156, main_v157, main_v158]
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_fresh : (hostOps1 : List (HloOp τ sig (Elt F))).Forall fun op => op.fresh = ∅ := by
  simp only [List.Forall]; repeat' constructor
/-- The references `hostOps1`'s operations write, in order. -/
abbrev hostOps1_W : List (Ref sig .tc) := [main_c_40]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_1_fresh : (hostOps1_1 : List (HloOp τ sig (Elt F))).Forall fun op => op.fresh = ∅ := by
  simp only [List.Forall]; repeat' constructor
/-- The references `hostOps1_1`'s operations write, in order. -/
abbrev hostOps1_1_W : List (Ref sig .tc) := [main_call2_v0, main_v160]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_2_fresh : (hostOps1_2 : List (HloOp τ sig (Elt F))).Forall fun op => op.fresh = ∅ := by
  simp only [List.Forall]; repeat' constructor
/-- The references `hostOps1_2`'s operations write, in order. -/
abbrev hostOps1_2_W : List (Ref sig .tc) := [main_c_41]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_3_fresh : (hostOps1_3 : List (HloOp τ sig (Elt F))).Forall fun op => op.fresh = ∅ := by
  simp only [List.Forall]; repeat' constructor
/-- The references `hostOps1_3`'s operations write, in order. -/
abbrev hostOps1_3_W : List (Ref sig .tc) := [main_call3_v0, main_v161]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_4_fresh : (hostOps1_4 : List (HloOp τ sig (Elt F))).Forall fun op => op.fresh = ∅ := by
  simp only [List.Forall]; repeat' constructor
/-- The references `hostOps1_4`'s operations write, in order. -/
abbrev hostOps1_4_W : List (Ref sig .tc) := [main_v162, main_v163]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_fresh : (hostOps2 : List (HloOp τ sig (Elt F))).Forall fun op => op.fresh = ∅ := by
  simp only [List.Forall]; repeat' constructor
/-- The references `hostOps2`'s operations write, in order. -/
abbrev hostOps2_W : List (Ref sig .tc) := [main_v165]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ ([main_v159] : List (Ref sig .tc))) : V6 m outs c r = V5 m c r := by
  simp only [V6, Function.update_of_ne (StableHlo.devRef_ne_of_ne (List.ne_of_not_mem_cons h) : (Proc.devRef .tc r : DevRef τ sig) ≠ Proc.devRef .tc main_v159)]
theorem V7_of (c : Dev nD) (r : Ref sig .tc) (h : r ∉ hostOps1_W) : V7 m outs c r = V6 m outs c r :=
  StableHlo.after_of_writes_sub hostOps1 _ hostOps1_writes h
theorem V8_of (c : Dev nD) (r : Ref sig .tc) (h : r ∉ hostOps1_1_W) : V8 m outs c r = V7 m outs c r :=
  StableHlo.after_of_writes_sub hostOps1_1 _ hostOps1_1_writes h
theorem V9_of (c : Dev nD) (r : Ref sig .tc) (h : r ∉ hostOps1_2_W) : V9 m outs c r = V8 m outs c r :=
  StableHlo.after_of_writes_sub hostOps1_2 _ hostOps1_2_writes h
theorem V10_of (c : Dev nD) (r : Ref sig .tc) (h : r ∉ hostOps1_3_W) : V10 m outs c r = V9 m outs c r :=
  StableHlo.after_of_writes_sub hostOps1_3 _ hostOps1_3_writes h
theorem V11_of (c : Dev nD) (r : Ref sig .tc) (h : r ∉ hostOps1_4_W) : V11 m outs c r = V10 m outs c r :=
  StableHlo.after_of_writes_sub hostOps1_4 _ hostOps1_4_writes h
theorem V12_of (c : Dev nD) (r : Ref sig .tc) (h : r ∉ ([main_v164] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v164)]
theorem V13_of (c : Dev nD) (r : Ref sig .tc) (h : r ∉ hostOps2_W) : V13 m outs c r = V12 m outs c r :=
  StableHlo.after_of_writes_sub hostOps2 _ hostOps2_writes h

/-! ## No item writes an argument -/

/-- `main_arg0` reaches the end as launched: no host stretch writes it, no region may change it. -/
theorem V13_main_arg0 (c : Dev nD) : V13 m outs c main_arg0 = m ((c : Thread nD τ).loc main_arg0) :=
  (V13_of m outs c main_arg0 (by decide)).trans <|
  (V12_of m outs c main_arg0 (by decide)).trans <|
  (V11_of m outs c main_arg0 (by decide)).trans <|
  (V10_of m outs c main_arg0 (by decide)).trans <|
  (V9_of m outs c main_arg0 (by decide)).trans <|
  (V8_of m outs c main_arg0 (by decide)).trans <|
  (V7_of m outs c main_arg0 (by decide)).trans <|
  (V6_of m outs c main_arg0 (by decide)).trans <|
  (V5_of m c main_arg0 (by decide)).trans <|
  (V4_of m c main_arg0 (by decide)).trans <|
  (V3_of m c main_arg0 (by decide)).trans <|
  (V2_of m c main_arg0 (by decide)).trans <|
  (V1_of m c main_arg0 (by decide)).trans rfl
/-- `main_arg1` reaches the end as launched: no host stretch writes it, no region may change it. -/
theorem V13_main_arg1 (c : Dev nD) : V13 m outs c main_arg1 = m ((c : Thread nD τ).loc main_arg1) :=
  (V13_of m outs c main_arg1 (by decide)).trans <|
  (V12_of m outs c main_arg1 (by decide)).trans <|
  (V11_of m outs c main_arg1 (by decide)).trans <|
  (V10_of m outs c main_arg1 (by decide)).trans <|
  (V9_of m outs c main_arg1 (by decide)).trans <|
  (V8_of m outs c main_arg1 (by decide)).trans <|
  (V7_of m outs c main_arg1 (by decide)).trans <|
  (V6_of m outs c main_arg1 (by decide)).trans <|
  (V5_of m c main_arg1 (by decide)).trans <|
  (V4_of m c main_arg1 (by decide)).trans <|
  (V3_of m c main_arg1 (by decide)).trans <|
  (V2_of m c main_arg1 (by decide)).trans <|
  (V1_of m c main_arg1 (by decide)).trans rfl
/-- `main_arg2` reaches the end as launched: no host stretch writes it, no region may change it. -/
theorem V13_main_arg2 (c : Dev nD) : V13 m outs c main_arg2 = m ((c : Thread nD τ).loc main_arg2) :=
  (V13_of m outs c main_arg2 (by decide)).trans <|
  (V12_of m outs c main_arg2 (by decide)).trans <|
  (V11_of m outs c main_arg2 (by decide)).trans <|
  (V10_of m outs c main_arg2 (by decide)).trans <|
  (V9_of m outs c main_arg2 (by decide)).trans <|
  (V8_of m outs c main_arg2 (by decide)).trans <|
  (V7_of m outs c main_arg2 (by decide)).trans <|
  (V6_of m outs c main_arg2 (by decide)).trans <|
  (V5_of m c main_arg2 (by decide)).trans <|
  (V4_of m c main_arg2 (by decide)).trans <|
  (V3_of m c main_arg2 (by decide)).trans <|
  (V2_of m c main_arg2 (by decide)).trans <|
  (V1_of m c main_arg2 (by decide)).trans rfl
/-- `main_arg3` reaches the end as launched: no host stretch writes it, no region may change it. -/
theorem V13_main_arg3 (c : Dev nD) : V13 m outs c main_arg3 = m ((c : Thread nD τ).loc main_arg3) :=
  (V13_of m outs c main_arg3 (by decide)).trans <|
  (V12_of m outs c main_arg3 (by decide)).trans <|
  (V11_of m outs c main_arg3 (by decide)).trans <|
  (V10_of m outs c main_arg3 (by decide)).trans <|
  (V9_of m outs c main_arg3 (by decide)).trans <|
  (V8_of m outs c main_arg3 (by decide)).trans <|
  (V7_of m outs c main_arg3 (by decide)).trans <|
  (V6_of m outs c main_arg3 (by decide)).trans <|
  (V5_of m c main_arg3 (by decide)).trans <|
  (V4_of m c main_arg3 (by decide)).trans <|
  (V3_of m c main_arg3 (by decide)).trans <|
  (V2_of m c main_arg3 (by decide)).trans <|
  (V1_of m c main_arg3 (by decide)).trans rfl
/-- `main_arg4` reaches the end as launched: no host stretch writes it, no region may change it. -/
theorem V13_main_arg4 (c : Dev nD) : V13 m outs c main_arg4 = m ((c : Thread nD τ).loc main_arg4) :=
  (V13_of m outs c main_arg4 (by decide)).trans <|
  (V12_of m outs c main_arg4 (by decide)).trans <|
  (V11_of m outs c main_arg4 (by decide)).trans <|
  (V10_of m outs c main_arg4 (by decide)).trans <|
  (V9_of m outs c main_arg4 (by decide)).trans <|
  (V8_of m outs c main_arg4 (by decide)).trans <|
  (V7_of m outs c main_arg4 (by decide)).trans <|
  (V6_of m outs c main_arg4 (by decide)).trans <|
  (V5_of m c main_arg4 (by decide)).trans <|
  (V4_of m c main_arg4 (by decide)).trans <|
  (V3_of m c main_arg4 (by decide)).trans <|
  (V2_of m c main_arg4 (by decide)).trans <|
  (V1_of m c main_arg4 (by decide)).trans rfl
/-- `main_arg5` reaches the end as launched: no host stretch writes it, no region may change it. -/
theorem V13_main_arg5 (c : Dev nD) : V13 m outs c main_arg5 = m ((c : Thread nD τ).loc main_arg5) :=
  (V13_of m outs c main_arg5 (by decide)).trans <|
  (V12_of m outs c main_arg5 (by decide)).trans <|
  (V11_of m outs c main_arg5 (by decide)).trans <|
  (V10_of m outs c main_arg5 (by decide)).trans <|
  (V9_of m outs c main_arg5 (by decide)).trans <|
  (V8_of m outs c main_arg5 (by decide)).trans <|
  (V7_of m outs c main_arg5 (by decide)).trans <|
  (V6_of m outs c main_arg5 (by decide)).trans <|
  (V5_of m c main_arg5 (by decide)).trans <|
  (V4_of m c main_arg5 (by decide)).trans <|
  (V3_of m c main_arg5 (by decide)).trans <|
  (V2_of m c main_arg5 (by decide)).trans <|
  (V1_of m c main_arg5 (by decide)).trans rfl
/-- `main_arg6` reaches the end as launched: no host stretch writes it, no region may change it. -/
theorem V13_main_arg6 (c : Dev nD) : V13 m outs c main_arg6 = m ((c : Thread nD τ).loc main_arg6) :=
  (V13_of m outs c main_arg6 (by decide)).trans <|
  (V12_of m outs c main_arg6 (by decide)).trans <|
  (V11_of m outs c main_arg6 (by decide)).trans <|
  (V10_of m outs c main_arg6 (by decide)).trans <|
  (V9_of m outs c main_arg6 (by decide)).trans <|
  (V8_of m outs c main_arg6 (by decide)).trans <|
  (V7_of m outs c main_arg6 (by decide)).trans <|
  (V6_of m outs c main_arg6 (by decide)).trans <|
  (V5_of m c main_arg6 (by decide)).trans <|
  (V4_of m c main_arg6 (by decide)).trans <|
  (V3_of m c main_arg6 (by decide)).trans <|
  (V2_of m c main_arg6 (by decide)).trans <|
  (V1_of m c main_arg6 (by decide)).trans rfl
/-- `main_arg7` reaches the end as launched: no host stretch writes it, no region may change it. -/
theorem V13_main_arg7 (c : Dev nD) : V13 m outs c main_arg7 = m ((c : Thread nD τ).loc main_arg7) :=
  (V13_of m outs c main_arg7 (by decide)).trans <|
  (V12_of m outs c main_arg7 (by decide)).trans <|
  (V11_of m outs c main_arg7 (by decide)).trans <|
  (V10_of m outs c main_arg7 (by decide)).trans <|
  (V9_of m outs c main_arg7 (by decide)).trans <|
  (V8_of m outs c main_arg7 (by decide)).trans <|
  (V7_of m outs c main_arg7 (by decide)).trans <|
  (V6_of m outs c main_arg7 (by decide)).trans <|
  (V5_of m c main_arg7 (by decide)).trans <|
  (V4_of m c main_arg7 (by decide)).trans <|
  (V3_of m c main_arg7 (by decide)).trans <|
  (V2_of m c main_arg7 (by decide)).trans <|
  (V1_of m c main_arg7 (by decide)).trans rfl
/-- `main_arg8` reaches the end as launched: no host stretch writes it, no region may change it. -/
theorem V13_main_arg8 (c : Dev nD) : V13 m outs c main_arg8 = m ((c : Thread nD τ).loc main_arg8) :=
  (V13_of m outs c main_arg8 (by decide)).trans <|
  (V12_of m outs c main_arg8 (by decide)).trans <|
  (V11_of m outs c main_arg8 (by decide)).trans <|
  (V10_of m outs c main_arg8 (by decide)).trans <|
  (V9_of m outs c main_arg8 (by decide)).trans <|
  (V8_of m outs c main_arg8 (by decide)).trans <|
  (V7_of m outs c main_arg8 (by decide)).trans <|
  (V6_of m outs c main_arg8 (by decide)).trans <|
  (V5_of m c main_arg8 (by decide)).trans <|
  (V4_of m c main_arg8 (by decide)).trans <|
  (V3_of m c main_arg8 (by decide)).trans <|
  (V2_of m c main_arg8 (by decide)).trans <|
  (V1_of m c main_arg8 (by decide)).trans rfl
/-- `main_arg9` reaches the end as launched: no host stretch writes it, no region may change it. -/
theorem V13_main_arg9 (c : Dev nD) : V13 m outs c main_arg9 = m ((c : Thread nD τ).loc main_arg9) :=
  (V13_of m outs c main_arg9 (by decide)).trans <|
  (V12_of m outs c main_arg9 (by decide)).trans <|
  (V11_of m outs c main_arg9 (by decide)).trans <|
  (V10_of m outs c main_arg9 (by decide)).trans <|
  (V9_of m outs c main_arg9 (by decide)).trans <|
  (V8_of m outs c main_arg9 (by decide)).trans <|
  (V7_of m outs c main_arg9 (by decide)).trans <|
  (V6_of m outs c main_arg9 (by decide)).trans <|
  (V5_of m c main_arg9 (by decide)).trans <|
  (V4_of m c main_arg9 (by decide)).trans <|
  (V3_of m c main_arg9 (by decide)).trans <|
  (V2_of m c main_arg9 (by decide)).trans <|
  (V1_of m c main_arg9 (by decide)).trans rfl
/-- `main_arg10` reaches the end as launched: no host stretch writes it, no region may change it. -/
theorem V13_main_arg10 (c : Dev nD) : V13 m outs c main_arg10 = m ((c : Thread nD τ).loc main_arg10) :=
  (V13_of m outs c main_arg10 (by decide)).trans <|
  (V12_of m outs c main_arg10 (by decide)).trans <|
  (V11_of m outs c main_arg10 (by decide)).trans <|
  (V10_of m outs c main_arg10 (by decide)).trans <|
  (V9_of m outs c main_arg10 (by decide)).trans <|
  (V8_of m outs c main_arg10 (by decide)).trans <|
  (V7_of m outs c main_arg10 (by decide)).trans <|
  (V6_of m outs c main_arg10 (by decide)).trans <|
  (V5_of m c main_arg10 (by decide)).trans <|
  (V4_of m c main_arg10 (by decide)).trans <|
  (V3_of m c main_arg10 (by decide)).trans <|
  (V2_of m c main_arg10 (by decide)).trans <|
  (V1_of m c main_arg10 (by decide)).trans rfl
/-- `main_arg11` reaches the end as launched: no host stretch writes it, no region may change it. -/
theorem V13_main_arg11 (c : Dev nD) : V13 m outs c main_arg11 = m ((c : Thread nD τ).loc main_arg11) :=
  (V13_of m outs c main_arg11 (by decide)).trans <|
  (V12_of m outs c main_arg11 (by decide)).trans <|
  (V11_of m outs c main_arg11 (by decide)).trans <|
  (V10_of m outs c main_arg11 (by decide)).trans <|
  (V9_of m outs c main_arg11 (by decide)).trans <|
  (V8_of m outs c main_arg11 (by decide)).trans <|
  (V7_of m outs c main_arg11 (by decide)).trans <|
  (V6_of m outs c main_arg11 (by decide)).trans <|
  (V5_of m c main_arg11 (by decide)).trans <|
  (V4_of m c main_arg11 (by decide)).trans <|
  (V3_of m c main_arg11 (by decide)).trans <|
  (V2_of m c main_arg11 (by decide)).trans <|
  (V1_of m c main_arg11 (by decide)).trans rfl
/-- `main_arg12` reaches the end as launched: no host stretch writes it, no region may change it. -/
theorem V13_main_arg12 (c : Dev nD) : V13 m outs c main_arg12 = m ((c : Thread nD τ).loc main_arg12) :=
  (V13_of m outs c main_arg12 (by decide)).trans <|
  (V12_of m outs c main_arg12 (by decide)).trans <|
  (V11_of m outs c main_arg12 (by decide)).trans <|
  (V10_of m outs c main_arg12 (by decide)).trans <|
  (V9_of m outs c main_arg12 (by decide)).trans <|
  (V8_of m outs c main_arg12 (by decide)).trans <|
  (V7_of m outs c main_arg12 (by decide)).trans <|
  (V6_of m outs c main_arg12 (by decide)).trans <|
  (V5_of m c main_arg12 (by decide)).trans <|
  (V4_of m c main_arg12 (by decide)).trans <|
  (V3_of m c main_arg12 (by decide)).trans <|
  (V2_of m c main_arg12 (by decide)).trans <|
  (V1_of m c main_arg12 (by decide)).trans rfl
/-- `main_arg13` reaches the end as launched: no host stretch writes it, no region may change it. -/
theorem V13_main_arg13 (c : Dev nD) : V13 m outs c main_arg13 = m ((c : Thread nD τ).loc main_arg13) :=
  (V13_of m outs c main_arg13 (by decide)).trans <|
  (V12_of m outs c main_arg13 (by decide)).trans <|
  (V11_of m outs c main_arg13 (by decide)).trans <|
  (V10_of m outs c main_arg13 (by decide)).trans <|
  (V9_of m outs c main_arg13 (by decide)).trans <|
  (V8_of m outs c main_arg13 (by decide)).trans <|
  (V7_of m outs c main_arg13 (by decide)).trans <|
  (V6_of m outs c main_arg13 (by decide)).trans <|
  (V5_of m c main_arg13 (by decide)).trans <|
  (V4_of m c main_arg13 (by decide)).trans <|
  (V3_of m c main_arg13 (by decide)).trans <|
  (V2_of m c main_arg13 (by decide)).trans <|
  (V1_of m c main_arg13 (by decide)).trans rfl
/-- `main_arg14` reaches the end as launched: no host stretch writes it, no region may change it. -/
theorem V13_main_arg14 (c : Dev nD) : V13 m outs c main_arg14 = m ((c : Thread nD τ).loc main_arg14) :=
  (V13_of m outs c main_arg14 (by decide)).trans <|
  (V12_of m outs c main_arg14 (by decide)).trans <|
  (V11_of m outs c main_arg14 (by decide)).trans <|
  (V10_of m outs c main_arg14 (by decide)).trans <|
  (V9_of m outs c main_arg14 (by decide)).trans <|
  (V8_of m outs c main_arg14 (by decide)).trans <|
  (V7_of m outs c main_arg14 (by decide)).trans <|
  (V6_of m outs c main_arg14 (by decide)).trans <|
  (V5_of m c main_arg14 (by decide)).trans <|
  (V4_of m c main_arg14 (by decide)).trans <|
  (V3_of m c main_arg14 (by decide)).trans <|
  (V2_of m c main_arg14 (by decide)).trans <|
  (V1_of m c main_arg14 (by decide)).trans rfl
/-- `main_arg15` reaches the end as launched: no host stretch writes it, no region may change it. -/
theorem V13_main_arg15 (c : Dev nD) : V13 m outs c main_arg15 = m ((c : Thread nD τ).loc main_arg15) :=
  (V13_of m outs c main_arg15 (by decide)).trans <|
  (V12_of m outs c main_arg15 (by decide)).trans <|
  (V11_of m outs c main_arg15 (by decide)).trans <|
  (V10_of m outs c main_arg15 (by decide)).trans <|
  (V9_of m outs c main_arg15 (by decide)).trans <|
  (V8_of m outs c main_arg15 (by decide)).trans <|
  (V7_of m outs c main_arg15 (by decide)).trans <|
  (V6_of m outs c main_arg15 (by decide)).trans <|
  (V5_of m c main_arg15 (by decide)).trans <|
  (V4_of m c main_arg15 (by decide)).trans <|
  (V3_of m c main_arg15 (by decide)).trans <|
  (V2_of m c main_arg15 (by decide)).trans <|
  (V1_of m c main_arg15 (by decide)).trans rfl

/-! ## The references read at the end are unscoped -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The program's result is an unscoped TensorCore reference. -/
theorem mem_uc_main_v165 : Proc.devRef .tc main_v165 ∈ Pipeline.ucRefs τ sig := mem_uc main_v165 (by decide)
theorem mem_uc_main_arg0 : Proc.devRef .tc main_arg0 ∈ Pipeline.ucRefs τ sig := mem_uc main_arg0 (by decide)
theorem mem_uc_main_arg1 : Proc.devRef .tc main_arg1 ∈ Pipeline.ucRefs τ sig := mem_uc main_arg1 (by decide)
theorem mem_uc_main_arg2 : Proc.devRef .tc main_arg2 ∈ Pipeline.ucRefs τ sig := mem_uc main_arg2 (by decide)
theorem mem_uc_main_arg3 : Proc.devRef .tc main_arg3 ∈ Pipeline.ucRefs τ sig := mem_uc main_arg3 (by decide)
theorem mem_uc_main_arg4 : Proc.devRef .tc main_arg4 ∈ Pipeline.ucRefs τ sig := mem_uc main_arg4 (by decide)
theorem mem_uc_main_arg5 : Proc.devRef .tc main_arg5 ∈ Pipeline.ucRefs τ sig := mem_uc main_arg5 (by decide)
theorem mem_uc_main_arg6 : Proc.devRef .tc main_arg6 ∈ Pipeline.ucRefs τ sig := mem_uc main_arg6 (by decide)
theorem mem_uc_main_arg7 : Proc.devRef .tc main_arg7 ∈ Pipeline.ucRefs τ sig := mem_uc main_arg7 (by decide)
theorem mem_uc_main_arg8 : Proc.devRef .tc main_arg8 ∈ Pipeline.ucRefs τ sig := mem_uc main_arg8 (by decide)
theorem mem_uc_main_arg9 : Proc.devRef .tc main_arg9 ∈ Pipeline.ucRefs τ sig := mem_uc main_arg9 (by decide)
theorem mem_uc_main_arg10 : Proc.devRef .tc main_arg10 ∈ Pipeline.ucRefs τ sig := mem_uc main_arg10 (by decide)
theorem mem_uc_main_arg11 : Proc.devRef .tc main_arg11 ∈ Pipeline.ucRefs τ sig := mem_uc main_arg11 (by decide)
theorem mem_uc_main_arg12 : Proc.devRef .tc main_arg12 ∈ Pipeline.ucRefs τ sig := mem_uc main_arg12 (by decide)
theorem mem_uc_main_arg13 : Proc.devRef .tc main_arg13 ∈ Pipeline.ucRefs τ sig := mem_uc main_arg13 (by decide)
theorem mem_uc_main_arg14 : Proc.devRef .tc main_arg14 ∈ Pipeline.ucRefs τ sig := mem_uc main_arg14 (by decide)
theorem mem_uc_main_arg15 : Proc.devRef .tc main_arg15 ∈ Pipeline.ucRefs τ sig := mem_uc main_arg15 (by decide)

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 3 → Dev nD → sProp (MT nD τ sig Ix (Elt F) ℕ U Lvl))

/-- Item 0: the host stretch `hostOps0` over the unscoped buffers from `V0` to `V1`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- Item 1: the host stretch `hostOps0_1` over the unscoped buffers from `V1` to `V2`, the rest `E 0` riding along. -/
def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)
/-- Item 2: the host stretch `hostOps0_2` over the unscoped buffers from `V2` to `V3`, the rest `E 0` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)
/-- Item 3: the host stretch `hostOps0_3` over the unscoped buffers from `V3` to `V4`, the rest `E 0` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) (E 0)
/-- Item 4: the host stretch `hostOps0_4` over the unscoped buffers from `V4` to `V5`, the rest `E 0` riding along. -/
def seg4 : HostSeg (Ix := Ix) (Name := ℕ) (U := U) (Lvl := Lvl) (pcfgs (F := F)) defs₀ 𝒱₀ L lv :=
  HostSeg.ofOps _ _ _ _ _ (Pipeline.ucRefs τ sig) hostOps0_4
    (fun op h => Pipeline.sub_ucRefs op ((List.forall_iff_forall_mem.mp hostOps0_4_sub) op h))
    (fun op h => (List.forall_iff_forall_mem.mp hostOps0_4_fresh) op h) (V4 m) (E 0)
/-- Item 6: the host stretch `hostOps1` over the unscoped buffers from `V6` to `V7`, the rest `E 1` riding along. -/
def seg6 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V6 m outs) (E 1)
/-- Item 7: the host stretch `hostOps1_1` over the unscoped buffers from `V7` to `V8`, the rest `E 1` riding along. -/
def seg7 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V7 m outs) (E 1)
/-- Item 8: the host stretch `hostOps1_2` over the unscoped buffers from `V8` to `V9`, the rest `E 1` riding along. -/
def seg8 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V8 m outs) (E 1)
/-- Item 9: the host stretch `hostOps1_3` over the unscoped buffers from `V9` to `V10`, the rest `E 1` riding along. -/
def seg9 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V9 m outs) (E 1)
/-- Item 10: the host stretch `hostOps1_4` over the unscoped buffers from `V10` to `V11`, the rest `E 1` riding along. -/
def seg10 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V10 m outs) (E 1)
/-- Item 12: the host stretch `hostOps2` over the unscoped buffers from `V12` to `V13`, the rest `E 2` riding along. -/
def seg12 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V12 m outs) (E 2)

end Segs

section

variable {Ix : Type} [DecidableEq Ix] {U : Type} [URA U] {Lvl : Type} [Preorder Lvl]

/-- The prefetched tables' admissible contents: neither pallas_call has a table. -/
abbrev adm : (p : Fin 2) → (pcfgs (F := F) p).Adm := fun p => (cfgs p).toPCfg_adm

/-- @main's thirteen items as segments on core `c` (the same list on every core: no stretch reads the device): five host
    stretches, the encoder region's record, five host stretches, the decoder region's record, the final slice. -/
abbrev segs (𝒱₀ : Variants) (L : GSem nD τ sig → Finset Ix) (lv : GSem nD τ sig → Ix → Lvl) (E : Fin 3 → Dev nD → sProp (MT nD τ sig Ix (Elt F) ℕ U Lvl)) (ι : Ix)
    (pdats : (p : Fin 2) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (c : Dev nD) :
    List (Seg (pcfgs (F := F)) adm pdats ι defs₀ 𝒱₀ L lv) :=
  [.host (seg0 m 𝒱₀ L lv E),
   .host (seg1 m 𝒱₀ L lv E),
   .host (seg2 m 𝒱₀ L lv E),
   .host (seg3 m 𝒱₀ L lv E),
   .host (seg4 m 𝒱₀ L lv E),
   .region R0,
   .host (seg6 m outs 𝒱₀ L lv E),
   .host (seg7 m outs 𝒱₀ L lv E),
   .host (seg8 m outs 𝒱₀ L lv E),
   .host (seg9 m outs 𝒱₀ L lv E),
   .host (seg10 m outs 𝒱₀ L lv E),
   .region R1,
   .host (seg12 m outs 𝒱₀ L lv E)]

end

/-! ## The run, given the regions' records -/

-- the launch theorem's implicit arguments are found by unifying its conclusion with this one, which takes unfolding
-- plain definitions in a metavariable's type
set_option backward.isDefEq.respectTransparency.types false in
/-- THE RUN OF @main, CONDITIONAL ON THE REGIONS. For any user algebra, level assignment, launch dues and ghost
    resources, any rest states `E` the launch makes on every core at once (`hE0`) and that end owing nothing (`hE2`),
    any contents the regions leave (`outs`) and any proof data: GIVEN, per region K, a segment record entered from the
    thread state before it (every unscoped buffer at `V5`, resp. `V11`, beside the rest) and left at the one after it
    (`V6`, resp. `V12`: the region's output array replaced), every weakly fair execution of @main from memory `m` with
    zero counters terminates, and in every final memory each unscoped TensorCore buffer of each core holds its entry of
    the last valuation `V13`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, hpre0 c, hpost0 c, .rfl, .rfl, .rfl, .rfl, hpre1 c, hpost1 c, sep_mono .rfl (hE2 c)⟩)
    (hinit := ?_) (QY := fun c s => ∀ b ∈ Pipeline.ucRefs τ sig, s.mem ((c : Thread nD τ).1, b) = V13 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation against the final state
    unfold StableHlo.held
    iintro ⟨Hh, HSI⟩
    imodintro
    iapply (pointsTo_read_all (Pipeline.ucRefs τ sig) (fun b => ((c : Thread nD τ).1, b)) (V13 m outs c) s')
    isplitl [Hh] <;> iassumption

end Cert.KernelIdeal.Hand

end
-- ==== Proof.EncoderRegionIdealRuns.lean ====
/- The encoder region of @main (the first TensorCore region: a grid of 50 points, an accumulator carried between
   them in a scratch buffer, the output stored at the last point only), at the buffer contents `V` the region is
   entered with. This module: each window's block at a grid point; what an input's staging buffer holds when the body
   runs (its block, fetched at that point or resident since the first); the body's two branch conditions in closed form
   over the grid; where the output window is idle; the staging and scratch memrefs; and the region's invariant with
   the accumulator separated from the core's other scoped buffers. -/
import proofs.«173102_j37185826849263_1_alg».proof.Proof.Gen.KernelIdeal.Launch
import proofs.«173102_j37185826849263_1_alg».proof.Proof.Gen.KernelIdeal.Skeleton
import proofs.«173102_j37185826849263_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a store's rectangle is looked at structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at it
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input's staging buffer

Each of the five inputs is uncut and never idle, and the body leaves its block in place. So at every point its current
staging buffer holds its block there: fetched at that point (windows 0 and 1, whose block index moves with the point),
or fetched at the first point and resident since (windows 2, 3, 4, whose block index is constant: unfetched, the index
has not moved, and the block the buffer holds is still this point's). For ANY proof data whose array is `V`'s (`hA`)
and whose body leaves the block in place (`hafter`). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first branch (reset the accumulator), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The condition of the body's second branch (compute and store the output), from the grid coordinate. -/
abbrev cond0_1 (i : grid0.Coords) : Prop := k0_cond2 i = 1#1
/-- It holds at the last point only. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle

Three cases of the two conditions occur on the grid. A: the first point (reset, then accumulate). B: the points
strictly between (accumulate). C: the last point (accumulate, then store the output). -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- At the point of case A the output window is idle: the case stores nothing into it. -/
theorem idleAt0_5_A : ∀ t : Fin cfg0.N, cond0_0 (grid0.coords t) → ¬cond0_1 (grid0.coords t) → cfg0.idle 5 (grid0.coords t) = true := by decide +kernel
/-- At the point of case A the pipeline does not write the output's block back. -/
theorem noFlush0_5_A : ∀ t : Fin cfg0.N, cond0_0 (grid0.coords t) → ¬cond0_1 (grid0.coords t) → (cfg0.win 5).flush t = false := by decide +kernel
/-- At the points of case B the output window is idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write the output's block back. -/
theorem noFlush0_5_B : ∀ t : Fin cfg0.N, ¬cond0_0 (grid0.coords t) → ¬cond0_1 (grid0.coords t) → (cfg0.win 5).flush t = false := by decide +kernel
/-- At the point of case C the output window is live: the case stores into it. -/
theorem liveAt0_5_C : ∀ t : Fin cfg0.N, ¬cond0_0 (grid0.coords t) → cond0_1 (grid0.coords t) → cfg0.idle 5 (grid0.coords t) = false := by decide +kernel

/-! ## The memrefs the body is called with -/

/-- The output window's one staging buffer, through which its contents are stated. -/
abbrev VO0_5 : View sig .tc .vmem S1x256 .f32 := (Memref.whole cc0_stg5_0 : Memref sig .tc .vmem S1x256 .f32).view
/-- Each window's current staging memref at point `t`, spelled as the pipeline passes it, and its wholeness. -/
abbrev ms0_0 (t : Fin cfg0.N) : Memref sig .tc .vmem S1x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- The scratch operand: a whole scoped buffer of the kernel's own, passed beside the windows. It holds the accumulator. -/
abbrev scM0_0 : Memref sig .tc .vmem S1x512 .f32 := Memref.whole cc0_scratch0
/-- The accumulator as a view: what it holds is stated through it. -/
abbrev VS0_0 : View sig .tc .vmem S1x512 .f32 := scM0_0.view

/-! ## The region's invariant, the accumulator apart -/

/-- The core's scoped buffers that are neither a staging buffer of this region nor its accumulator (the later region's
    staging buffers), each whole at some contents: this region carries them through untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region: the accumulator as a whole memref owned at some contents, the other scoped
    buffers, and the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.KernelIdeal.Hand

end
-- ==== Proof.EncoderRegionIdealRunA.lean ====
/- The encoder region of @main: the whole-body run of its kernel in case A of the two branch conditions. -/
import proofs.«173102_j37185826849263_1_alg».proof.Proof.EncoderRegionIdealRuns

-- membership of an index in a store's rectangle is looked at structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces, the
    last store first, IN CASE A, the first point: the first branch taken (the accumulator, loaded and discarded, is overwritten with zeros), the
    second not. The accumulator is handed over at anything and ends with two stores in it — the zeros, then the zeros (read
    back from it) plus this point's product —; the output's buffer, which the case does not touch, is handed back as it came.
    WITH the proof that on whole memrefs — the five inputs' at their contents `x·` — the body runs to the continuation
    holding the inputs' as they were and the pieces written. The printed function is its skeleton of memory operations
    over named payloads; the run goes through it operation by operation, each branch decided by the case's hypotheses;
    the pieces are what that run finds. -/
noncomputable def kernelRun0_A (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) :
    Σ' (L5 : List (View.Piece (Elt F) S1x256 .f32)), { LS0 : List (View.Piece (Elt F) S1x512 .f32) //
      ∀ (xi5 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨[], ?_, fun xi5 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.EncoderRegionIdealRunB.lean ====
/- The encoder region of @main: the whole-body run of its kernel in case B of the two branch conditions. -/
import proofs.«173102_j37185826849263_1_alg».proof.Proof.EncoderRegionIdealRunA

-- membership of an index in a store's rectangle is looked at structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces, the
    last store first, IN CASE B, a point strictly between the first and the last: neither branch taken. The accumulator is handed over at what the
    point before left (`xs0`) and ends with one store in it: `xs0` plus this point's product. The output's buffer, which the
    case does not touch, is handed back as it came.
    WITH the proof that on whole memrefs — the five inputs' at their contents `x·` — the body runs to the continuation
    holding the inputs' as they were and the pieces written. The printed function is its skeleton of memory operations
    over named payloads; the run goes through it operation by operation, each branch decided by the case's hypotheses;
    the pieces are what that run finds. -/
noncomputable def kernelRun0_B (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) :
    Σ' (L5 : List (View.Piece (Elt F) S1x256 .f32)), { LS0 : List (View.Piece (Elt F) S1x512 .f32) //
      ∀ (xi5 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨[], ?_, fun xi5 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Hand

end
-- ==== Proof.EncoderRegionIdealRunC.lean ====
/- The encoder region of @main: the whole-body run of its kernel in case C of the two branch conditions. -/
import proofs.«173102_j37185826849263_1_alg».proof.Proof.EncoderRegionIdealRunB

-- membership of an index in a store's rectangle is looked at structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces, the
    last store first, IN CASE C, the last point: the first branch not taken, the second taken. The accumulator is handed over at what the point
    before left (`xs0`) and ends with one store in it, `xs0` plus this point's product; the output's buffer is handed over
    at anything, is loaded (the value unused) and ends with one store in it: the second layer applied to the accumulator
    just stored.
    WITH the proof that on whole memrefs — the five inputs' at their contents `x·` — the body runs to the continuation
    holding the inputs' as they were and the pieces written. The printed function is its skeleton of memory operations
    over named payloads; the run goes through it operation by operation, each branch decided by the case's hypotheses;
    the pieces are what that run finds. -/
noncomputable def kernelRun0_C (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) :
    Σ' (L5 : List (View.Piece (Elt F) S1x256 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.EncoderRegionIdeal.lean ====
/- The encoder region of @main: its frame. What the accumulator and the output's staging buffer hold after each of the 50
   grid points (`outsAt0`, by recursion on the point: the case its conditions select, run over what the point before
   left in the accumulator); the region's invariant carrying the accumulator's contents from point to point; the
   pipeline's proof data at the entry contents `V`; the body obligation at a generic point, by cases on the closed forms
   of the conditions, each leaf that case's run; and the invariant's two ends — the launch's before the first point, the
   launch's again after the last. -/
import proofs.«173102_j37185826849263_1_alg».proof.Proof.EncoderRegionIdealRunC

-- membership of an index in a store's rectangle is looked at structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at it
variable (V : (c : Dev nD) → (b : Ref sig .tc) → Buf (Elt F) ((c : Thread nD τ).loc b))

/-! ## What each case leaves -/

/-- Case A stores nothing into the output (the window is idle at its points and not written back there): no pieces — a
    placeholder (junk read back) that nothing consults, since at these points the window is neither written back nor
    read at the next point. -/
def out0_A_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) : Vec F S1x256 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- Case A's stores into the accumulator cover it (each is of the whole `[1,512]` buffer). -/
theorem scover0_A_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) (y : S1x512.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1x512.size (by sl_kernel_rfl) y

/-- What case A leaves in the accumulator: its pieces read back over junk. -/
def sout0_A_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) : Vec F S1x512 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- Case B stores nothing into the output (the window is idle at its points and not written back there): no pieces — a
    placeholder (junk read back) that nothing consults, since at these points the window is neither written back nor
    read at the next point. -/
def out0_B_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x256 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- Case B's stores into the accumulator cover it (each is of the whole `[1,512]` buffer). -/
theorem scover0_B_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) (y : S1x512.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1x512.size (by sl_kernel_rfl) y

/-- What case B leaves in the accumulator: its pieces read back over junk. -/
def sout0_B_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x512 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- Case C's one store into the output covers its block. -/
theorem cover0_C_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) (y : S1x256.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1x256.size (by sl_kernel_rfl) y

/-- What case C leaves in the output's staging buffer: its pieces read back over junk. -/
def out0_C_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x256 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- Case C's stores into the accumulator cover it (each is of the whole `[1,512]` buffer). -/
theorem scover0_C_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) (y : S1x512.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1x512.size (by sl_kernel_rfl) y

/-- What case C leaves in the accumulator: its pieces read back over junk. -/
def sout0_C_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x512 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-! ## What the output's buffer and the accumulator hold after each point -/

/-- THE ACCUMULATION. What the output's staging buffer and the accumulator hold after the body at position `n` (a pair:
    the output, then the accumulator): the case the closed forms select at `n`, run at the point's memrefs and input
    blocks, the accumulator it reads at what this leaves at `n - 1`. Position 0 is case A; no later position of the 50
    meets the first condition again, and none meets both. -/
def outsAt0 (c : Dev nD) : (n : ℕ) → n < cfg0.N → Vec F S1x256 .f32 × Vec F S1x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 50 = 0 then
      False.elim (by have hN : n + 1 < 50 := lt_of_lt_of_eq hn (show cfg0.N = 50 from N_0); omega)
    else
      if h1 : (n + 1) % 50 = 49 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at the point of case A: that case's contents. -/
theorem outsAt0_A (c : Dev nD) (t : Fin cfg0.N) (h0 : t.val % 50 = 0) (h1 : ¬t.val % 50 = 49) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 50 := lt_of_lt_of_eq hn (show cfg0.N = 50 from N_0); (try dsimp only at h0); omega)

/-- `outsAt0` at a point of case B: that case's contents, over what the point before left. -/
theorem outsAt0_B (c : Dev nD) (t : Fin cfg0.N) (h0 : ¬t.val % 50 = 0) (h1 : ¬t.val % 50 = 49) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the point of case C: that case's contents, over what the point before left. -/
theorem outsAt0_C (c : Dev nD) (t : Fin cfg0.N) (h0 : ¬t.val % 50 = 0) (h1 : t.val % 50 = 49) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point what the launch hands over (every scoped buffer
    that is no staging buffer at anything, the generator register at some state); afterwards the accumulator at what
    the point before left in it (`outsAt0`'s second component), the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the encoder pipeline on core `c`: the arrays as the region finds them (`V`); after the body at
    point `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

/-- The proof data's arrays are the region-entry contents: the definition projected, so that `V` is never unfolded. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or resident. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks (`before0_W`); the closed forms say which case the point
    is in; that case's run applies. The invariant hands the body the accumulator at what the point before left (at
    anything at the first point) and takes it back at this point's contents, the stores covering it; the other scoped
    buffers and the generator register pass through; the core owes nothing throughout. At the points of cases A and B
    the output's buffer, idle there, goes back as it came; at the point of case C it is left at that case's store,
    which covers it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 50 = 49
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## The invariant's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.DecoderRegionIdeal.lean ====
/- The decoder region of @main: the second TensorCore call, run over a grid of 10 column tiles of width 1024.
   At each tile the body computes  relu(z·Wd1 + bd1)·Wd2p_tile + bd2p_tile  from five input blocks and stores it
   over the whole output block. This file is that region's half of a frame over several regions, stated at a
   parameter V (what the TensorCore's buffers hold when the region is entered) and at any float interpretation F:
   each window's block at a grid point, what the body leaves in the output block as a closed function of the five
   input blocks, the body's triple, the region's proof data, and the body obligation at every grid point.
   Inputs 0, 1, 2 (z, Wd1, bd1) have constant block index and are transferred at the first point only; inputs
   3, 4 (the Wd2p and bd2p column tiles) are transferred at every point. Either way the body finds the window's
   block in its buffer: where no transfer happened the block index has not moved and the body left the block in place. -/
import proofs.«173102_j37185826849263_1_alg».proof.Proof.Gen.KernelIdeal.Launch
import proofs.«173102_j37185826849263_1_alg».proof.Proof.Gen.KernelIdeal.Skeleton
import proofs.«173102_j37185826849263_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of extent 1024 recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section DecoderRegion
-- what the TensorCore's buffers hold when the region is entered
variable (V : (c : Dev nD) → (b : Ref sig .tc) → Buf (Elt F) ((c : Thread nD τ).loc b))

/-! ## The windows' blocks -/

/-- Window w's block at grid point t: the part of its array, as the region finds it, that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of input 0 (z, constant block index) holds its block at every point, transferred there or not, for any
    proof data over the entry arrays whose body leaves that block in place. -/
theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input 1 (Wd1, constant block index). -/
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input 2 (bd1, constant block index). -/
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of input 3 (the column tile of Wd2p, block index the grid coordinate). -/
theorem found1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same of input 4 (the column tile of bd2p, block index the grid coordinate). -/
theorem found1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rZ : Rect S1x256 := Rect.unit (s := S1x256) ![0, 0] S1x256.size inb_S1x256_S1x256_0_0
abbrev rWd1 : Rect S256x512 := Rect.unit (s := S256x512) ![0, 0] S256x512.size inb_S256x512_S256x512_0_0
abbrev rBd1 : Rect S1x512 := Rect.unit (s := S1x512) ![0, 0] S1x512.size inb_S1x512_S1x512_0_0
abbrev rWd2 : Rect S512x1024 := Rect.unit (s := S512x1024) ![0, 0] S512x1024.size inb_S512x1024_S512x1024_0_0
abbrev rRow : Rect S1x1024 := Rect.unit (s := S1x1024) ![0, 0] S1x1024.size inb_S1x1024_S1x1024_0_0

/-! ## What the body leaves in the output block -/

/-- The output block after the body, from the five input blocks: its one store, of
    relu(z·Wd1 + bd1)·Wd2p_tile + bd2p_tile, laid over the whole block. -/
def out1_5 (x0 : Vec F S1x256 .f32) (x1 : Vec F S256x512 .f32) (x2 : Vec F S1x512 .f32) (x3 : Vec F S512x1024 .f32)
    (x4 : Vec F S1x1024 .f32) : Vec F S1x1024 .f32 :=
  View.canon [⟨rRow, k1_pay1 (View.ld x0 rZ) (View.ld x1 rWd1) (View.ld x2 rBd1) (View.ld x3 rWd2) (View.ld x4 rRow)⟩]

/-- The one store's rectangle is the whole block, so every index of the block lies in it. -/
theorem cover1_5 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

/-! ## The body's triple -/

set_option maxHeartbeats 1000000 in
/-- The body on whole buffers, the five inputs' reading x0 … x4 and the output's holding anything (the body reads
    the output buffer once before storing and does not use what it read), runs to the continuation with the inputs'
    as they were and the output's at out1_5 of the inputs'. -/
theorem sound_kernel1 (c : Dev nD) (E : Set ℕ) (i : grid1.Coords)
    (arg1 : Memref sig .tc .vmem S1x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1x1024 .f32) (harg6 : arg6.IsWhole)
    (x0 : Vec F S1x256 .f32) (x1 : Vec F S256x512 .f32) (x2 : Vec F S1x512 .f32) (x3 : Vec F S512x1024 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__decoder_kernel i arg1 harg1 arg2 harg2 arg3 harg3 arg4 harg4 arg5 harg5 arg6 harg6) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- The proof data of the decoder pipeline on core c: the arrays as the region finds them; after the body at point t
    each input's buffer at its block and the output's at out1_5 of the five input blocks; the invariant that of a
    body touching nothing but its windows' buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's buffer holds its block at every point, transferred there or not. -/
theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d
theorem before1_3 (c : Dev nD) (t : Fin cfg1.N) (d) : (dat1 V c).before 3 t d = iblk1 V c 3 t :=
  found1_3 V (dat1 V c) (A_eq1 V c 3) (after1_3 V c) t d
theorem before1_4 (c : Dev nD) (t : Fin cfg1.N) (d) : (dat1 V c).before 4 t d = iblk1 V c 4 t :=
  found1_4 V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the decoder pipeline, at every point. -/
theorem body_obligation1 (c : Dev nD) : BodyObligation (dat1 (F := F) V c) (defs₀ (F := F)) Variants.none () Set.univ := fun t => by
  rw [bigSep_W1, bigSep_W1]
  exact sound_body1 V c t

end DecoderRegion

end Cert.KernelIdeal.Hand

end
-- ==== Proof.RegionRecordsIdeal.lean ====
/-
  The two kernel regions of the program as segments of its run.

  Between two items of the program a core holds every unscoped buffer at a known valuation, beside its
  generator register at some state and a core that owes nothing. A region is entered from such a state at
  a valuation `W` and left at a valuation `W'` that has the region's arrays at what the write-backs of
  all grid points leave (`Dat.arrAt … N`) and agrees with `W` on every other buffer.

  Region 0 (the encoder) keeps an accumulator in a scratch buffer between grid points, so its invariant
  is not the plain one; all that is used of it here is that the plain invariant gives it at the first
  point and is given back by it after the last. Region 1 (the decoder) keeps nothing between points.
-/
import proofs.«173102_j37185826849263_1_alg».proof.Proof.DecoderRegionIdeal

set_option maxRecDepth 16384

noncomputable section

namespace Cert.KernelIdeal.Rec

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of every buffer of a core, read at the TensorCore's references. -/
abbrev tcv (W : Dev nD → Valuation τ sig (Elt F)) : (c : Dev nD) → (b : Ref sig .tc) → Buf (Elt F) ((c : Thread nD τ).loc b) :=
  fun c b => W c b

/-- No pipeline of this program has a prefetched table. -/
abbrev adm : (p : Fin 2) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

section Records

variable (Wa Wa' Wb Wb' : Dev nD → Valuation τ sig (Elt F))
variable (D0 : (c : Dev nD) → Dat τ (Elt F) Unit ℕ (UR sig nD τ) ℕ cfg0 c)

/-- The proof data of both pipelines, each at its region's entry contents. -/
def pdats : (p : Fin 2) → (c : Dev nD) → Dat τ (Elt F) Unit ℕ (UR sig nD τ) ℕ (Pipeline.pin (pcfgs (F := F)) adm p) c
  | ⟨0, _⟩ => fun c => D0 c
  | ⟨1, _⟩ => fun c => dat1 (tcv Wb) c

set_option backward.isDefEq.respectTransparency.types false in
/-- Region 1 as a segment: entered with every unscoped buffer at `Wb`, left with them at `Wb'`. -/
def reg1
    (hF1 : ∀ c w, (dat1 (tcv Wb) c).arrAt w cfg1.N = tcv Wb' c (Pipeline.arrRef spec1 w))
    (hrest1 : ∀ c b, b ∉ Finset.univ.image (Pipeline.arrRef spec1) → tcv Wb' c b = tcv Wb c b) :
    Pipeline.RegionSeg (pcfgs (F := F)) adm (pdats Wb D0) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv Wb) c).loose
  hwaits := Pipeline.hwaits_of_owed_zero _ _ _ _ L lv 1 fun _ _ => rfl
  pre c := iprop(StableHlo.held (c : Thread nD τ) (Pipeline.ucRefs τ sig) (Wb c) ∗ R c)
  post c := iprop(StableHlo.held (c : Thread nD τ) (Pipeline.ucRefs τ sig) (Wb' c) ∗ R c)
  X c := iprop(∃ r, prngReg c r)
  Y c := iprop(∃ r, prngReg c r)
  Z c := Pipeline.unscopedRest (Ix := Unit) (Name := ℕ) (U := UR sig nD τ) (Lvl := ℕ) spec1 c (tcv Wb c)
  hentry c := by
    rw [Pipeline.ownSems0_none]
    have hsplit := Pipeline.arrays_of_unscopedBufs (p := 1) (pcfgs (F := F)) adm (pdats Wb D0) launch1.win launch1.arr_whole c
      ((pdats Wb D0 1 c).share_full fun _ => rfl) (tcv Wb c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats Wb D0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats Wb D0 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats Wb D0) ((pdats Wb D0 1 c).share_full fun _ => rfl)
      (tcv Wb c) (tcv Wb' c) ((pdats Wb D0 1 c).arrAt · cfg1.N) (hF1 c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 0 as a segment: entered with every unscoped buffer at `Wa`, left with them at `Wa'`. Its invariant
    carries the accumulator between grid points; the plain invariant gives it at the first point (`hin0`) and is
    given back after the last (`hout0`). -/
def reg0
    (hA0 : ∀ c w, (D0 c).A w = tcv Wa c (Pipeline.arrRef spec0 w))
    (hq0 : ∀ c w, (D0 c).q w = fullShare)
    (howed0 : ∀ c t, (D0 c).owed t = 0)
    (hrec0 : ∀ c t, (D0 c).recorded t = Set.univ)
    (hbody0 : ∀ c, BodyObligation (D0 c) (defs₀ (F := F)) Variants.none () Set.univ)
    (hin0 : ∀ c, Pipeline.ΦA spec0 c ⊢ (D0 c).Φ 0)
    (hout0 : ∀ c, (D0 c).Φ (Fin.last cfg0.N) ⊢ Pipeline.ΦA spec0 c)
    (hF0 : ∀ c w, (D0 c).arrAt w cfg0.N = tcv Wa' c (Pipeline.arrRef spec0 w))
    (hrest0 : ∀ c b, b ∉ Finset.univ.image (Pipeline.arrRef spec0) → tcv Wa' c b = tcv Wa c b) :
    Pipeline.RegionSeg (pcfgs (F := F)) adm (pdats Wb D0) () defs₀ 𝒱₀ L lv 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ L lv 0 fun c t => howed0 c t
  pre c := iprop(StableHlo.held (c : Thread nD τ) (Pipeline.ucRefs τ sig) (Wa c) ∗ R c)
  post c := iprop(StableHlo.held (c : Thread nD τ) (Pipeline.ucRefs τ sig) (Wa' c) ∗ R c)
  X c := iprop(∃ r, prngReg c r)
  Y c := iprop(∃ r, prngReg c r)
  Z c := Pipeline.unscopedRest (Ix := Unit) (Name := ℕ) (U := UR sig nD τ) (Lvl := ℕ) spec0 c (tcv Wa c)
  hentry c := by
    rw [Pipeline.ownSems0_none]
    have hsplit := Pipeline.arrays_of_unscopedBufs (p := 0) (pcfgs (F := F)) adm (pdats Wb D0) launch0.win launch0.arr_whole c
      ((pdats Wb D0 0 c).share_full (hq0 c)) (tcv Wa c) (hA0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats Wb D0 0 c).owed 0 = 0 from howed0 c 0]
      icases HO with ⟨%W, HO⟩; iexists W; isplitr
      · ipureintro
        exact fun x _ => Or.inl (by rw [show (pdats Wb D0 0 c).recorded 0 = Set.univ from hrec0 c 0]; exact Set.mem_univ x)
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) spec0 c) ⊢ (Pipeline.ΦA spec0 c : sProp 𝕄) := by
      unfold Pipeline.ΦA
      iintro ⟨Hp, -, Hr⟩
      isplitl [Hr]; · iexact Hr
      iexact Hp
    exact h.trans (hin0 c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) spec0 c) := by
      unfold Pipeline.ΦA
      iintro ⟨Hr, Hp⟩
      isplitl [Hp]; · iexact Hp
      isplitr; · iempintro
      iexact Hr
    exact (hout0 c).trans h
  hexit c := by
    have hjoin := Pipeline.unscopedBufs_of_arrays (p := 0) (pcfgs (F := F)) adm (Ix := Unit) (Name := ℕ) (U := UR sig nD τ) (Lvl := ℕ)
      launch0.win launch0.arr_whole c (pdats Wb D0) ((pdats Wb D0 0 c).share_full (hq0 c))
      (tcv Wa c) (tcv Wa' c) ((pdats Wb D0 0 c).arrAt · cfg0.N) (hF0 c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats Wb D0 0 c).owed (Fin.last (Pipeline.pin (pcfgs (F := F)) adm 0).N) = 0 from howed0 c _]
    icases HO with ⟨%W, -, HO⟩; iexists W; iexact HO

end Records

end Cert.KernelIdeal.Rec

end
-- ==== Proof.RunIdeal.lean ====
/-
  The run of the whole program: every weakly fair execution terminates, nothing faults, and at the end every
  unscoped buffer of every core holds a known valuation `V13` — the launch contents pushed through the host
  operations and, at each of the two kernel regions, the region's output array replaced by what the write-backs
  of all its grid points leave.

  The conditional run over one record per region is instantiated here: the contents the encoder region leaves
  in its [1,256] output (`out6`), the contents the decoder region leaves in its [1,10240] output (`out12`, which
  depends on `out6` through the host operations in between), and the two region records at those valuations.
-/
import proofs.«173102_j37185826849263_1_alg».proof.Proof.MainRunIdeal
import proofs.«173102_j37185826849263_1_alg».proof.Proof.EncoderRegionIdeal
import proofs.«173102_j37185826849263_1_alg».proof.Proof.RegionRecordsIdeal

set_option maxRecDepth 16384

noncomputable section

namespace Cert.KernelIdeal.Rec

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave -/

/-- What the encoder region leaves in its output array: the write-backs of all 50 points folded. -/
def out6 (c : Dev nD) : Buf (Elt F) ((c : Thread nD τ).loc main_v159) :=
  (dat0 (tcv (V5 m)) c).arrAt 5 cfg0.N

/-- The contents the regions leave, with only the encoder's known. -/
def outs1 : Outs (F := F) := fun _ r c =>
  Function.update (fun r => m ((c : Thread nD τ).loc r)) main_v159 (out6 m c) r

/-- What the decoder region leaves in its output array: the write-backs of all 10 points folded. -/
def out12 (c : Dev nD) : Buf (Elt F) ((c : Thread nD τ).loc main_v164) :=
  (dat1 (tcv (V11 m (outs1 m))) c).arrAt 5 cfg1.N

/-- The contents both regions leave. -/
def outs2 : Outs (F := F) := fun _ r c =>
  Function.update (Function.update (fun r => m ((c : Thread nD τ).loc r)) main_v164 (out12 m c)) main_v159 (out6 m c) r

theorem outs1_v159 (c : Dev nD) : outs1 m 6 main_v159 c = out6 m c := by
  unfold outs1; exact Function.update_self _ _ _
theorem outs2_v159 (c : Dev nD) : outs2 m 6 main_v159 c = out6 m c := by
  unfold outs2; exact Function.update_self _ _ _
theorem outs2_v164 (c : Dev nD) : outs2 m 12 main_v164 c = out12 m c := by
  unfold outs2
  rw [Function.update_of_ne (show main_v164 ≠ main_v159 by decide)]
  exact Function.update_self _ _ _

/-- Up to the decoder region the valuations read only the encoder's output. -/
theorem V6_outs (c : Dev nD) : V6 m (outs2 m) c = V6 m (outs1 m) c := by
  dsimp only [V6]; rw [outs2_v159, outs1_v159]
theorem V11_outs (c : Dev nD) : V11 m (outs2 m) c = V11 m (outs1 m) c := by
  dsimp only [V11, V10, V9, V8, V7]; rw [V6_outs]

/-! ## Each region's arrays after it, and every other buffer unchanged -/

theorem V6_v159 (c : Dev nD) : V6 m (outs2 m) c main_v159 = out6 m c := by
  dsimp only [V6]; rw [Function.update_self, outs2_v159]
theorem V12_v164 (c : Dev nD) : V12 m (outs2 m) c main_v164 = out12 m c := by
  dsimp only [V12]; rw [Function.update_self, outs2_v164]

theorem hF0 (c : Dev nD) (w : Fin cfg0.W) :
    (dat0 (tcv (V5 m)) c).arrAt w cfg0.N = tcv (V6 m (outs2 m)) c (Pipeline.arrRef spec0 w) := by
  match w with
  | ⟨0, _⟩ => exact ((dat0 (tcv (V5 m)) c).arrAt_in 0 rfl _).trans ((A_eq0 (tcv (V5 m)) c 0).trans (V6_of m (outs2 m) c _ (by decide)).symm)
  | ⟨1, _⟩ => exact ((dat0 (tcv (V5 m)) c).arrAt_in 1 rfl _).trans ((A_eq0 (tcv (V5 m)) c 1).trans (V6_of m (outs2 m) c _ (by decide)).symm)
  | ⟨2, _⟩ => exact ((dat0 (tcv (V5 m)) c).arrAt_in 2 rfl _).trans ((A_eq0 (tcv (V5 m)) c 2).trans (V6_of m (outs2 m) c _ (by decide)).symm)
  | ⟨3, _⟩ => exact ((dat0 (tcv (V5 m)) c).arrAt_in 3 rfl _).trans ((A_eq0 (tcv (V5 m)) c 3).trans (V6_of m (outs2 m) c _ (by decide)).symm)
  | ⟨4, _⟩ => exact ((dat0 (tcv (V5 m)) c).arrAt_in 4 rfl _).trans ((A_eq0 (tcv (V5 m)) c 4).trans (V6_of m (outs2 m) c _ (by decide)).symm)
  | ⟨5, _⟩ => exact (V6_v159 m c).symm
  | ⟨n + 6, h⟩ => exact absurd h (by show ¬ n + 6 < 6; omega)

theorem hrest0 (c : Dev nD) : ∀ b, b ∉ Finset.univ.image (Pipeline.arrRef spec0) →
    tcv (V6 m (outs2 m)) c b = tcv (V5 m) c b := fun b hb =>
  V6_of m (outs2 m) c b (by
    intro h
    rw [List.mem_singleton] at h
    subst h
    exact hb (Finset.mem_image.mpr ⟨5, Finset.mem_univ _, rfl⟩))

/-- A reference the decoder region does not write holds after it what it held before it. -/
theorem V12_keep (c : Dev nD) (r : Ref sig .tc) (hr : r ∉ ([main_v164] : List (Ref sig .tc))) :
    V11 m (outs1 m) c r = V12 m (outs2 m) c r := by
  rw [V12_of m (outs2 m) c r hr, V11_outs]

set_option maxHeartbeats 1000000 in
theorem hF1 (c : Dev nD) (w : Fin cfg1.W) :
    (dat1 (tcv (V11 m (outs1 m))) c).arrAt w cfg1.N = tcv (V12 m (outs2 m)) c (Pipeline.arrRef spec1 w) := by
  match w with
  | ⟨0, _⟩ => exact ((dat1 (tcv (V11 m (outs1 m))) c).arrAt_in 0 rfl _).trans ((A_eq1 (tcv (V11 m (outs1 m))) c 0).trans (V12_keep m c main_v159 (by decide)))
  | ⟨1, _⟩ => exact ((dat1 (tcv (V11 m (outs1 m))) c).arrAt_in 1 rfl _).trans ((A_eq1 (tcv (V11 m (outs1 m))) c 1).trans (V12_keep m c main_arg12 (by decide)))
  | ⟨2, _⟩ => exact ((dat1 (tcv (V11 m (outs1 m))) c).arrAt_in 2 rfl _).trans ((A_eq1 (tcv (V11 m (outs1 m))) c 2).trans (V12_keep m c main_v162 (by decide)))
  | ⟨3, _⟩ => exact ((dat1 (tcv (V11 m (outs1 m))) c).arrAt_in 3 rfl _).trans ((A_eq1 (tcv (V11 m (outs1 m))) c 3).trans (V12_keep m c main_v160 (by decide)))
  | ⟨4, _⟩ => exact ((dat1 (tcv (V11 m (outs1 m))) c).arrAt_in 4 rfl _).trans ((A_eq1 (tcv (V11 m (outs1 m))) c 4).trans (V12_keep m c main_v163 (by decide)))
  | ⟨5, _⟩ => exact (V12_v164 m c).symm
  | ⟨n + 6, h⟩ => exact absurd h (by show ¬ n + 6 < 6; omega)

theorem hrest1 (c : Dev nD) : ∀ b, b ∉ Finset.univ.image (Pipeline.arrRef spec1) →
    tcv (V12 m (outs2 m)) c b = tcv (V11 m (outs1 m)) c b := fun b hb =>
  (V12_keep m c b (by
    intro h
    rw [List.mem_singleton] at h
    subst h
    exact hb (Finset.mem_image.mpr ⟨5, Finset.mem_univ _, rfl⟩))).symm

/-! ## The regions' records and the run -/

/-- The proof data of both pipelines at their regions' entry contents. -/
abbrev pd : (p : Fin 2) → (c : Dev nD) → Dat τ (Elt F) Unit ℕ (UR sig nD τ) ℕ (Pipeline.pin (pcfgs (F := F)) adm p) c :=
  pdats (V11 m (outs1 m)) (fun c => dat0 (tcv (V5 m)) c)

/-- The encoder region's record: entered at `V5`, left at `V6`. -/
def r0 : RegionSeg (pcfgs (F := F)) adm (pd m) () defs₀ 𝒱₀ L lv 0 :=
  reg0 (Wa := V5 m) (Wa' := V6 m (outs2 m)) (Wb := V11 m (outs1 m)) (D0 := fun c => dat0 (tcv (V5 m)) c)
    (fun c w => A_eq0 (tcv (V5 m)) c w) (fun _ _ => rfl) (fun _ _ => rfl) (fun _ _ => rfl)
    (fun c => body_obligation0 (tcv (V5 m)) c) (fun c => hin0 (tcv (V5 m)) c) (fun c => hout0 (tcv (V5 m)) c)
    (hF0 m) (hrest0 m)

/-- The decoder region's record: entered at `V11`, left at `V12`. -/
def r1 : RegionSeg (pcfgs (F := F)) adm (pd m) () defs₀ 𝒱₀ L lv 1 :=
  reg1 (Wb := V11 m (outs1 m)) (Wb' := V12 m (outs2 m)) (D0 := fun c => dat0 (tcv (V5 m)) c) (hF1 m) (hrest1 m)

set_option backward.isDefEq.respectTransparency.types false in
/-- THE RUN. From any memory with zero counters every weakly fair execution of the program terminates without a
    fault, and every unscoped buffer of every core ends at `V13`. -/
theorem run_main : θ_run defs (onTc (τ := τ) (main (F := F))) ⟨m, fun _ => 0, ρ⟩ (fun r => ∀ c : Dev nD,
    ∀ b ∈ Pipeline.ucRefs τ sig, r.2.mem ((c : Thread nD τ).1, b) = V13 m (outs2 m) c b) :=
  run_cond m emb₁ () 𝒱₀ L lv (fun _ _ => rfl) ρ (outs2 m) (pd m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ (iprop((∃ r, prngReg c r) ∗ ∃ W, owes (c : Thread nD τ) (0 : CellTallies nD τ sig Unit) W) : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => hcore c
      iintro ⟨H, -⟩
      imodintro
      iapply hmono
      iexact H)
    (fun c => by
      iintro ⟨-, HO⟩
      iexact HO)
    (r0 m) (fun _ => .rfl) (fun _ => .rfl)
    (r1 m)
    (fun c => by
      show iprop(StableHlo.held (c : Thread nD τ) (Pipeline.ucRefs τ sig) (V11 m (outs2 m) c) ∗ R c)
        ⊢ iprop(StableHlo.held (c : Thread nD τ) (Pipeline.ucRefs τ sig) (V11 m (outs1 m) c) ∗ R c)
      rw [V11_outs])
    (fun _ => .rfl)

end Cert.KernelIdeal.Rec

end
-- ==== Proof.MainRunBits.lean ====
/- The host side of the run of @main, given one segment record per kernel region.

   Between two items of @main core `c` holds every unscoped buffer whole at a valuation `VJ c`: the launch contents
   `V0`, then `StableHlo.after` each host stretch, then, behind a region, the region's output array replaced by an
   unknown `outs`. Beside the buffers rides a rest state `E j c` (j = 0 before the encoder region, 1 between the two
   regions, 2 behind the decoder region). Proved here: @main is the list of its thirteen items as segments, every host
   stretch is a segment from its valuation to the next (`HostSeg.ofOps`), consecutive segments chain, the launch makes
   the first thread state, and at the end EVERY unscoped buffer is read off the last valuation `V13`. No host stretch
   writes an argument and no region may change one, so each argument's entry of `V13` is its launch contents. -/
import proofs.«173102_j37185826849263_1_alg».proof.Proof.Gen.Kernel.Launch
import Idealize.ShloMosaic.Lib.Pipeline.Frame
import Idealize.ShloMosaic.Lib.Pipeline.Regions

-- membership in a list of 70 references, decided, recurses past the default depth
set_option maxRecDepth 2072

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the regions leave in the one unscoped buffer each may change (its output window's array), per core:
    `outs J r c` is the contents of `r` on core `c` after item J−1, read only at two points:
    * `outs 6 main_v159`: what the encoder region (item 5) leaves in `main_v159`, the code `z`
    * `outs 12 main_v164`: what the decoder region (item 11) leaves in `main_v164`, the padded reconstruction -/
abbrev Outs : Type := ℕ → (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev V0 (c : Dev nD) : Valuation τ sig (Elt F) := fun b => m (c, b)
/-- Core `c`'s unscoped buffers after item 0, the host stretch `hostOps0`: the first graph-convolution layer up to its bias (70 operations). -/
abbrev V1 (c : Dev nD) : Valuation τ sig (Elt F) := StableHlo.after hostOps0 (V0 m c)
/-- Core `c`'s unscoped buffers after item 1, the host stretch `hostOps0_1`: the first layer's rectifier (3 operations). -/
abbrev V2 (c : Dev nD) : Valuation τ sig (Elt F) := StableHlo.after hostOps0_1 (V1 m c)
/-- Core `c`'s unscoped buffers after item 2, the host stretch `hostOps0_2`: the second graph-convolution layer up to its bias (63 operations). -/
abbrev V3 (c : Dev nD) : Valuation τ sig (Elt F) := StableHlo.after hostOps0_2 (V2 m c)
/-- Core `c`'s unscoped buffers after item 3, the host stretch `hostOps0_3`: the second layer's rectifier (3 operations). -/
abbrev V4 (c : Dev nD) : Valuation τ sig (Elt F) := StableHlo.after hostOps0_3 (V3 m c)
/-- Core `c`'s unscoped buffers after item 4, the host stretch `hostOps0_4`: the third graph-convolution layer and the reshapes feeding the encoder (66 operations). -/
abbrev V5 (c : Dev nD) : Valuation τ sig (Elt F) := StableHlo.after hostOps0_4 (V4 m c)
/-- Core `c`'s unscoped buffers after item 5, the encoder region (custom_call 0), which may change `main_v159` only. -/
abbrev V6 (c : Dev nD) : Valuation τ sig (Elt F) := Function.update (V5 m c) main_v159 (outs 6 main_v159 c)
/-- Core `c`'s unscoped buffers after item 6, the host stretch `hostOps1`: a zero constant (1 operation). -/
abbrev V7 (c : Dev nD) : Valuation τ sig (Elt F) := StableHlo.after hostOps1 (V6 m outs c)
/-- Core `c`'s unscoped buffers after item 7, the host stretch `hostOps1_1`: the decoder's second weight matrix padded to 10240 columns (2 operations). -/
abbrev V8 (c : Dev nD) : Valuation τ sig (Elt F) := StableHlo.after hostOps1_1 (V7 m outs c)
/-- Core `c`'s unscoped buffers after item 8, the host stretch `hostOps1_2`: a zero constant (1 operation). -/
abbrev V9 (c : Dev nD) : Valuation τ sig (Elt F) := StableHlo.after hostOps1_2 (V8 m outs c)
/-- Core `c`'s unscoped buffers after item 9, the host stretch `hostOps1_3`: the decoder's second bias padded to 10240 entries (2 operations). -/
abbrev V10 (c : Dev nD) : Valuation τ sig (Elt F) := StableHlo.after hostOps1_3 (V9 m outs c)
/-- Core `c`'s unscoped buffers after item 10, the host stretch `hostOps1_4`: the reshapes feeding the decoder (2 operations). -/
abbrev V11 (c : Dev nD) : Valuation τ sig (Elt F) := StableHlo.after hostOps1_4 (V10 m outs c)
/-- Core `c`'s unscoped buffers after item 11, the decoder region (custom_call 1), which may change `main_v164` only. -/
abbrev V12 (c : Dev nD) : Valuation τ sig (Elt F) := Function.update (V11 m outs c) main_v164 (outs 12 main_v164 c)
/-- Core `c`'s unscoped buffers after item 12, the host stretch `hostOps2`: the final slice to 10000 columns (1 operation). -/
abbrev V13 (c : Dev nD) : Valuation τ sig (Elt F) := StableHlo.after hostOps2 (V12 m outs c)

/-! ## What the host stretches write

Every operation of a stretch writes one reference, its result; `hostOpsJ_W` lists the results in order, and a reference
outside the list keeps its contents across the stretch (`StableHlo.after_of_writes_sub`). No operation allocates. -/

theorem hostOps0_fresh : (hostOps0 : List (HloOp τ sig (Elt F))).Forall fun op => op.fresh = ∅ := by
  simp only [List.Forall]; repeat' constructor
/-- The references `hostOps0`'s operations write, in order. -/
abbrev hostOps0_W : List (Ref sig .tc) := [main_v0, main_v1, main_v2, main_v3, main_v4, main_v5, main_v6, main_v7, main_cst, main_v8, main_cst_0, main_v9, main_c, main_v10, main_v11, main_c_1, main_v12, main_v13, main_v14, main_v15, main_v16, main_cst_2, main_v17, main_v18, main_v19, main_c_3, main_v20, main_v21, main_c_4, main_v22, main_v23, main_v24, main_v25, main_v26, main_c_5, main_v27, main_v28, main_c_6, main_v29, main_v30, main_v31, main_v32, main_v33, main_v34, main_c_7, main_v35, main_v36, main_c_8, main_v37, main_v38, main_v39, main_v40, main_v41, main_v42, main_v43, main_v44, main_cst_9, main_v45, main_c_10, main_v46, main_v47, main_c_11, main_v48, main_v49, main_v50, main_v51, main_v52, main_v53, main_v54, main_v55]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_1_fresh : (hostOps0_1 : List (HloOp τ sig (Elt F))).Forall fun op => op.fresh = ∅ := by
  simp only [List.Forall]; repeat' constructor
/-- The references `hostOps0_1`'s operations write, in order. -/
abbrev hostOps0_1_W : List (Ref sig .tc) := [main_call0_cst, main_call0_v0, main_v56]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_2_fresh : (hostOps0_2 : List (HloOp τ sig (Elt F))).Forall fun op => op.fresh = ∅ := by
  simp only [List.Forall]; repeat' constructor
/-- The references `hostOps0_2`'s operations write, in order. -/
abbrev hostOps0_2_W : List (Ref sig .tc) := [main_v57, main_cst_12, main_v58, main_cst_13, main_v59, main_c_14, main_v60, main_v61, main_c_15, main_v62, main_v63, main_v64, main_v65, main_v66, main_cst_16, main_v67, main_v68, main_v69, main_c_17, main_v70, main_v71, main_c_18, main_v72, main_v73, main_v74, main_v75, main_v76, main_c_19, main_v77, main_v78, main_c_20, main_v79, main_v80, main_v81, main_v82, main_v83, main_v84, main_c_21, main_v85, main_v86, main_c_22, main_v87, main_v88, main_v89, main_v90, main_v91, main_v92, main_v93, main_v94, main_cst_23, main_v95, main_c_24, main_v96, main_v97, main_c_25, main_v98, main_v99, main_v100, main_v101, main_v102, main_v103, main_v104, main_v105]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_3_fresh : (hostOps0_3 : List (HloOp τ sig (Elt F))).Forall fun op => op.fresh = ∅ := by
  simp only [List.Forall]; repeat' constructor
/-- The references `hostOps0_3`'s operations write, in order. -/
abbrev hostOps0_3_W : List (Ref sig .tc) := [main_call1_cst, main_call1_v0, main_v106]
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_4_fresh : (hostOps0_4 : List (HloOp τ sig (Elt F))).Forall fun op => op.fresh = ∅ := by
  simp only [List.Forall]; repeat' constructor
/-- The references `hostOps0_4`'s operations write, in order. -/
abbrev hostOps0_4_W : List (Ref sig .tc) := [main_v107, main_cst_26, main_v108, main_cst_27, main_v109, main_c_28, main_v110, main_v111, main_c_29, main_v112, main_v113, main_v114, main_v115, main_v116, main_cst_30, main_v117, main_v118, main_v119, main_c_31, main_v120, main_v121, main_c_32, main_v122, main_v123, main_v124, main_v125, main_v126, main_c_33, main_v127, main_v128, main_c_34, main_v129, main_v130, main_v131, main_v132, main_v133, main_v134, main_c_35, main_v135, main_v136, main_c_36, main_v137, main_v138, main_v139, main_v140, main_v141, main_v142, main_v143, main_v144, main_cst_37, main_v145, main_c_38, main_v146, main_v147, main_c_39, main_v148, main_v149, main_v150, main_v151, main_v152, main_v153, main_v154, main_v155, main_v156, main_v157, main_v158]
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_fresh : (hostOps1 : List (HloOp τ sig (Elt F))).Forall fun op => op.fresh = ∅ := by
  simp only [List.Forall]; repeat' constructor
/-- The references `hostOps1`'s operations write, in order. -/
abbrev hostOps1_W : List (Ref sig .tc) := [main_c_40]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_1_fresh : (hostOps1_1 : List (HloOp τ sig (Elt F))).Forall fun op => op.fresh = ∅ := by
  simp only [List.Forall]; repeat' constructor
/-- The references `hostOps1_1`'s operations write, in order. -/
abbrev hostOps1_1_W : List (Ref sig .tc) := [main_call2_v0, main_v160]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_2_fresh : (hostOps1_2 : List (HloOp τ sig (Elt F))).Forall fun op => op.fresh = ∅ := by
  simp only [List.Forall]; repeat' constructor
/-- The references `hostOps1_2`'s operations write, in order. -/
abbrev hostOps1_2_W : List (Ref sig .tc) := [main_c_41]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_3_fresh : (hostOps1_3 : List (HloOp τ sig (Elt F))).Forall fun op => op.fresh = ∅ := by
  simp only [List.Forall]; repeat' constructor
/-- The references `hostOps1_3`'s operations write, in order. -/
abbrev hostOps1_3_W : List (Ref sig .tc) := [main_call3_v0, main_v161]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_4_fresh : (hostOps1_4 : List (HloOp τ sig (Elt F))).Forall fun op => op.fresh = ∅ := by
  simp only [List.Forall]; repeat' constructor
/-- The references `hostOps1_4`'s operations write, in order. -/
abbrev hostOps1_4_W : List (Ref sig .tc) := [main_v162, main_v163]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_fresh : (hostOps2 : List (HloOp τ sig (Elt F))).Forall fun op => op.fresh = ∅ := by
  simp only [List.Forall]; repeat' constructor
/-- The references `hostOps2`'s operations write, in order. -/
abbrev hostOps2_W : List (Ref sig .tc) := [main_v165]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ ([main_v159] : List (Ref sig .tc))) : V6 m outs c r = V5 m c r := by
  simp only [V6, Function.update_of_ne (StableHlo.devRef_ne_of_ne (List.ne_of_not_mem_cons h) : (Proc.devRef .tc r : DevRef τ sig) ≠ Proc.devRef .tc main_v159)]
theorem V7_of (c : Dev nD) (r : Ref sig .tc) (h : r ∉ hostOps1_W) : V7 m outs c r = V6 m outs c r :=
  StableHlo.after_of_writes_sub hostOps1 _ hostOps1_writes h
theorem V8_of (c : Dev nD) (r : Ref sig .tc) (h : r ∉ hostOps1_1_W) : V8 m outs c r = V7 m outs c r :=
  StableHlo.after_of_writes_sub hostOps1_1 _ hostOps1_1_writes h
theorem V9_of (c : Dev nD) (r : Ref sig .tc) (h : r ∉ hostOps1_2_W) : V9 m outs c r = V8 m outs c r :=
  StableHlo.after_of_writes_sub hostOps1_2 _ hostOps1_2_writes h
theorem V10_of (c : Dev nD) (r : Ref sig .tc) (h : r ∉ hostOps1_3_W) : V10 m outs c r = V9 m outs c r :=
  StableHlo.after_of_writes_sub hostOps1_3 _ hostOps1_3_writes h
theorem V11_of (c : Dev nD) (r : Ref sig .tc) (h : r ∉ hostOps1_4_W) : V11 m outs c r = V10 m outs c r :=
  StableHlo.after_of_writes_sub hostOps1_4 _ hostOps1_4_writes h
theorem V12_of (c : Dev nD) (r : Ref sig .tc) (h : r ∉ ([main_v164] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v164)]
theorem V13_of (c : Dev nD) (r : Ref sig .tc) (h : r ∉ hostOps2_W) : V13 m outs c r = V12 m outs c r :=
  StableHlo.after_of_writes_sub hostOps2 _ hostOps2_writes h

/-! ## No item writes an argument -/

/-- `main_arg0` reaches the end as launched: no host stretch writes it, no region may change it. -/
theorem V13_main_arg0 (c : Dev nD) : V13 m outs c main_arg0 = m ((c : Thread nD τ).loc main_arg0) :=
  (V13_of m outs c main_arg0 (by decide)).trans <|
  (V12_of m outs c main_arg0 (by decide)).trans <|
  (V11_of m outs c main_arg0 (by decide)).trans <|
  (V10_of m outs c main_arg0 (by decide)).trans <|
  (V9_of m outs c main_arg0 (by decide)).trans <|
  (V8_of m outs c main_arg0 (by decide)).trans <|
  (V7_of m outs c main_arg0 (by decide)).trans <|
  (V6_of m outs c main_arg0 (by decide)).trans <|
  (V5_of m c main_arg0 (by decide)).trans <|
  (V4_of m c main_arg0 (by decide)).trans <|
  (V3_of m c main_arg0 (by decide)).trans <|
  (V2_of m c main_arg0 (by decide)).trans <|
  (V1_of m c main_arg0 (by decide)).trans rfl
/-- `main_arg1` reaches the end as launched: no host stretch writes it, no region may change it. -/
theorem V13_main_arg1 (c : Dev nD) : V13 m outs c main_arg1 = m ((c : Thread nD τ).loc main_arg1) :=
  (V13_of m outs c main_arg1 (by decide)).trans <|
  (V12_of m outs c main_arg1 (by decide)).trans <|
  (V11_of m outs c main_arg1 (by decide)).trans <|
  (V10_of m outs c main_arg1 (by decide)).trans <|
  (V9_of m outs c main_arg1 (by decide)).trans <|
  (V8_of m outs c main_arg1 (by decide)).trans <|
  (V7_of m outs c main_arg1 (by decide)).trans <|
  (V6_of m outs c main_arg1 (by decide)).trans <|
  (V5_of m c main_arg1 (by decide)).trans <|
  (V4_of m c main_arg1 (by decide)).trans <|
  (V3_of m c main_arg1 (by decide)).trans <|
  (V2_of m c main_arg1 (by decide)).trans <|
  (V1_of m c main_arg1 (by decide)).trans rfl
/-- `main_arg2` reaches the end as launched: no host stretch writes it, no region may change it. -/
theorem V13_main_arg2 (c : Dev nD) : V13 m outs c main_arg2 = m ((c : Thread nD τ).loc main_arg2) :=
  (V13_of m outs c main_arg2 (by decide)).trans <|
  (V12_of m outs c main_arg2 (by decide)).trans <|
  (V11_of m outs c main_arg2 (by decide)).trans <|
  (V10_of m outs c main_arg2 (by decide)).trans <|
  (V9_of m outs c main_arg2 (by decide)).trans <|
  (V8_of m outs c main_arg2 (by decide)).trans <|
  (V7_of m outs c main_arg2 (by decide)).trans <|
  (V6_of m outs c main_arg2 (by decide)).trans <|
  (V5_of m c main_arg2 (by decide)).trans <|
  (V4_of m c main_arg2 (by decide)).trans <|
  (V3_of m c main_arg2 (by decide)).trans <|
  (V2_of m c main_arg2 (by decide)).trans <|
  (V1_of m c main_arg2 (by decide)).trans rfl
/-- `main_arg3` reaches the end as launched: no host stretch writes it, no region may change it. -/
theorem V13_main_arg3 (c : Dev nD) : V13 m outs c main_arg3 = m ((c : Thread nD τ).loc main_arg3) :=
  (V13_of m outs c main_arg3 (by decide)).trans <|
  (V12_of m outs c main_arg3 (by decide)).trans <|
  (V11_of m outs c main_arg3 (by decide)).trans <|
  (V10_of m outs c main_arg3 (by decide)).trans <|
  (V9_of m outs c main_arg3 (by decide)).trans <|
  (V8_of m outs c main_arg3 (by decide)).trans <|
  (V7_of m outs c main_arg3 (by decide)).trans <|
  (V6_of m outs c main_arg3 (by decide)).trans <|
  (V5_of m c main_arg3 (by decide)).trans <|
  (V4_of m c main_arg3 (by decide)).trans <|
  (V3_of m c main_arg3 (by decide)).trans <|
  (V2_of m c main_arg3 (by decide)).trans <|
  (V1_of m c main_arg3 (by decide)).trans rfl
/-- `main_arg4` reaches the end as launched: no host stretch writes it, no region may change it. -/
theorem V13_main_arg4 (c : Dev nD) : V13 m outs c main_arg4 = m ((c : Thread nD τ).loc main_arg4) :=
  (V13_of m outs c main_arg4 (by decide)).trans <|
  (V12_of m outs c main_arg4 (by decide)).trans <|
  (V11_of m outs c main_arg4 (by decide)).trans <|
  (V10_of m outs c main_arg4 (by decide)).trans <|
  (V9_of m outs c main_arg4 (by decide)).trans <|
  (V8_of m outs c main_arg4 (by decide)).trans <|
  (V7_of m outs c main_arg4 (by decide)).trans <|
  (V6_of m outs c main_arg4 (by decide)).trans <|
  (V5_of m c main_arg4 (by decide)).trans <|
  (V4_of m c main_arg4 (by decide)).trans <|
  (V3_of m c main_arg4 (by decide)).trans <|
  (V2_of m c main_arg4 (by decide)).trans <|
  (V1_of m c main_arg4 (by decide)).trans rfl
/-- `main_arg5` reaches the end as launched: no host stretch writes it, no region may change it. -/
theorem V13_main_arg5 (c : Dev nD) : V13 m outs c main_arg5 = m ((c : Thread nD τ).loc main_arg5) :=
  (V13_of m outs c main_arg5 (by decide)).trans <|
  (V12_of m outs c main_arg5 (by decide)).trans <|
  (V11_of m outs c main_arg5 (by decide)).trans <|
  (V10_of m outs c main_arg5 (by decide)).trans <|
  (V9_of m outs c main_arg5 (by decide)).trans <|
  (V8_of m outs c main_arg5 (by decide)).trans <|
  (V7_of m outs c main_arg5 (by decide)).trans <|
  (V6_of m outs c main_arg5 (by decide)).trans <|
  (V5_of m c main_arg5 (by decide)).trans <|
  (V4_of m c main_arg5 (by decide)).trans <|
  (V3_of m c main_arg5 (by decide)).trans <|
  (V2_of m c main_arg5 (by decide)).trans <|
  (V1_of m c main_arg5 (by decide)).trans rfl
/-- `main_arg6` reaches the end as launched: no host stretch writes it, no region may change it. -/
theorem V13_main_arg6 (c : Dev nD) : V13 m outs c main_arg6 = m ((c : Thread nD τ).loc main_arg6) :=
  (V13_of m outs c main_arg6 (by decide)).trans <|
  (V12_of m outs c main_arg6 (by decide)).trans <|
  (V11_of m outs c main_arg6 (by decide)).trans <|
  (V10_of m outs c main_arg6 (by decide)).trans <|
  (V9_of m outs c main_arg6 (by decide)).trans <|
  (V8_of m outs c main_arg6 (by decide)).trans <|
  (V7_of m outs c main_arg6 (by decide)).trans <|
  (V6_of m outs c main_arg6 (by decide)).trans <|
  (V5_of m c main_arg6 (by decide)).trans <|
  (V4_of m c main_arg6 (by decide)).trans <|
  (V3_of m c main_arg6 (by decide)).trans <|
  (V2_of m c main_arg6 (by decide)).trans <|
  (V1_of m c main_arg6 (by decide)).trans rfl
/-- `main_arg7` reaches the end as launched: no host stretch writes it, no region may change it. -/
theorem V13_main_arg7 (c : Dev nD) : V13 m outs c main_arg7 = m ((c : Thread nD τ).loc main_arg7) :=
  (V13_of m outs c main_arg7 (by decide)).trans <|
  (V12_of m outs c main_arg7 (by decide)).trans <|
  (V11_of m outs c main_arg7 (by decide)).trans <|
  (V10_of m outs c main_arg7 (by decide)).trans <|
  (V9_of m outs c main_arg7 (by decide)).trans <|
  (V8_of m outs c main_arg7 (by decide)).trans <|
  (V7_of m outs c main_arg7 (by decide)).trans <|
  (V6_of m outs c main_arg7 (by decide)).trans <|
  (V5_of m c main_arg7 (by decide)).trans <|
  (V4_of m c main_arg7 (by decide)).trans <|
  (V3_of m c main_arg7 (by decide)).trans <|
  (V2_of m c main_arg7 (by decide)).trans <|
  (V1_of m c main_arg7 (by decide)).trans rfl
/-- `main_arg8` reaches the end as launched: no host stretch writes it, no region may change it. -/
theorem V13_main_arg8 (c : Dev nD) : V13 m outs c main_arg8 = m ((c : Thread nD τ).loc main_arg8) :=
  (V13_of m outs c main_arg8 (by decide)).trans <|
  (V12_of m outs c main_arg8 (by decide)).trans <|
  (V11_of m outs c main_arg8 (by decide)).trans <|
  (V10_of m outs c main_arg8 (by decide)).trans <|
  (V9_of m outs c main_arg8 (by decide)).trans <|
  (V8_of m outs c main_arg8 (by decide)).trans <|
  (V7_of m outs c main_arg8 (by decide)).trans <|
  (V6_of m outs c main_arg8 (by decide)).trans <|
  (V5_of m c main_arg8 (by decide)).trans <|
  (V4_of m c main_arg8 (by decide)).trans <|
  (V3_of m c main_arg8 (by decide)).trans <|
  (V2_of m c main_arg8 (by decide)).trans <|
  (V1_of m c main_arg8 (by decide)).trans rfl
/-- `main_arg9` reaches the end as launched: no host stretch writes it, no region may change it. -/
theorem V13_main_arg9 (c : Dev nD) : V13 m outs c main_arg9 = m ((c : Thread nD τ).loc main_arg9) :=
  (V13_of m outs c main_arg9 (by decide)).trans <|
  (V12_of m outs c main_arg9 (by decide)).trans <|
  (V11_of m outs c main_arg9 (by decide)).trans <|
  (V10_of m outs c main_arg9 (by decide)).trans <|
  (V9_of m outs c main_arg9 (by decide)).trans <|
  (V8_of m outs c main_arg9 (by decide)).trans <|
  (V7_of m outs c main_arg9 (by decide)).trans <|
  (V6_of m outs c main_arg9 (by decide)).trans <|
  (V5_of m c main_arg9 (by decide)).trans <|
  (V4_of m c main_arg9 (by decide)).trans <|
  (V3_of m c main_arg9 (by decide)).trans <|
  (V2_of m c main_arg9 (by decide)).trans <|
  (V1_of m c main_arg9 (by decide)).trans rfl
/-- `main_arg10` reaches the end as launched: no host stretch writes it, no region may change it. -/
theorem V13_main_arg10 (c : Dev nD) : V13 m outs c main_arg10 = m ((c : Thread nD τ).loc main_arg10) :=
  (V13_of m outs c main_arg10 (by decide)).trans <|
  (V12_of m outs c main_arg10 (by decide)).trans <|
  (V11_of m outs c main_arg10 (by decide)).trans <|
  (V10_of m outs c main_arg10 (by decide)).trans <|
  (V9_of m outs c main_arg10 (by decide)).trans <|
  (V8_of m outs c main_arg10 (by decide)).trans <|
  (V7_of m outs c main_arg10 (by decide)).trans <|
  (V6_of m outs c main_arg10 (by decide)).trans <|
  (V5_of m c main_arg10 (by decide)).trans <|
  (V4_of m c main_arg10 (by decide)).trans <|
  (V3_of m c main_arg10 (by decide)).trans <|
  (V2_of m c main_arg10 (by decide)).trans <|
  (V1_of m c main_arg10 (by decide)).trans rfl
/-- `main_arg11` reaches the end as launched: no host stretch writes it, no region may change it. -/
theorem V13_main_arg11 (c : Dev nD) : V13 m outs c main_arg11 = m ((c : Thread nD τ).loc main_arg11) :=
  (V13_of m outs c main_arg11 (by decide)).trans <|
  (V12_of m outs c main_arg11 (by decide)).trans <|
  (V11_of m outs c main_arg11 (by decide)).trans <|
  (V10_of m outs c main_arg11 (by decide)).trans <|
  (V9_of m outs c main_arg11 (by decide)).trans <|
  (V8_of m outs c main_arg11 (by decide)).trans <|
  (V7_of m outs c main_arg11 (by decide)).trans <|
  (V6_of m outs c main_arg11 (by decide)).trans <|
  (V5_of m c main_arg11 (by decide)).trans <|
  (V4_of m c main_arg11 (by decide)).trans <|
  (V3_of m c main_arg11 (by decide)).trans <|
  (V2_of m c main_arg11 (by decide)).trans <|
  (V1_of m c main_arg11 (by decide)).trans rfl
/-- `main_arg12` reaches the end as launched: no host stretch writes it, no region may change it. -/
theorem V13_main_arg12 (c : Dev nD) : V13 m outs c main_arg12 = m ((c : Thread nD τ).loc main_arg12) :=
  (V13_of m outs c main_arg12 (by decide)).trans <|
  (V12_of m outs c main_arg12 (by decide)).trans <|
  (V11_of m outs c main_arg12 (by decide)).trans <|
  (V10_of m outs c main_arg12 (by decide)).trans <|
  (V9_of m outs c main_arg12 (by decide)).trans <|
  (V8_of m outs c main_arg12 (by decide)).trans <|
  (V7_of m outs c main_arg12 (by decide)).trans <|
  (V6_of m outs c main_arg12 (by decide)).trans <|
  (V5_of m c main_arg12 (by decide)).trans <|
  (V4_of m c main_arg12 (by decide)).trans <|
  (V3_of m c main_arg12 (by decide)).trans <|
  (V2_of m c main_arg12 (by decide)).trans <|
  (V1_of m c main_arg12 (by decide)).trans rfl
/-- `main_arg13` reaches the end as launched: no host stretch writes it, no region may change it. -/
theorem V13_main_arg13 (c : Dev nD) : V13 m outs c main_arg13 = m ((c : Thread nD τ).loc main_arg13) :=
  (V13_of m outs c main_arg13 (by decide)).trans <|
  (V12_of m outs c main_arg13 (by decide)).trans <|
  (V11_of m outs c main_arg13 (by decide)).trans <|
  (V10_of m outs c main_arg13 (by decide)).trans <|
  (V9_of m outs c main_arg13 (by decide)).trans <|
  (V8_of m outs c main_arg13 (by decide)).trans <|
  (V7_of m outs c main_arg13 (by decide)).trans <|
  (V6_of m outs c main_arg13 (by decide)).trans <|
  (V5_of m c main_arg13 (by decide)).trans <|
  (V4_of m c main_arg13 (by decide)).trans <|
  (V3_of m c main_arg13 (by decide)).trans <|
  (V2_of m c main_arg13 (by decide)).trans <|
  (V1_of m c main_arg13 (by decide)).trans rfl
/-- `main_arg14` reaches the end as launched: no host stretch writes it, no region may change it. -/
theorem V13_main_arg14 (c : Dev nD) : V13 m outs c main_arg14 = m ((c : Thread nD τ).loc main_arg14) :=
  (V13_of m outs c main_arg14 (by decide)).trans <|
  (V12_of m outs c main_arg14 (by decide)).trans <|
  (V11_of m outs c main_arg14 (by decide)).trans <|
  (V10_of m outs c main_arg14 (by decide)).trans <|
  (V9_of m outs c main_arg14 (by decide)).trans <|
  (V8_of m outs c main_arg14 (by decide)).trans <|
  (V7_of m outs c main_arg14 (by decide)).trans <|
  (V6_of m outs c main_arg14 (by decide)).trans <|
  (V5_of m c main_arg14 (by decide)).trans <|
  (V4_of m c main_arg14 (by decide)).trans <|
  (V3_of m c main_arg14 (by decide)).trans <|
  (V2_of m c main_arg14 (by decide)).trans <|
  (V1_of m c main_arg14 (by decide)).trans rfl
/-- `main_arg15` reaches the end as launched: no host stretch writes it, no region may change it. -/
theorem V13_main_arg15 (c : Dev nD) : V13 m outs c main_arg15 = m ((c : Thread nD τ).loc main_arg15) :=
  (V13_of m outs c main_arg15 (by decide)).trans <|
  (V12_of m outs c main_arg15 (by decide)).trans <|
  (V11_of m outs c main_arg15 (by decide)).trans <|
  (V10_of m outs c main_arg15 (by decide)).trans <|
  (V9_of m outs c main_arg15 (by decide)).trans <|
  (V8_of m outs c main_arg15 (by decide)).trans <|
  (V7_of m outs c main_arg15 (by decide)).trans <|
  (V6_of m outs c main_arg15 (by decide)).trans <|
  (V5_of m c main_arg15 (by decide)).trans <|
  (V4_of m c main_arg15 (by decide)).trans <|
  (V3_of m c main_arg15 (by decide)).trans <|
  (V2_of m c main_arg15 (by decide)).trans <|
  (V1_of m c main_arg15 (by decide)).trans rfl

/-! ## The references read at the end are unscoped -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The program's result is an unscoped TensorCore reference. -/
theorem mem_uc_main_v165 : Proc.devRef .tc main_v165 ∈ Pipeline.ucRefs τ sig := mem_uc main_v165 (by decide)
theorem mem_uc_main_arg0 : Proc.devRef .tc main_arg0 ∈ Pipeline.ucRefs τ sig := mem_uc main_arg0 (by decide)
theorem mem_uc_main_arg1 : Proc.devRef .tc main_arg1 ∈ Pipeline.ucRefs τ sig := mem_uc main_arg1 (by decide)
theorem mem_uc_main_arg2 : Proc.devRef .tc main_arg2 ∈ Pipeline.ucRefs τ sig := mem_uc main_arg2 (by decide)
theorem mem_uc_main_arg3 : Proc.devRef .tc main_arg3 ∈ Pipeline.ucRefs τ sig := mem_uc main_arg3 (by decide)
theorem mem_uc_main_arg4 : Proc.devRef .tc main_arg4 ∈ Pipeline.ucRefs τ sig := mem_uc main_arg4 (by decide)
theorem mem_uc_main_arg5 : Proc.devRef .tc main_arg5 ∈ Pipeline.ucRefs τ sig := mem_uc main_arg5 (by decide)
theorem mem_uc_main_arg6 : Proc.devRef .tc main_arg6 ∈ Pipeline.ucRefs τ sig := mem_uc main_arg6 (by decide)
theorem mem_uc_main_arg7 : Proc.devRef .tc main_arg7 ∈ Pipeline.ucRefs τ sig := mem_uc main_arg7 (by decide)
theorem mem_uc_main_arg8 : Proc.devRef .tc main_arg8 ∈ Pipeline.ucRefs τ sig := mem_uc main_arg8 (by decide)
theorem mem_uc_main_arg9 : Proc.devRef .tc main_arg9 ∈ Pipeline.ucRefs τ sig := mem_uc main_arg9 (by decide)
theorem mem_uc_main_arg10 : Proc.devRef .tc main_arg10 ∈ Pipeline.ucRefs τ sig := mem_uc main_arg10 (by decide)
theorem mem_uc_main_arg11 : Proc.devRef .tc main_arg11 ∈ Pipeline.ucRefs τ sig := mem_uc main_arg11 (by decide)
theorem mem_uc_main_arg12 : Proc.devRef .tc main_arg12 ∈ Pipeline.ucRefs τ sig := mem_uc main_arg12 (by decide)
theorem mem_uc_main_arg13 : Proc.devRef .tc main_arg13 ∈ Pipeline.ucRefs τ sig := mem_uc main_arg13 (by decide)
theorem mem_uc_main_arg14 : Proc.devRef .tc main_arg14 ∈ Pipeline.ucRefs τ sig := mem_uc main_arg14 (by decide)
theorem mem_uc_main_arg15 : Proc.devRef .tc main_arg15 ∈ Pipeline.ucRefs τ sig := mem_uc main_arg15 (by decide)

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 3 → Dev nD → sProp (MT nD τ sig Ix (Elt F) ℕ U Lvl))

/-- Item 0: the host stretch `hostOps0` over the unscoped buffers from `V0` to `V1`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- Item 1: the host stretch `hostOps0_1` over the unscoped buffers from `V1` to `V2`, the rest `E 0` riding along. -/
def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)
/-- Item 2: the host stretch `hostOps0_2` over the unscoped buffers from `V2` to `V3`, the rest `E 0` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)
/-- Item 3: the host stretch `hostOps0_3` over the unscoped buffers from `V3` to `V4`, the rest `E 0` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) (E 0)
/-- Item 4: the host stretch `hostOps0_4` over the unscoped buffers from `V4` to `V5`, the rest `E 0` riding along. -/
def seg4 : HostSeg (Ix := Ix) (Name := ℕ) (U := U) (Lvl := Lvl) (pcfgs (F := F)) defs₀ 𝒱₀ L lv :=
  HostSeg.ofOps _ _ _ _ _ (Pipeline.ucRefs τ sig) hostOps0_4
    (fun op h => Pipeline.sub_ucRefs op ((List.forall_iff_forall_mem.mp hostOps0_4_sub) op h))
    (fun op h => (List.forall_iff_forall_mem.mp hostOps0_4_fresh) op h) (V4 m) (E 0)
/-- Item 6: the host stretch `hostOps1` over the unscoped buffers from `V6` to `V7`, the rest `E 1` riding along. -/
def seg6 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V6 m outs) (E 1)
/-- Item 7: the host stretch `hostOps1_1` over the unscoped buffers from `V7` to `V8`, the rest `E 1` riding along. -/
def seg7 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V7 m outs) (E 1)
/-- Item 8: the host stretch `hostOps1_2` over the unscoped buffers from `V8` to `V9`, the rest `E 1` riding along. -/
def seg8 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V8 m outs) (E 1)
/-- Item 9: the host stretch `hostOps1_3` over the unscoped buffers from `V9` to `V10`, the rest `E 1` riding along. -/
def seg9 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V9 m outs) (E 1)
/-- Item 10: the host stretch `hostOps1_4` over the unscoped buffers from `V10` to `V11`, the rest `E 1` riding along. -/
def seg10 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V10 m outs) (E 1)
/-- Item 12: the host stretch `hostOps2` over the unscoped buffers from `V12` to `V13`, the rest `E 2` riding along. -/
def seg12 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V12 m outs) (E 2)

end Segs

section

variable {Ix : Type} [DecidableEq Ix] {U : Type} [URA U] {Lvl : Type} [Preorder Lvl]

/-- The prefetched tables' admissible contents: neither pallas_call has a table. -/
abbrev adm : (p : Fin 2) → (pcfgs (F := F) p).Adm := fun p => (cfgs p).toPCfg_adm

/-- @main's thirteen items as segments on core `c` (the same list on every core: no stretch reads the device): five host
    stretches, the encoder region's record, five host stretches, the decoder region's record, the final slice. -/
abbrev segs (𝒱₀ : Variants) (L : GSem nD τ sig → Finset Ix) (lv : GSem nD τ sig → Ix → Lvl) (E : Fin 3 → Dev nD → sProp (MT nD τ sig Ix (Elt F) ℕ U Lvl)) (ι : Ix)
    (pdats : (p : Fin 2) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (c : Dev nD) :
    List (Seg (pcfgs (F := F)) adm pdats ι defs₀ 𝒱₀ L lv) :=
  [.host (seg0 m 𝒱₀ L lv E),
   .host (seg1 m 𝒱₀ L lv E),
   .host (seg2 m 𝒱₀ L lv E),
   .host (seg3 m 𝒱₀ L lv E),
   .host (seg4 m 𝒱₀ L lv E),
   .region R0,
   .host (seg6 m outs 𝒱₀ L lv E),
   .host (seg7 m outs 𝒱₀ L lv E),
   .host (seg8 m outs 𝒱₀ L lv E),
   .host (seg9 m outs 𝒱₀ L lv E),
   .host (seg10 m outs 𝒱₀ L lv E),
   .region R1,
   .host (seg12 m outs 𝒱₀ L lv E)]

end

/-! ## The run, given the regions' records -/

-- the launch theorem's implicit arguments are found by unifying its conclusion with this one, which takes unfolding
-- plain definitions in a metavariable's type
set_option backward.isDefEq.respectTransparency.types false in
/-- THE RUN OF @main, CONDITIONAL ON THE REGIONS. For any user algebra, level assignment, launch dues and ghost
    resources, any rest states `E` the launch makes on every core at once (`hE0`) and that end owing nothing (`hE2`),
    any contents the regions leave (`outs`) and any proof data: GIVEN, per region K, a segment record entered from the
    thread state before it (every unscoped buffer at `V5`, resp. `V11`, beside the rest) and left at the one after it
    (`V6`, resp. `V12`: the region's output array replaced), every weakly fair execution of @main from memory `m` with
    zero counters terminates, and in every final memory each unscoped TensorCore buffer of each core holds its entry of
    the last valuation `V13`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, hpre0 c, hpost0 c, .rfl, .rfl, .rfl, .rfl, hpre1 c, hpost1 c, sep_mono .rfl (hE2 c)⟩)
    (hinit := ?_) (QY := fun c s => ∀ b ∈ Pipeline.ucRefs τ sig, s.mem ((c : Thread nD τ).1, b) = V13 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation against the final state
    unfold StableHlo.held
    iintro ⟨Hh, HSI⟩
    imodintro
    iapply (pointsTo_read_all (Pipeline.ucRefs τ sig) (fun b => ((c : Thread nD τ).1, b)) (V13 m outs c) s')
    isplitl [Hh] <;> iassumption

end Cert.Kernel.Hand

end
-- ==== Proof.EncoderRegionBitsRuns.lean ====
/- The encoder region of @main (the first TensorCore region: a grid of 50 points, an accumulator carried between
   them in a scratch buffer, the output stored at the last point only), at the buffer contents `V` the region is
   entered with. This module: each window's block at a grid point; what an input's staging buffer holds when the body
   runs (its block, fetched at that point or resident since the first); the body's two branch conditions in closed form
   over the grid; where the output window is idle; the staging and scratch memrefs; and the region's invariant with
   the accumulator separated from the core's other scoped buffers. -/
import proofs.«173102_j37185826849263_1_alg».proof.Proof.Gen.Kernel.Launch
import proofs.«173102_j37185826849263_1_alg».proof.Proof.Gen.Kernel.Skeleton
import proofs.«173102_j37185826849263_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a store's rectangle is looked at structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at it
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input's staging buffer

Each of the five inputs is uncut and never idle, and the body leaves its block in place. So at every point its current
staging buffer holds its block there: fetched at that point (windows 0 and 1, whose block index moves with the point),
or fetched at the first point and resident since (windows 2, 3, 4, whose block index is constant: unfetched, the index
has not moved, and the block the buffer holds is still this point's). For ANY proof data whose array is `V`'s (`hA`)
and whose body leaves the block in place (`hafter`). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first branch (reset the accumulator), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The condition of the body's second branch (compute and store the output), from the grid coordinate. -/
abbrev cond0_1 (i : grid0.Coords) : Prop := k0_cond2 i = 1#1
/-- It holds at the last point only. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle

Three cases of the two conditions occur on the grid. A: the first point (reset, then accumulate). B: the points
strictly between (accumulate). C: the last point (accumulate, then store the output). -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- At the point of case A the output window is idle: the case stores nothing into it. -/
theorem idleAt0_5_A : ∀ t : Fin cfg0.N, cond0_0 (grid0.coords t) → ¬cond0_1 (grid0.coords t) → cfg0.idle 5 (grid0.coords t) = true := by decide +kernel
/-- At the point of case A the pipeline does not write the output's block back. -/
theorem noFlush0_5_A : ∀ t : Fin cfg0.N, cond0_0 (grid0.coords t) → ¬cond0_1 (grid0.coords t) → (cfg0.win 5).flush t = false := by decide +kernel
/-- At the points of case B the output window is idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write the output's block back. -/
theorem noFlush0_5_B : ∀ t : Fin cfg0.N, ¬cond0_0 (grid0.coords t) → ¬cond0_1 (grid0.coords t) → (cfg0.win 5).flush t = false := by decide +kernel
/-- At the point of case C the output window is live: the case stores into it. -/
theorem liveAt0_5_C : ∀ t : Fin cfg0.N, ¬cond0_0 (grid0.coords t) → cond0_1 (grid0.coords t) → cfg0.idle 5 (grid0.coords t) = false := by decide +kernel

/-! ## The memrefs the body is called with -/

/-- The output window's one staging buffer, through which its contents are stated. -/
abbrev VO0_5 : View sig .tc .vmem S1x256 .f32 := (Memref.whole cc0_stg5_0 : Memref sig .tc .vmem S1x256 .f32).view
/-- Each window's current staging memref at point `t`, spelled as the pipeline passes it, and its wholeness. -/
abbrev ms0_0 (t : Fin cfg0.N) : Memref sig .tc .vmem S1x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- The scratch operand: a whole scoped buffer of the kernel's own, passed beside the windows. It holds the accumulator. -/
abbrev scM0_0 : Memref sig .tc .vmem S1x512 .f32 := Memref.whole cc0_scratch0
/-- The accumulator as a view: what it holds is stated through it. -/
abbrev VS0_0 : View sig .tc .vmem S1x512 .f32 := scM0_0.view

/-! ## The region's invariant, the accumulator apart -/

/-- The core's scoped buffers that are neither a staging buffer of this region nor its accumulator (the later region's
    staging buffers), each whole at some contents: this region carries them through untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region: the accumulator as a whole memref owned at some contents, the other scoped
    buffers, and the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

end Cert.Kernel.Hand

end
-- ==== Proof.EncoderRegionBitsRunA.lean ====
/- The encoder region of @main: the whole-body run of its kernel in case A of the two branch conditions. -/
import proofs.«173102_j37185826849263_1_alg».proof.Proof.EncoderRegionBitsRuns

-- membership of an index in a store's rectangle is looked at structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces, the
    last store first, IN CASE A, the first point: the first branch taken (the accumulator, loaded and discarded, is overwritten with zeros), the
    second not. The accumulator is handed over at anything and ends with two stores in it — the zeros, then the zeros (read
    back from it) plus this point's product —; the output's buffer, which the case does not touch, is handed back as it came.
    WITH the proof that on whole memrefs — the five inputs' at their contents `x·` — the body runs to the continuation
    holding the inputs' as they were and the pieces written. The printed function is its skeleton of memory operations
    over named payloads; the run goes through it operation by operation, each branch decided by the case's hypotheses;
    the pieces are what that run finds. -/
noncomputable def kernelRun0_A (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) :
    Σ' (L5 : List (View.Piece (Elt F) S1x256 .f32)), { LS0 : List (View.Piece (Elt F) S1x512 .f32) //
      ∀ (xi5 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨[], ?_, fun xi5 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.EncoderRegionBitsRunB.lean ====
/- The encoder region of @main: the whole-body run of its kernel in case B of the two branch conditions. -/
import proofs.«173102_j37185826849263_1_alg».proof.Proof.EncoderRegionBitsRunA

-- membership of an index in a store's rectangle is looked at structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces, the
    last store first, IN CASE B, a point strictly between the first and the last: neither branch taken. The accumulator is handed over at what the
    point before left (`xs0`) and ends with one store in it: `xs0` plus this point's product. The output's buffer, which the
    case does not touch, is handed back as it came.
    WITH the proof that on whole memrefs — the five inputs' at their contents `x·` — the body runs to the continuation
    holding the inputs' as they were and the pieces written. The printed function is its skeleton of memory operations
    over named payloads; the run goes through it operation by operation, each branch decided by the case's hypotheses;
    the pieces are what that run finds. -/
noncomputable def kernelRun0_B (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) :
    Σ' (L5 : List (View.Piece (Elt F) S1x256 .f32)), { LS0 : List (View.Piece (Elt F) S1x512 .f32) //
      ∀ (xi5 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨[], ?_, fun xi5 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Hand

end
-- ==== Proof.EncoderRegionBitsRunC.lean ====
/- The encoder region of @main: the whole-body run of its kernel in case C of the two branch conditions. -/
import proofs.«173102_j37185826849263_1_alg».proof.Proof.EncoderRegionBitsRunB

-- membership of an index in a store's rectangle is looked at structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces, the
    last store first, IN CASE C, the last point: the first branch not taken, the second taken. The accumulator is handed over at what the point
    before left (`xs0`) and ends with one store in it, `xs0` plus this point's product; the output's buffer is handed over
    at anything, is loaded (the value unused) and ends with one store in it: the second layer applied to the accumulator
    just stored.
    WITH the proof that on whole memrefs — the five inputs' at their contents `x·` — the body runs to the continuation
    holding the inputs' as they were and the pieces written. The printed function is its skeleton of memory operations
    over named payloads; the run goes through it operation by operation, each branch decided by the case's hypotheses;
    the pieces are what that run finds. -/
noncomputable def kernelRun0_C (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) :
    Σ' (L5 : List (View.Piece (Elt F) S1x256 .f32)), { LS0 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.EncoderRegionBits.lean ====
/- The encoder region of @main: its frame. What the accumulator and the output's staging buffer hold after each of the 50
   grid points (`outsAt0`, by recursion on the point: the case its conditions select, run over what the point before
   left in the accumulator); the region's invariant carrying the accumulator's contents from point to point; the
   pipeline's proof data at the entry contents `V`; the body obligation at a generic point, by cases on the closed forms
   of the conditions, each leaf that case's run; and the invariant's two ends — the launch's before the first point, the
   launch's again after the last. -/
import proofs.«173102_j37185826849263_1_alg».proof.Proof.EncoderRegionBitsRunC

-- membership of an index in a store's rectangle is looked at structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at it
variable (V : (c : Dev nD) → (b : Ref sig .tc) → Buf (Elt F) ((c : Thread nD τ).loc b))

/-! ## What each case leaves -/

/-- Case A stores nothing into the output (the window is idle at its points and not written back there): no pieces — a
    placeholder (junk read back) that nothing consults, since at these points the window is neither written back nor
    read at the next point. -/
def out0_A_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) : Vec F S1x256 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- Case A's stores into the accumulator cover it (each is of the whole `[1,512]` buffer). -/
theorem scover0_A_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) (y : S1x512.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1x512.size (by sl_kernel_rfl) y

/-- What case A leaves in the accumulator: its pieces read back over junk. -/
def sout0_A_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) : Vec F S1x512 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- Case B stores nothing into the output (the window is idle at its points and not written back there): no pieces — a
    placeholder (junk read back) that nothing consults, since at these points the window is neither written back nor
    read at the next point. -/
def out0_B_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x256 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- Case B's stores into the accumulator cover it (each is of the whole `[1,512]` buffer). -/
theorem scover0_B_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) (y : S1x512.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1x512.size (by sl_kernel_rfl) y

/-- What case B leaves in the accumulator: its pieces read back over junk. -/
def sout0_B_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x512 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- Case C's one store into the output covers its block. -/
theorem cover0_C_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) (y : S1x256.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1x256.size (by sl_kernel_rfl) y

/-- What case C leaves in the output's staging buffer: its pieces read back over junk. -/
def out0_C_5 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x256 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- Case C's stores into the accumulator cover it (each is of the whole `[1,512]` buffer). -/
theorem scover0_C_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) (y : S1x512.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1x512.size (by sl_kernel_rfl) y

/-- What case C leaves in the accumulator: its pieces read back over junk. -/
def sout0_C_0 (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) : Vec F S1x512 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-! ## What the output's buffer and the accumulator hold after each point -/

/-- THE ACCUMULATION. What the output's staging buffer and the accumulator hold after the body at position `n` (a pair:
    the output, then the accumulator): the case the closed forms select at `n`, run at the point's memrefs and input
    blocks, the accumulator it reads at what this leaves at `n - 1`. Position 0 is case A; no later position of the 50
    meets the first condition again, and none meets both. -/
def outsAt0 (c : Dev nD) : (n : ℕ) → n < cfg0.N → Vec F S1x256 .f32 × Vec F S1x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 50 = 0 then
      False.elim (by have hN : n + 1 < 50 := lt_of_lt_of_eq hn (show cfg0.N = 50 from N_0); omega)
    else
      if h1 : (n + 1) % 50 = 49 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at the point of case A: that case's contents. -/
theorem outsAt0_A (c : Dev nD) (t : Fin cfg0.N) (h0 : t.val % 50 = 0) (h1 : ¬t.val % 50 = 49) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 50 := lt_of_lt_of_eq hn (show cfg0.N = 50 from N_0); (try dsimp only at h0); omega)

/-- `outsAt0` at a point of case B: that case's contents, over what the point before left. -/
theorem outsAt0_B (c : Dev nD) (t : Fin cfg0.N) (h0 : ¬t.val % 50 = 0) (h1 : ¬t.val % 50 = 49) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the point of case C: that case's contents, over what the point before left. -/
theorem outsAt0_C (c : Dev nD) (t : Fin cfg0.N) (h0 : ¬t.val % 50 = 0) (h1 : t.val % 50 = 49) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point what the launch hands over (every scoped buffer
    that is no staging buffer at anything, the generator register at some state); afterwards the accumulator at what
    the point before left in it (`outsAt0`'s second component), the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the encoder pipeline on core `c`: the arrays as the region finds them (`V`); after the body at
    point `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

/-- The proof data's arrays are the region-entry contents: the definition projected, so that `V` is never unfolded. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or resident. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks (`before0_W`); the closed forms say which case the point
    is in; that case's run applies. The invariant hands the body the accumulator at what the point before left (at
    anything at the first point) and takes it back at this point's contents, the stores covering it; the other scoped
    buffers and the generator register pass through; the core owes nothing throughout. At the points of cases A and B
    the output's buffer, idle there, goes back as it came; at the point of case C it is left at that case's store,
    which covers it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 50 = 49
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## The invariant's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.DecoderRegionBits.lean ====
/- The decoder region of @main: the second TensorCore call, run over a grid of 10 column tiles of width 1024.
   At each tile the body computes  relu(z·Wd1 + bd1)·Wd2p_tile + bd2p_tile  from five input blocks and stores it
   over the whole output block. This file is that region's half of a frame over several regions, stated at a
   parameter V (what the TensorCore's buffers hold when the region is entered) and at any float interpretation F:
   each window's block at a grid point, what the body leaves in the output block as a closed function of the five
   input blocks, the body's triple, the region's proof data, and the body obligation at every grid point.
   Inputs 0, 1, 2 (z, Wd1, bd1) have constant block index and are transferred at the first point only; inputs
   3, 4 (the Wd2p and bd2p column tiles) are transferred at every point. Either way the body finds the window's
   block in its buffer: where no transfer happened the block index has not moved and the body left the block in place. -/
import proofs.«173102_j37185826849263_1_alg».proof.Proof.Gen.Kernel.Launch
import proofs.«173102_j37185826849263_1_alg».proof.Proof.Gen.Kernel.Skeleton
import proofs.«173102_j37185826849263_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of extent 1024 recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section DecoderRegion
-- what the TensorCore's buffers hold when the region is entered
variable (V : (c : Dev nD) → (b : Ref sig .tc) → Buf (Elt F) ((c : Thread nD τ).loc b))

/-! ## The windows' blocks -/

/-- Window w's block at grid point t: the part of its array, as the region finds it, that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of input 0 (z, constant block index) holds its block at every point, transferred there or not, for any
    proof data over the entry arrays whose body leaves that block in place. -/
theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input 1 (Wd1, constant block index). -/
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input 2 (bd1, constant block index). -/
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of input 3 (the column tile of Wd2p, block index the grid coordinate). -/
theorem found1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same of input 4 (the column tile of bd2p, block index the grid coordinate). -/
theorem found1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rZ : Rect S1x256 := Rect.unit (s := S1x256) ![0, 0] S1x256.size inb_S1x256_S1x256_0_0
abbrev rWd1 : Rect S256x512 := Rect.unit (s := S256x512) ![0, 0] S256x512.size inb_S256x512_S256x512_0_0
abbrev rBd1 : Rect S1x512 := Rect.unit (s := S1x512) ![0, 0] S1x512.size inb_S1x512_S1x512_0_0
abbrev rWd2 : Rect S512x1024 := Rect.unit (s := S512x1024) ![0, 0] S512x1024.size inb_S512x1024_S512x1024_0_0
abbrev rRow : Rect S1x1024 := Rect.unit (s := S1x1024) ![0, 0] S1x1024.size inb_S1x1024_S1x1024_0_0

/-! ## What the body leaves in the output block -/

/-- The output block after the body, from the five input blocks: its one store, of
    relu(z·Wd1 + bd1)·Wd2p_tile + bd2p_tile, laid over the whole block. -/
def out1_5 (x0 : Vec F S1x256 .f32) (x1 : Vec F S256x512 .f32) (x2 : Vec F S1x512 .f32) (x3 : Vec F S512x1024 .f32)
    (x4 : Vec F S1x1024 .f32) : Vec F S1x1024 .f32 :=
  View.canon [⟨rRow, k1_pay1 (View.ld x0 rZ) (View.ld x1 rWd1) (View.ld x2 rBd1) (View.ld x3 rWd2) (View.ld x4 rRow)⟩]

/-- The one store's rectangle is the whole block, so every index of the block lies in it. -/
theorem cover1_5 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

/-! ## The body's triple -/

set_option maxHeartbeats 1000000 in
/-- The body on whole buffers, the five inputs' reading x0 … x4 and the output's holding anything (the body reads
    the output buffer once before storing and does not use what it read), runs to the continuation with the inputs'
    as they were and the output's at out1_5 of the inputs'. -/
theorem sound_kernel1 (c : Dev nD) (E : Set ℕ) (i : grid1.Coords)
    (arg1 : Memref sig .tc .vmem S1x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S512x1024 .f32) (harg4 : arg4.IsWhole)
    (arg5 : Memref sig .tc .vmem S1x1024 .f32) (harg5 : arg5.IsWhole) (arg6 : Memref sig .tc .vmem S1x1024 .f32) (harg6 : arg6.IsWhole)
    (x0 : Vec F S1x256 .f32) (x1 : Vec F S256x512 .f32) (x2 : Vec F S1x512 .f32) (x3 : Vec F S512x1024 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__decoder_kernel i arg1 harg1 arg2 harg2 arg3 harg3 arg4 harg4 arg5 harg5 arg6 harg6) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- The proof data of the decoder pipeline on core c: the arrays as the region finds them; after the body at point t
    each input's buffer at its block and the output's at out1_5 of the five input blocks; the invariant that of a
    body touching nothing but its windows' buffers; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's buffer holds its block at every point, transferred there or not. -/
theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d
theorem before1_3 (c : Dev nD) (t : Fin cfg1.N) (d) : (dat1 V c).before 3 t d = iblk1 V c 3 t :=
  found1_3 V (dat1 V c) (A_eq1 V c 3) (after1_3 V c) t d
theorem before1_4 (c : Dev nD) (t : Fin cfg1.N) (d) : (dat1 V c).before 4 t d = iblk1 V c 4 t :=
  found1_4 V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the decoder pipeline, at every point. -/
theorem body_obligation1 (c : Dev nD) : BodyObligation (dat1 (F := F) V c) (defs₀ (F := F)) Variants.none () Set.univ := fun t => by
  rw [bigSep_W1, bigSep_W1]
  exact sound_body1 V c t

end DecoderRegion

end Cert.Kernel.Hand

end
-- ==== Proof.RegionRecordsBits.lean ====
/-
  The two kernel regions of the program as segments of its run.

  Between two items of the program a core holds every unscoped buffer at a known valuation, beside its
  generator register at some state and a core that owes nothing. A region is entered from such a state at
  a valuation `W` and left at a valuation `W'` that has the region's arrays at what the write-backs of
  all grid points leave (`Dat.arrAt … N`) and agrees with `W` on every other buffer.

  Region 0 (the encoder) keeps an accumulator in a scratch buffer between grid points, so its invariant
  is not the plain one; all that is used of it here is that the plain invariant gives it at the first
  point and is given back by it after the last. Region 1 (the decoder) keeps nothing between points.
-/
import proofs.«173102_j37185826849263_1_alg».proof.Proof.DecoderRegionBits

set_option maxRecDepth 16384

noncomputable section

namespace Cert.Kernel.Rec

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A valuation of every buffer of a core, read at the TensorCore's references. -/
abbrev tcv (W : Dev nD → Valuation τ sig (Elt F)) : (c : Dev nD) → (b : Ref sig .tc) → Buf (Elt F) ((c : Thread nD τ).loc b) :=
  fun c b => W c b

/-- No pipeline of this program has a prefetched table. -/
abbrev adm : (p : Fin 2) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

section Records

variable (Wa Wa' Wb Wb' : Dev nD → Valuation τ sig (Elt F))
variable (D0 : (c : Dev nD) → Dat τ (Elt F) Unit ℕ (UR sig nD τ) ℕ cfg0 c)

/-- The proof data of both pipelines, each at its region's entry contents. -/
def pdats : (p : Fin 2) → (c : Dev nD) → Dat τ (Elt F) Unit ℕ (UR sig nD τ) ℕ (Pipeline.pin (pcfgs (F := F)) adm p) c
  | ⟨0, _⟩ => fun c => D0 c
  | ⟨1, _⟩ => fun c => dat1 (tcv Wb) c

set_option backward.isDefEq.respectTransparency.types false in
/-- Region 1 as a segment: entered with every unscoped buffer at `Wb`, left with them at `Wb'`. -/
def reg1
    (hF1 : ∀ c w, (dat1 (tcv Wb) c).arrAt w cfg1.N = tcv Wb' c (Pipeline.arrRef spec1 w))
    (hrest1 : ∀ c b, b ∉ Finset.univ.image (Pipeline.arrRef spec1) → tcv Wb' c b = tcv Wb c b) :
    Pipeline.RegionSeg (pcfgs (F := F)) adm (pdats Wb D0) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv Wb) c).loose
  hwaits := Pipeline.hwaits_of_owed_zero _ _ _ _ L lv 1 fun _ _ => rfl
  pre c := iprop(StableHlo.held (c : Thread nD τ) (Pipeline.ucRefs τ sig) (Wb c) ∗ R c)
  post c := iprop(StableHlo.held (c : Thread nD τ) (Pipeline.ucRefs τ sig) (Wb' c) ∗ R c)
  X c := iprop(∃ r, prngReg c r)
  Y c := iprop(∃ r, prngReg c r)
  Z c := Pipeline.unscopedRest (Ix := Unit) (Name := ℕ) (U := UR sig nD τ) (Lvl := ℕ) spec1 c (tcv Wb c)
  hentry c := by
    rw [Pipeline.ownSems0_none]
    have hsplit := Pipeline.arrays_of_unscopedBufs (p := 1) (pcfgs (F := F)) adm (pdats Wb D0) launch1.win launch1.arr_whole c
      ((pdats Wb D0 1 c).share_full fun _ => rfl) (tcv Wb c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats Wb D0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats Wb D0 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats Wb D0) ((pdats Wb D0 1 c).share_full fun _ => rfl)
      (tcv Wb c) (tcv Wb' c) ((pdats Wb D0 1 c).arrAt · cfg1.N) (hF1 c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 0 as a segment: entered with every unscoped buffer at `Wa`, left with them at `Wa'`. Its invariant
    carries the accumulator between grid points; the plain invariant gives it at the first point (`hin0`) and is
    given back after the last (`hout0`). -/
def reg0
    (hA0 : ∀ c w, (D0 c).A w = tcv Wa c (Pipeline.arrRef spec0 w))
    (hq0 : ∀ c w, (D0 c).q w = fullShare)
    (howed0 : ∀ c t, (D0 c).owed t = 0)
    (hrec0 : ∀ c t, (D0 c).recorded t = Set.univ)
    (hbody0 : ∀ c, BodyObligation (D0 c) (defs₀ (F := F)) Variants.none () Set.univ)
    (hin0 : ∀ c, Pipeline.ΦA spec0 c ⊢ (D0 c).Φ 0)
    (hout0 : ∀ c, (D0 c).Φ (Fin.last cfg0.N) ⊢ Pipeline.ΦA spec0 c)
    (hF0 : ∀ c w, (D0 c).arrAt w cfg0.N = tcv Wa' c (Pipeline.arrRef spec0 w))
    (hrest0 : ∀ c b, b ∉ Finset.univ.image (Pipeline.arrRef spec0) → tcv Wa' c b = tcv Wa c b) :
    Pipeline.RegionSeg (pcfgs (F := F)) adm (pdats Wb D0) () defs₀ 𝒱₀ L lv 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ L lv 0 fun c t => howed0 c t
  pre c := iprop(StableHlo.held (c : Thread nD τ) (Pipeline.ucRefs τ sig) (Wa c) ∗ R c)
  post c := iprop(StableHlo.held (c : Thread nD τ) (Pipeline.ucRefs τ sig) (Wa' c) ∗ R c)
  X c := iprop(∃ r, prngReg c r)
  Y c := iprop(∃ r, prngReg c r)
  Z c := Pipeline.unscopedRest (Ix := Unit) (Name := ℕ) (U := UR sig nD τ) (Lvl := ℕ) spec0 c (tcv Wa c)
  hentry c := by
    rw [Pipeline.ownSems0_none]
    have hsplit := Pipeline.arrays_of_unscopedBufs (p := 0) (pcfgs (F := F)) adm (pdats Wb D0) launch0.win launch0.arr_whole c
      ((pdats Wb D0 0 c).share_full (hq0 c)) (tcv Wa c) (hA0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats Wb D0 0 c).owed 0 = 0 from howed0 c 0]
      icases HO with ⟨%W, HO⟩; iexists W; isplitr
      · ipureintro
        exact fun x _ => Or.inl (by rw [show (pdats Wb D0 0 c).recorded 0 = Set.univ from hrec0 c 0]; exact Set.mem_univ x)
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) spec0 c) ⊢ (Pipeline.ΦA spec0 c : sProp 𝕄) := by
      unfold Pipeline.ΦA
      iintro ⟨Hp, -, Hr⟩
      isplitl [Hr]; · iexact Hr
      iexact Hp
    exact h.trans (hin0 c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) spec0 c) := by
      unfold Pipeline.ΦA
      iintro ⟨Hr, Hp⟩
      isplitl [Hp]; · iexact Hp
      isplitr; · iempintro
      iexact Hr
    exact (hout0 c).trans h
  hexit c := by
    have hjoin := Pipeline.unscopedBufs_of_arrays (p := 0) (pcfgs (F := F)) adm (Ix := Unit) (Name := ℕ) (U := UR sig nD τ) (Lvl := ℕ)
      launch0.win launch0.arr_whole c (pdats Wb D0) ((pdats Wb D0 0 c).share_full (hq0 c))
      (tcv Wa c) (tcv Wa' c) ((pdats Wb D0 0 c).arrAt · cfg0.N) (hF0 c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats Wb D0 0 c).owed (Fin.last (Pipeline.pin (pcfgs (F := F)) adm 0).N) = 0 from howed0 c _]
    icases HO with ⟨%W, -, HO⟩; iexists W; iexact HO

end Records

end Cert.Kernel.Rec

end
-- ==== Proof.RunBits.lean ====
/-
  The run of the whole program: every weakly fair execution terminates, nothing faults, and at the end every
  unscoped buffer of every core holds a known valuation `V13` — the launch contents pushed through the host
  operations and, at each of the two kernel regions, the region's output array replaced by what the write-backs
  of all its grid points leave.

  The conditional run over one record per region is instantiated here: the contents the encoder region leaves
  in its [1,256] output (`out6`), the contents the decoder region leaves in its [1,10240] output (`out12`, which
  depends on `out6` through the host operations in between), and the two region records at those valuations.
-/
import proofs.«173102_j37185826849263_1_alg».proof.Proof.MainRunBits
import proofs.«173102_j37185826849263_1_alg».proof.Proof.EncoderRegionBits
import proofs.«173102_j37185826849263_1_alg».proof.Proof.RegionRecordsBits

set_option maxRecDepth 16384

noncomputable section

namespace Cert.Kernel.Rec

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two regions leave -/

/-- What the encoder region leaves in its output array: the write-backs of all 50 points folded. -/
def out6 (c : Dev nD) : Buf (Elt F) ((c : Thread nD τ).loc main_v159) :=
  (dat0 (tcv (V5 m)) c).arrAt 5 cfg0.N

/-- The contents the regions leave, with only the encoder's known. -/
def outs1 : Outs (F := F) := fun _ r c =>
  Function.update (fun r => m ((c : Thread nD τ).loc r)) main_v159 (out6 m c) r

/-- What the decoder region leaves in its output array: the write-backs of all 10 points folded. -/
def out12 (c : Dev nD) : Buf (Elt F) ((c : Thread nD τ).loc main_v164) :=
  (dat1 (tcv (V11 m (outs1 m))) c).arrAt 5 cfg1.N

/-- The contents both regions leave. -/
def outs2 : Outs (F := F) := fun _ r c =>
  Function.update (Function.update (fun r => m ((c : Thread nD τ).loc r)) main_v164 (out12 m c)) main_v159 (out6 m c) r

theorem outs1_v159 (c : Dev nD) : outs1 m 6 main_v159 c = out6 m c := by
  unfold outs1; exact Function.update_self _ _ _
theorem outs2_v159 (c : Dev nD) : outs2 m 6 main_v159 c = out6 m c := by
  unfold outs2; exact Function.update_self _ _ _
theorem outs2_v164 (c : Dev nD) : outs2 m 12 main_v164 c = out12 m c := by
  unfold outs2
  rw [Function.update_of_ne (show main_v164 ≠ main_v159 by decide)]
  exact Function.update_self _ _ _

/-- Up to the decoder region the valuations read only the encoder's output. -/
theorem V6_outs (c : Dev nD) : V6 m (outs2 m) c = V6 m (outs1 m) c := by
  dsimp only [V6]; rw [outs2_v159, outs1_v159]
theorem V11_outs (c : Dev nD) : V11 m (outs2 m) c = V11 m (outs1 m) c := by
  dsimp only [V11, V10, V9, V8, V7]; rw [V6_outs]

/-! ## Each region's arrays after it, and every other buffer unchanged -/

theorem V6_v159 (c : Dev nD) : V6 m (outs2 m) c main_v159 = out6 m c := by
  dsimp only [V6]; rw [Function.update_self, outs2_v159]
theorem V12_v164 (c : Dev nD) : V12 m (outs2 m) c main_v164 = out12 m c := by
  dsimp only [V12]; rw [Function.update_self, outs2_v164]

theorem hF0 (c : Dev nD) (w : Fin cfg0.W) :
    (dat0 (tcv (V5 m)) c).arrAt w cfg0.N = tcv (V6 m (outs2 m)) c (Pipeline.arrRef spec0 w) := by
  match w with
  | ⟨0, _⟩ => exact ((dat0 (tcv (V5 m)) c).arrAt_in 0 rfl _).trans ((A_eq0 (tcv (V5 m)) c 0).trans (V6_of m (outs2 m) c _ (by decide)).symm)
  | ⟨1, _⟩ => exact ((dat0 (tcv (V5 m)) c).arrAt_in 1 rfl _).trans ((A_eq0 (tcv (V5 m)) c 1).trans (V6_of m (outs2 m) c _ (by decide)).symm)
  | ⟨2, _⟩ => exact ((dat0 (tcv (V5 m)) c).arrAt_in 2 rfl _).trans ((A_eq0 (tcv (V5 m)) c 2).trans (V6_of m (outs2 m) c _ (by decide)).symm)
  | ⟨3, _⟩ => exact ((dat0 (tcv (V5 m)) c).arrAt_in 3 rfl _).trans ((A_eq0 (tcv (V5 m)) c 3).trans (V6_of m (outs2 m) c _ (by decide)).symm)
  | ⟨4, _⟩ => exact ((dat0 (tcv (V5 m)) c).arrAt_in 4 rfl _).trans ((A_eq0 (tcv (V5 m)) c 4).trans (V6_of m (outs2 m) c _ (by decide)).symm)
  | ⟨5, _⟩ => exact (V6_v159 m c).symm
  | ⟨n + 6, h⟩ => exact absurd h (by show ¬ n + 6 < 6; omega)

theorem hrest0 (c : Dev nD) : ∀ b, b ∉ Finset.univ.image (Pipeline.arrRef spec0) →
    tcv (V6 m (outs2 m)) c b = tcv (V5 m) c b := fun b hb =>
  V6_of m (outs2 m) c b (by
    intro h
    rw [List.mem_singleton] at h
    subst h
    exact hb (Finset.mem_image.mpr ⟨5, Finset.mem_univ _, rfl⟩))

/-- A reference the decoder region does not write holds after it what it held before it. -/
theorem V12_keep (c : Dev nD) (r : Ref sig .tc) (hr : r ∉ ([main_v164] : List (Ref sig .tc))) :
    V11 m (outs1 m) c r = V12 m (outs2 m) c r := by
  rw [V12_of m (outs2 m) c r hr, V11_outs]

set_option maxHeartbeats 1000000 in
theorem hF1 (c : Dev nD) (w : Fin cfg1.W) :
    (dat1 (tcv (V11 m (outs1 m))) c).arrAt w cfg1.N = tcv (V12 m (outs2 m)) c (Pipeline.arrRef spec1 w) := by
  match w with
  | ⟨0, _⟩ => exact ((dat1 (tcv (V11 m (outs1 m))) c).arrAt_in 0 rfl _).trans ((A_eq1 (tcv (V11 m (outs1 m))) c 0).trans (V12_keep m c main_v159 (by decide)))
  | ⟨1, _⟩ => exact ((dat1 (tcv (V11 m (outs1 m))) c).arrAt_in 1 rfl _).trans ((A_eq1 (tcv (V11 m (outs1 m))) c 1).trans (V12_keep m c main_arg12 (by decide)))
  | ⟨2, _⟩ => exact ((dat1 (tcv (V11 m (outs1 m))) c).arrAt_in 2 rfl _).trans ((A_eq1 (tcv (V11 m (outs1 m))) c 2).trans (V12_keep m c main_v162 (by decide)))
  | ⟨3, _⟩ => exact ((dat1 (tcv (V11 m (outs1 m))) c).arrAt_in 3 rfl _).trans ((A_eq1 (tcv (V11 m (outs1 m))) c 3).trans (V12_keep m c main_v160 (by decide)))
  | ⟨4, _⟩ => exact ((dat1 (tcv (V11 m (outs1 m))) c).arrAt_in 4 rfl _).trans ((A_eq1 (tcv (V11 m (outs1 m))) c 4).trans (V12_keep m c main_v163 (by decide)))
  | ⟨5, _⟩ => exact (V12_v164 m c).symm
  | ⟨n + 6, h⟩ => exact absurd h (by show ¬ n + 6 < 6; omega)

theorem hrest1 (c : Dev nD) : ∀ b, b ∉ Finset.univ.image (Pipeline.arrRef spec1) →
    tcv (V12 m (outs2 m)) c b = tcv (V11 m (outs1 m)) c b := fun b hb =>
  (V12_keep m c b (by
    intro h
    rw [List.mem_singleton] at h
    subst h
    exact hb (Finset.mem_image.mpr ⟨5, Finset.mem_univ _, rfl⟩))).symm

/-! ## The regions' records and the run -/

/-- The proof data of both pipelines at their regions' entry contents. -/
abbrev pd : (p : Fin 2) → (c : Dev nD) → Dat τ (Elt F) Unit ℕ (UR sig nD τ) ℕ (Pipeline.pin (pcfgs (F := F)) adm p) c :=
  pdats (V11 m (outs1 m)) (fun c => dat0 (tcv (V5 m)) c)

/-- The encoder region's record: entered at `V5`, left at `V6`. -/
def r0 : RegionSeg (pcfgs (F := F)) adm (pd m) () defs₀ 𝒱₀ L lv 0 :=
  reg0 (Wa := V5 m) (Wa' := V6 m (outs2 m)) (Wb := V11 m (outs1 m)) (D0 := fun c => dat0 (tcv (V5 m)) c)
    (fun c w => A_eq0 (tcv (V5 m)) c w) (fun _ _ => rfl) (fun _ _ => rfl) (fun _ _ => rfl)
    (fun c => body_obligation0 (tcv (V5 m)) c) (fun c => hin0 (tcv (V5 m)) c) (fun c => hout0 (tcv (V5 m)) c)
    (hF0 m) (hrest0 m)

/-- The decoder region's record: entered at `V11`, left at `V12`. -/
def r1 : RegionSeg (pcfgs (F := F)) adm (pd m) () defs₀ 𝒱₀ L lv 1 :=
  reg1 (Wb := V11 m (outs1 m)) (Wb' := V12 m (outs2 m)) (D0 := fun c => dat0 (tcv (V5 m)) c) (hF1 m) (hrest1 m)

set_option backward.isDefEq.respectTransparency.types false in
/-- THE RUN. From any memory with zero counters every weakly fair execution of the program terminates without a
    fault, and every unscoped buffer of every core ends at `V13`. -/
theorem run_main : θ_run defs (onTc (τ := τ) (main (F := F))) ⟨m, fun _ => 0, ρ⟩ (fun r => ∀ c : Dev nD,
    ∀ b ∈ Pipeline.ucRefs τ sig, r.2.mem ((c : Thread nD τ).1, b) = V13 m (outs2 m) c b) :=
  run_cond m emb₁ () 𝒱₀ L lv (fun _ _ => rfl) ρ (outs2 m) (pd m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ (iprop((∃ r, prngReg c r) ∗ ∃ W, owes (c : Thread nD τ) (0 : CellTallies nD τ sig Unit) W) : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => hcore c
      iintro ⟨H, -⟩
      imodintro
      iapply hmono
      iexact H)
    (fun c => by
      iintro ⟨-, HO⟩
      iexact HO)
    (r0 m) (fun _ => .rfl) (fun _ => .rfl)
    (r1 m)
    (fun c => by
      show iprop(StableHlo.held (c : Thread nD τ) (Pipeline.ucRefs τ sig) (V11 m (outs2 m) c) ∗ R c)
        ⊢ iprop(StableHlo.held (c : Thread nD τ) (Pipeline.ucRefs τ sig) (V11 m (outs1 m) c) ∗ R c)
      rw [V11_outs])
    (fun _ => .rfl)

end Cert.Kernel.Rec

end
-- ==== Proof.Claims.lean ====
/-
  Four of the claim's five conjuncts: each of the three programs runs — every weakly fair execution terminates and
  nothing faults — and leaves its sixteen argument arrays as it found them, and the idealized kernel is the kernel's
  own text (the ideal pass rewrote nothing, so there is nothing to preserve).

  The kernel, at the bit-exact instance and at the ideal one: its run ends with every unscoped buffer at a known
  valuation, and that valuation at an argument array is the launch memory there, because no operation of the
  program writes an argument. The reference: its run's postcondition already lists the arguments unchanged after
  the result; the frame keeps that part.
-/
import proofs.«173102_j37185826849263_1_alg».proof.Defs
import proofs.«173102_j37185826849263_1_alg».proof.Proof.RunIdeal
import proofs.«173102_j37185826849263_1_alg».proof.Proof.RunBits
import proofs.«173102_j37185826849263_1_alg».proof.Proof.Gen.ReferenceIdeal.Run
import proofs.«173102_j37185826849263_1_alg».proof.Proof.Gen.Kernel
import proofs.«173102_j37185826849263_1_alg».proof.Proof.Gen.KernelIdeal
import proofs.«173102_j37185826849263_1_alg».proof.Proof.Gen.ReferenceIdeal
import proofs.«173102_j37185826849263_1_alg».proof.Proof.Gen.Pre_finite_inputs

noncomputable section

namespace Cert.Proof.Claims

open Idealize.ShloMosaic Idealize.ShloMosaic.TcCoe Idealize.SL.Sem

/-- The kernel as printed, at the bit-exact instance, runs and leaves its arguments unchanged. -/
theorem frame_p : Cert.frame_Kernel := fun m ρ _ =>
  (θ_run Cert.Kernel.defs _ _).mono (fun r h c =>
    ⟨(h c _ Cert.Kernel.Hand.mem_uc_main_arg0).trans (Cert.Kernel.Hand.V13_main_arg0 m (Cert.Kernel.Rec.outs2 m) c),
      (h c _ Cert.Kernel.Hand.mem_uc_main_arg1).trans (Cert.Kernel.Hand.V13_main_arg1 m (Cert.Kernel.Rec.outs2 m) c),
      (h c _ Cert.Kernel.Hand.mem_uc_main_arg2).trans (Cert.Kernel.Hand.V13_main_arg2 m (Cert.Kernel.Rec.outs2 m) c),
      (h c _ Cert.Kernel.Hand.mem_uc_main_arg3).trans (Cert.Kernel.Hand.V13_main_arg3 m (Cert.Kernel.Rec.outs2 m) c),
      (h c _ Cert.Kernel.Hand.mem_uc_main_arg4).trans (Cert.Kernel.Hand.V13_main_arg4 m (Cert.Kernel.Rec.outs2 m) c),
      (h c _ Cert.Kernel.Hand.mem_uc_main_arg5).trans (Cert.Kernel.Hand.V13_main_arg5 m (Cert.Kernel.Rec.outs2 m) c),
      (h c _ Cert.Kernel.Hand.mem_uc_main_arg6).trans (Cert.Kernel.Hand.V13_main_arg6 m (Cert.Kernel.Rec.outs2 m) c),
      (h c _ Cert.Kernel.Hand.mem_uc_main_arg7).trans (Cert.Kernel.Hand.V13_main_arg7 m (Cert.Kernel.Rec.outs2 m) c),
      (h c _ Cert.Kernel.Hand.mem_uc_main_arg8).trans (Cert.Kernel.Hand.V13_main_arg8 m (Cert.Kernel.Rec.outs2 m) c),
      (h c _ Cert.Kernel.Hand.mem_uc_main_arg9).trans (Cert.Kernel.Hand.V13_main_arg9 m (Cert.Kernel.Rec.outs2 m) c),
      (h c _ Cert.Kernel.Hand.mem_uc_main_arg10).trans (Cert.Kernel.Hand.V13_main_arg10 m (Cert.Kernel.Rec.outs2 m) c),
      (h c _ Cert.Kernel.Hand.mem_uc_main_arg11).trans (Cert.Kernel.Hand.V13_main_arg11 m (Cert.Kernel.Rec.outs2 m) c),
      (h c _ Cert.Kernel.Hand.mem_uc_main_arg12).trans (Cert.Kernel.Hand.V13_main_arg12 m (Cert.Kernel.Rec.outs2 m) c),
      (h c _ Cert.Kernel.Hand.mem_uc_main_arg13).trans (Cert.Kernel.Hand.V13_main_arg13 m (Cert.Kernel.Rec.outs2 m) c),
      (h c _ Cert.Kernel.Hand.mem_uc_main_arg14).trans (Cert.Kernel.Hand.V13_main_arg14 m (Cert.Kernel.Rec.outs2 m) c),
      (h c _ Cert.Kernel.Hand.mem_uc_main_arg15).trans (Cert.Kernel.Hand.V13_main_arg15 m (Cert.Kernel.Rec.outs2 m) c)⟩)
    (Cert.Kernel.Rec.run_main (F := Bits) m ρ)

/-- The idealized kernel, at the ideal instance, runs and leaves its arguments unchanged. -/
theorem frame_pi : Cert.frame_KernelIdeal := fun m ρ _ =>
  (θ_run Cert.KernelIdeal.defs _ _).mono (fun r h c =>
    ⟨(h c _ Cert.KernelIdeal.Hand.mem_uc_main_arg0).trans (Cert.KernelIdeal.Hand.V13_main_arg0 m (Cert.KernelIdeal.Rec.outs2 m) c),
      (h c _ Cert.KernelIdeal.Hand.mem_uc_main_arg1).trans (Cert.KernelIdeal.Hand.V13_main_arg1 m (Cert.KernelIdeal.Rec.outs2 m) c),
      (h c _ Cert.KernelIdeal.Hand.mem_uc_main_arg2).trans (Cert.KernelIdeal.Hand.V13_main_arg2 m (Cert.KernelIdeal.Rec.outs2 m) c),
      (h c _ Cert.KernelIdeal.Hand.mem_uc_main_arg3).trans (Cert.KernelIdeal.Hand.V13_main_arg3 m (Cert.KernelIdeal.Rec.outs2 m) c),
      (h c _ Cert.KernelIdeal.Hand.mem_uc_main_arg4).trans (Cert.KernelIdeal.Hand.V13_main_arg4 m (Cert.KernelIdeal.Rec.outs2 m) c),
      (h c _ Cert.KernelIdeal.Hand.mem_uc_main_arg5).trans (Cert.KernelIdeal.Hand.V13_main_arg5 m (Cert.KernelIdeal.Rec.outs2 m) c),
      (h c _ Cert.KernelIdeal.Hand.mem_uc_main_arg6).trans (Cert.KernelIdeal.Hand.V13_main_arg6 m (Cert.KernelIdeal.Rec.outs2 m) c),
      (h c _ Cert.KernelIdeal.Hand.mem_uc_main_arg7).trans (Cert.KernelIdeal.Hand.V13_main_arg7 m (Cert.KernelIdeal.Rec.outs2 m) c),
      (h c _ Cert.KernelIdeal.Hand.mem_uc_main_arg8).trans (Cert.KernelIdeal.Hand.V13_main_arg8 m (Cert.KernelIdeal.Rec.outs2 m) c),
      (h c _ Cert.KernelIdeal.Hand.mem_uc_main_arg9).trans (Cert.KernelIdeal.Hand.V13_main_arg9 m (Cert.KernelIdeal.Rec.outs2 m) c),
      (h c _ Cert.KernelIdeal.Hand.mem_uc_main_arg10).trans (Cert.KernelIdeal.Hand.V13_main_arg10 m (Cert.KernelIdeal.Rec.outs2 m) c),
      (h c _ Cert.KernelIdeal.Hand.mem_uc_main_arg11).trans (Cert.KernelIdeal.Hand.V13_main_arg11 m (Cert.KernelIdeal.Rec.outs2 m) c),
      (h c _ Cert.KernelIdeal.Hand.mem_uc_main_arg12).trans (Cert.KernelIdeal.Hand.V13_main_arg12 m (Cert.KernelIdeal.Rec.outs2 m) c),
      (h c _ Cert.KernelIdeal.Hand.mem_uc_main_arg13).trans (Cert.KernelIdeal.Hand.V13_main_arg13 m (Cert.KernelIdeal.Rec.outs2 m) c),
      (h c _ Cert.KernelIdeal.Hand.mem_uc_main_arg14).trans (Cert.KernelIdeal.Hand.V13_main_arg14 m (Cert.KernelIdeal.Rec.outs2 m) c),
      (h c _ Cert.KernelIdeal.Hand.mem_uc_main_arg15).trans (Cert.KernelIdeal.Hand.V13_main_arg15 m (Cert.KernelIdeal.Rec.outs2 m) c)⟩)
    (Cert.KernelIdeal.Rec.run_main (F := Ideal) m ρ)

/-- The idealized reference runs and leaves its arguments unchanged: the second part of its run's postcondition. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: the statement to preserve is `True`. -/
theorem preserves : Cert.preserves_Kernel_KernelIdeal := trivial

end Cert.Proof.Claims

end
-- ==== Proof.HostGlueIdeal.lean ====
/- The host operations around the two kernel regions, read at an index.

   Before the encoder region the host reshapes the encoder's first bias `[512]` and second bias `[256]` to one row each;
   between the regions it pads the decoder's second weight matrix `[512,10000]` and second bias `[10000]` with zeros to
   10240 columns and reshapes the decoder's first bias and the padded second bias to one row each; after the decoder
   region it slices the first 10000 columns off the region's `[1,10240]` output. Each of these buffers is computed here, at
   the valuation of @main's items where a region (or the end) reads it, as the layout operation of the launch contents
   of an argument (or of a region's output), and then read at an index: a reshape `[n] → [1,n]` at `(0,k)` is the operand at
   `k`; a zero-padding at a column below 10000 is the operand there and at a column from 10000 on is the padding value,
   which is the integer `0` converted to a float — `0` at the ideal values; a slice from offset `(0,0)` at `(0,j)` is the
   operand at `(0,j)`. A buffer the items in between do not write is carried unchanged. -/
import proofs.«173102_j37185826849263_1_alg».proof.Proof.MainRunIdeal
import Idealize.ShloMosaic.Lib.ValueLayout
import Idealize.ShloMosaic.Lib.KernelVsHost

set_option maxRecDepth 8192

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (outs : Outs (F := F))

/-! ## Buffers carried unchanged -/

/-- A reference none of the first four items writes holds its launch contents before the third layer's stretch. -/
theorem V4_launch (c : Dev nD) (r : Ref sig .tc) (h0 : r ∉ hostOps0_W) (h1 : r ∉ hostOps0_1_W) (h2 : r ∉ hostOps0_2_W)
    (h3 : r ∉ hostOps0_3_W) : V4 m c r = m ((c : Thread nD τ).loc r) :=
  (V4_of m c r h3).trans <| (V3_of m c r h2).trans <| (V2_of m c r h1).trans <| (V1_of m c r h0).trans rfl

/-- A reference none of the first five items writes holds its launch contents at the encoder region's entry. -/
theorem V5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : V5 m c r = m ((c : Thread nD τ).loc r) :=
  (V5_of m c r h4).trans (V4_launch m c r h0 h1 h2 h3)

/-- The same at the encoder region's exit, for a reference that is not the region's output array. -/
theorem V6_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v159] : List (Ref sig .tc))) :
    V6 m outs c r = m ((c : Thread nD τ).loc r) :=
  (V6_of m outs c r h5).trans (V5_launch m c r h0 h1 h2 h3 h4)

/-- A reference none of the five items between the regions writes is unchanged from the encoder region's exit to the
    decoder region's entry. -/
theorem V11_keep (c : Dev nD) (r : Ref sig .tc) (h6 : r ∉ hostOps1_W) (h7 : r ∉ hostOps1_1_W) (h8 : r ∉ hostOps1_2_W)
    (h9 : r ∉ hostOps1_3_W) (h10 : r ∉ hostOps1_4_W) : V11 m outs c r = V6 m outs c r :=
  (V11_of m outs c r h10).trans <| (V10_of m outs c r h9).trans <| (V9_of m outs c r h8).trans <|
    (V8_of m outs c r h7).trans (V7_of m outs c r h6)

/-- The encoder region's weight matrix at the region's entry. -/
theorem V5_main_arg8 (c : Dev nD) : V5 m c main_arg8 = m ((c : Thread nD τ).loc main_arg8) :=
  V5_launch m c main_arg8 (by decide) (by decide) (by decide) (by decide) (by decide)
/-- The encoder region's second weight matrix at the region's entry. -/
theorem V5_main_arg10 (c : Dev nD) : V5 m c main_arg10 = m ((c : Thread nD τ).loc main_arg10) :=
  V5_launch m c main_arg10 (by decide) (by decide) (by decide) (by decide) (by decide)

/-- What the encoder region left in its output array. -/
theorem V6_main_v159 (c : Dev nD) : V6 m outs c main_v159 = outs 6 main_v159 c := by
  simp only [V6, Function.update_self]
/-- The decoder region reads the encoder region's output as the encoder left it. -/
theorem V11_main_v159 (c : Dev nD) : V11 m outs c main_v159 = outs 6 main_v159 c :=
  (V11_keep m outs c main_v159 (by decide) (by decide) (by decide) (by decide) (by decide)).trans (V6_main_v159 m outs c)
/-- The decoder region's first weight matrix at the region's entry. -/
theorem V11_main_arg12 (c : Dev nD) : V11 m outs c main_arg12 = m ((c : Thread nD τ).loc main_arg12) :=
  (V11_keep m outs c main_arg12 (by decide) (by decide) (by decide) (by decide) (by decide)).trans
    (V6_launch m outs c main_arg12 (by decide) (by decide) (by decide) (by decide) (by decide) (by decide))
/-- What the decoder region left in its output array. -/
theorem V12_main_v164 (c : Dev nD) : V12 m outs c main_v164 = outs 12 main_v164 c := by
  simp only [V12, Function.update_self]

/-! ## The encoder's biases as rows (item 4) -/

/-- Over any entry valuation, the third layer's stretch leaves in `main_v157` the `[512]` argument reshaped to `[1,512]`. -/
theorem item4_v157 (V : Valuation τ sig (Elt F)) :
    after hostOps0_4 V (Proc.devRef .tc main_v157)
      = shapeCast S1x512 (V main_arg9 : (⟨S512, .f32⟩ : BufTy).Contents (Elt F)) shapeCasts_S512_S1x512 := by
  after_results_simp
  rfl
/-- Likewise `main_v158` is the `[256]` argument reshaped to `[1,256]`. -/
theorem item4_v158 (V : Valuation τ sig (Elt F)) :
    after hostOps0_4 V (Proc.devRef .tc main_v158)
      = shapeCast S1x256 (V main_arg11 : (⟨S256, .f32⟩ : BufTy).Contents (Elt F)) shapeCasts_S256_S1x256 := by
  after_results_simp
  rfl

/-- The encoder's first bias at the region's entry: the argument reshaped to one row. -/
theorem V5_main_v157 (c : Dev nD) :
    V5 m c main_v157
      = shapeCast S1x512 (m ((c : Thread nD τ).loc main_arg9) : (⟨S512, .f32⟩ : BufTy).Contents (Elt F)) shapeCasts_S512_S1x512 := by
  have h := item4_v157 (V4 m c)
  rw [V4_launch m c main_arg9 (by decide) (by decide) (by decide) (by decide)] at h
  exact h
/-- … read at `(0,k)`: the argument at `k`. -/
theorem V5_main_v157_apply (c : Dev nD) (k : Fin 512) :
    (V5 m c main_v157 : (⟨S1x512, .f32⟩ : BufTy).Contents (Elt F)) (ix2 (0 : Fin 1) k)
      = (m ((c : Thread nD τ).loc main_arg9) : (⟨S512, .f32⟩ : BufTy).Contents (Elt F)) (ix1 k) := by
  rw [V5_main_v157]
  exact shapeCast_a_1a_apply _ _ 0 k

/-- The encoder's second bias at the region's entry: the argument reshaped to one row. -/
theorem V5_main_v158 (c : Dev nD) :
    V5 m c main_v158
      = shapeCast S1x256 (m ((c : Thread nD τ).loc main_arg11) : (⟨S256, .f32⟩ : BufTy).Contents (Elt F)) shapeCasts_S256_S1x256 := by
  have h := item4_v158 (V4 m c)
  rw [V4_launch m c main_arg11 (by decide) (by decide) (by decide) (by decide)] at h
  exact h
/-- … read at `(0,k)`: the argument at `k`. -/
theorem V5_main_v158_apply (c : Dev nD) (k : Fin 256) :
    (V5 m c main_v158 : (⟨S1x256, .f32⟩ : BufTy).Contents (Elt F)) (ix2 (0 : Fin 1) k)
      = (m ((c : Thread nD τ).loc main_arg11) : (⟨S256, .f32⟩ : BufTy).Contents (Elt F)) (ix1 k) := by
  rw [V5_main_v158]
  exact shapeCast_a_1a_apply _ _ 0 k

/-! ## The decoder's operands (items 6 to 10) -/

/-- The five items between the regions, run from an entry valuation `V`. -/
abbrev mid (V : Valuation τ sig (Elt F)) : Valuation τ sig (Elt F) :=
  after hostOps1_4 (after hostOps1_3 (after hostOps1_2 (after hostOps1_1 (after hostOps1 V))))

/-- The padding value: the integer zero converted to a float. -/
abbrev padValue : (⟨S_, .f32⟩ : BufTy).Contents (Elt F) := sitofp .f32 (constantI S_ 32 0#32)

/-- The decoder's first bias `[512]` reshaped to `[1,512]`. -/
theorem mid_v162 (V : Valuation τ sig (Elt F)) :
    mid V (Proc.devRef .tc main_v162)
      = shapeCast S1x512 (V main_arg13 : (⟨S512, .f32⟩ : BufTy).Contents (Elt F)) shapeCasts_S512_S1x512 := by
  dsimp only [mid]
  after_results_simp
  rfl
/-- The decoder's second weight matrix `[512,10000]` padded on the right to `[512,10240]`. -/
theorem mid_v160 (V : Valuation τ sig (Elt F)) :
    mid V (Proc.devRef .tc main_v160)
      = pad S512x10240 ![0, 0] ![0, 240] ![0, 0] (V main_arg14 : (⟨S512x10000, .f32⟩ : BufTy).Contents (Elt F))
          (padValue (F := F)) pads_S512x10000_S512x10240_000_02400 h_S_ := by
  dsimp only [mid]
  after_results_simp
  rfl
/-- The decoder's second bias `[10000]` padded to `[10240]`. -/
theorem mid_v161 (V : Valuation τ sig (Elt F)) :
    mid V (Proc.devRef .tc main_v161)
      = pad S10240 ![0] ![240] ![0] (V main_arg15 : (⟨S10000, .f32⟩ : BufTy).Contents (Elt F))
          (padValue (F := F)) pads_S10000_S10240_02400 h_S_ := by
  dsimp only [mid]
  after_results_simp
  rfl
/-- The padded second bias reshaped to `[1,10240]`. -/
theorem mid_v163 (V : Valuation τ sig (Elt F)) :
    mid V (Proc.devRef .tc main_v163)
      = shapeCast S1x10240
          (pad S10240 ![0] ![240] ![0] (V main_arg15 : (⟨S10000, .f32⟩ : BufTy).Contents (Elt F))
            (padValue (F := F)) pads_S10000_S10240_02400 h_S_)
          shapeCasts_S10240_S1x10240 := by
  dsimp only [mid]
  after_results_simp
  rfl

/-- The decoder's first bias at the region's entry: the argument reshaped to one row. -/
theorem V11_main_v162 (c : Dev nD) :
    V11 m outs c main_v162
      = shapeCast S1x512 (m ((c : Thread nD τ).loc main_arg13) : (⟨S512, .f32⟩ : BufTy).Contents (Elt F)) shapeCasts_S512_S1x512 := by
  have h := mid_v162 (V6 m outs c)
  rw [V6_launch m outs c main_arg13 (by decide) (by decide) (by decide) (by decide) (by decide) (by decide)] at h
  exact h
/-- … read at `(0,k)`: the argument at `k`. -/
theorem V11_main_v162_apply (c : Dev nD) (k : Fin 512) :
    (V11 m outs c main_v162 : (⟨S1x512, .f32⟩ : BufTy).Contents (Elt F)) (ix2 (0 : Fin 1) k)
      = (m ((c : Thread nD τ).loc main_arg13) : (⟨S512, .f32⟩ : BufTy).Contents (Elt F)) (ix1 k) := by
  rw [V11_main_v162]
  exact shapeCast_a_1a_apply _ _ 0 k

/-- The decoder's second weight matrix at the region's entry: the argument padded to 10240 columns. -/
theorem V11_main_v160 (c : Dev nD) :
    V11 m outs c main_v160
      = pad S512x10240 ![0, 0] ![0, 240] ![0, 0] (m ((c : Thread nD τ).loc main_arg14) : (⟨S512x10000, .f32⟩ : BufTy).Contents (Elt F))
          (padValue (F := F)) pads_S512x10000_S512x10240_000_02400 h_S_ := by
  have h := mid_v160 (V6 m outs c)
  rw [V6_launch m outs c main_arg14 (by decide) (by decide) (by decide) (by decide) (by decide) (by decide)] at h
  exact h
/-- … read at a column below 10000: the argument there. -/
theorem V11_main_v160_apply_of_lt (c : Dev nD) (r : Fin 512) (j : Fin 10240) (hj : j.val < 10000) :
    (V11 m outs c main_v160 : (⟨S512x10240, .f32⟩ : BufTy).Contents (Elt F)) (ix2 r j)
      = (m ((c : Thread nD τ).loc main_arg14) : (⟨S512x10000, .f32⟩ : BufTy).Contents (Elt F)) (ix2 r ⟨j.val, hj⟩) := by
  rw [V11_main_v160]
  exact pad_apply_of_inside ![0, 0] ![0, 240] ![0, 0] _ _ pads_S512x10000_S512x10240_000_02400 h_S_ (ix2 r j) (ix2 r ⟨j.val, hj⟩)
    (fun a => match a with
      | ⟨0, _⟩ => by show r.val = 0 + r.val * (0 + 1); omega
      | ⟨1, _⟩ => by show j.val = 0 + j.val * (0 + 1); omega)
/-- … read at a column from 10000 on: the padding value. -/
theorem V11_main_v160_apply_of_ge (c : Dev nD) (r : Fin 512) (j : Fin 10240) (hj : 10000 ≤ j.val) :
    (V11 m outs c main_v160 : (⟨S512x10240, .f32⟩ : BufTy).Contents (Elt F)) (ix2 r j)
      = padValue (F := F) (Shape.Idx.first h_S_) := by
  rw [V11_main_v160]
  refine pad_apply_of_not_inside (s := S512x10000) ![0, 0] ![0, 240] ![0, 0] _ _ pads_S512x10000_S512x10240_000_02400 h_S_ (ix2 r j) ⟨1, by decide⟩ ?_
  show ¬(0 ≤ j.val ∧ (j.val - 0) % (0 + 1) = 0 ∧ (j.val - 0) / (0 + 1) < 10000)
  omega

/-- The decoder's second bias before its reshape: the argument padded to 10240 entries. -/
theorem V11_main_v161 (c : Dev nD) :
    V11 m outs c main_v161
      = pad S10240 ![0] ![240] ![0] (m ((c : Thread nD τ).loc main_arg15) : (⟨S10000, .f32⟩ : BufTy).Contents (Elt F))
          (padValue (F := F)) pads_S10000_S10240_02400 h_S_ := by
  have h := mid_v161 (V6 m outs c)
  rw [V6_launch m outs c main_arg15 (by decide) (by decide) (by decide) (by decide) (by decide) (by decide)] at h
  exact h
/-- The decoder's second bias at the region's entry: the padded argument as one row. -/
theorem V11_main_v163 (c : Dev nD) :
    V11 m outs c main_v163
      = shapeCast S1x10240
          (pad S10240 ![0] ![240] ![0] (m ((c : Thread nD τ).loc main_arg15) : (⟨S10000, .f32⟩ : BufTy).Contents (Elt F))
            (padValue (F := F)) pads_S10000_S10240_02400 h_S_)
          shapeCasts_S10240_S1x10240 := by
  have h := mid_v163 (V6 m outs c)
  rw [V6_launch m outs c main_arg15 (by decide) (by decide) (by decide) (by decide) (by decide) (by decide)] at h
  exact h
/-- … read at a column below 10000: the argument there. -/
theorem V11_main_v163_apply_of_lt (c : Dev nD) (j : Fin 10240) (hj : j.val < 10000) :
    (V11 m outs c main_v163 : (⟨S1x10240, .f32⟩ : BufTy).Contents (Elt F)) (ix2 (0 : Fin 1) j)
      = (m ((c : Thread nD τ).loc main_arg15) : (⟨S10000, .f32⟩ : BufTy).Contents (Elt F)) (ix1 ⟨j.val, hj⟩) := by
  rw [V11_main_v163]
  refine (shapeCast_a_1a_apply _ _ 0 j).trans ?_
  exact pad_apply_of_inside ![0] ![240] ![0] _ _ pads_S10000_S10240_02400 h_S_ (ix1 j) (ix1 ⟨j.val, hj⟩)
    (fun a => match a with
      | ⟨0, _⟩ => by show j.val = 0 + j.val * (0 + 1); omega)
/-- … read at a column from 10000 on: the padding value. -/
theorem V11_main_v163_apply_of_ge (c : Dev nD) (j : Fin 10240) (hj : 10000 ≤ j.val) :
    (V11 m outs c main_v163 : (⟨S1x10240, .f32⟩ : BufTy).Contents (Elt F)) (ix2 (0 : Fin 1) j)
      = padValue (F := F) (Shape.Idx.first h_S_) := by
  rw [V11_main_v163]
  refine (shapeCast_a_1a_apply _ _ 0 j).trans ?_
  refine pad_apply_of_not_inside (s := S10000) ![0] ![240] ![0] _ _ pads_S10000_S10240_02400 h_S_ (ix1 j) ⟨0, by decide⟩ ?_
  show ¬(0 ≤ j.val ∧ (j.val - 0) % (0 + 1) = 0 ∧ (j.val - 0) / (0 + 1) < 10000)
  omega

/-- At the ideal values the padding value is zero: the integer `0` converts to the real `0`. -/
theorem padValue_ideal (i : S_.Idx) : padValue (F := Ideal) i = 0 :=
  sitofp_zero (φ := .f32)

/-! ## The result (item 12) -/

/-- Over any entry valuation, the last item leaves in `main_v165` the first 10000 columns of `main_v164`. -/
theorem item12_v165 (V : Valuation τ sig (Elt F)) :
    after hostOps2 V (Proc.devRef .tc main_v165)
      = extractStridedSlice S1x10000 ![0, 0] (V main_v164 : (⟨S1x10240, .f32⟩ : BufTy).Contents (Elt F)) slices_S1x10240_S1x10000_0_0 := by
  after_results_simp <;> rfl
/-- The program's result: the first 10000 columns of what the decoder region left. -/
theorem V13_main_v165 (c : Dev nD) :
    V13 m outs c main_v165
      = extractStridedSlice S1x10000 ![0, 0] (outs 12 main_v164 c : (⟨S1x10240, .f32⟩ : BufTy).Contents (Elt F)) slices_S1x10240_S1x10000_0_0 := by
  have h := item12_v165 (V12 m outs c)
  rw [V12_main_v164] at h
  exact h
/-- … read at `(0,j)`: the decoder region's output at `(0,j)`. -/
theorem V13_main_v165_apply (c : Dev nD) (j : Fin 10000) :
    (V13 m outs c main_v165 : (⟨S1x10000, .f32⟩ : BufTy).Contents (Elt F)) (ix2 (0 : Fin 1) j)
      = (outs 12 main_v164 c : (⟨S1x10240, .f32⟩ : BufTy).Contents (Elt F)) (ix2 (0 : Fin 1) ⟨j.val, by have := j.isLt; omega⟩) := by
  rw [V13_main_v165]
  exact extractStridedSlice_apply ![0, 0] _ slices_S1x10240_S1x10000_0_0 (ix2 (0 : Fin 1) j) (ix2 (0 : Fin 1) ⟨j.val, by have := j.isLt; omega⟩)
    (fun a => match a with
      | ⟨0, _⟩ => by show (0 : Fin 1).val = 0 + (0 : Fin 1).val; omega
      | ⟨1, _⟩ => by show j.val = 0 + j.val; omega)

end Cert.KernelIdeal.Hand

end
-- ==== Proof.PrefixIdeal.lean ====
/- The two programs' common prefix computes the same array.

   The first five items of the kernel program's @main (three graph-convolution layers, the first two followed by a
   rectifier, then the reshape to one row) are, operation for operation, the first operations of the reference program.
   The reference's read-back names each operation's value as a function of the arguments of @main (`val_main_vN`);
   here the kernel side's valuation `V5` at `main_v156` — the row `h : [1,160000]` the encoder region reads — is shown
   equal to `val_main_v156` of the launch contents of the first eight arguments.

   The proof goes layer by layer. For each host stretch, over an ARBITRARY entry valuation `V`, the stretch's result
   buffer is computed as the composed term of the stretch's operations over `V` at the buffers the stretch reads; given
   that `V` holds the reference's values at those buffers, that term IS the reference's value (the two are the same
   operations applied to the same operands, so the equation holds by unfolding definitions). The layers are then chained
   along `V0 … V5`, a buffer no item in between writes being carried by `VJ_of`. -/
import proofs.«173102_j37185826849263_1_alg».proof.Proof.MainRunIdeal
import proofs.«173102_j37185826849263_1_alg».proof.Proof.Gen.ReferenceIdeal.Read

-- the composed term of a stretch of seventy operations nests past the default depth
set_option maxRecDepth 8192

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v55 val_main_v56 val_main_v105 val_main_v106 val_main_v156)

variable {F : FTy → Type} [FloatOps F]

/-! ## The first layer (item 0), from the arguments -/

/-- The source-index vector: the edge list's first row followed by the self-loops `0 … 9999`. -/
theorem layer0_v3 (V : Valuation τ sig (Elt F)) :
    after hostOps0 V (Proc.devRef .tc main_v3) = val_main_v3 (F := F) (V main_arg1) := by
  after_results_simp
  rfl

/-- The target-index vector: the edge list's second row followed by the self-loops. -/
theorem layer0_v6 (V : Valuation τ sig (Elt F)) :
    after hostOps0 V (Proc.devRef .tc main_v6) = val_main_v6 (F := F) (V main_arg1) := by
  after_results_simp
  rfl

set_option maxHeartbeats 4000000 in
/-- The first graph convolution with its bias: the normalised scatter-add over the edges of the gathered rows of
    `x · W1`, plus `b1`. -/
theorem layer0_v55 (V : Valuation τ sig (Elt F)) :
    after hostOps0 V (Proc.devRef .tc main_v55)
      = val_main_v55 (F := F) (V main_arg0) (V main_arg1) (V main_arg2) (V main_arg3) := by
  after_results_simp
  rfl

/-! ## The first rectifier (item 1) -/

/-- The maximum with zero of the first layer's output. -/
theorem layer1_v56 (V : Valuation τ sig (Elt F))
    (x0 : (⟨S10000x1, .f32⟩ : BufTy).Contents (Elt F)) (x1 : (⟨S2x320000, .i32⟩ : BufTy).Contents (Elt F))
    (x2 : (⟨S1x128, .f32⟩ : BufTy).Contents (Elt F)) (x3 : (⟨S128, .f32⟩ : BufTy).Contents (Elt F))
    (h55 : V main_v55 = val_main_v55 (F := F) x0 x1 x2 x3) :
    after hostOps0_1 V (Proc.devRef .tc main_v56) = val_main_v56 (F := F) x0 x1 x2 x3 := by
  after_results_simp
  rw [h55]
  rfl

/-! ## The second layer (item 2) -/

set_option maxHeartbeats 4000000 in
/-- The second graph convolution with its bias, over the index vectors of the first stretch. -/
theorem layer2_v105 (V : Valuation τ sig (Elt F))
    (x0 : (⟨S10000x1, .f32⟩ : BufTy).Contents (Elt F)) (x1 : (⟨S2x320000, .i32⟩ : BufTy).Contents (Elt F))
    (x2 : (⟨S1x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (h56 : V main_v56 = val_main_v56 (F := F) x0 x1 x2 x3)
    (h3 : V main_v3 = val_main_v3 (F := F) x1) (h6 : V main_v6 = val_main_v6 (F := F) x1)
    (h4 : V main_arg4 = x4) (h5 : V main_arg5 = x5) :
    after hostOps0_2 V (Proc.devRef .tc main_v105) = val_main_v105 (F := F) x0 x1 x2 x3 x4 x5 := by
  after_results_simp
  rw [h56, h3, h6, h4, h5]
  rfl

/-! ## The second rectifier (item 3) -/

/-- The maximum with zero of the second layer's output. -/
theorem layer3_v106 (V : Valuation τ sig (Elt F))
    (x0 : (⟨S10000x1, .f32⟩ : BufTy).Contents (Elt F)) (x1 : (⟨S2x320000, .i32⟩ : BufTy).Contents (Elt F))
    (x2 : (⟨S1x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (h105 : V main_v105 = val_main_v105 (F := F) x0 x1 x2 x3 x4 x5) :
    after hostOps0_3 V (Proc.devRef .tc main_v106) = val_main_v106 (F := F) x0 x1 x2 x3 x4 x5 := by
  after_results_simp
  rw [h105]
  rfl

/-! ## The third layer and the reshape to one row (item 4) -/

set_option maxHeartbeats 4000000 in
/-- The third graph convolution with its bias, reshaped from `[10000,16]` to `[1,160000]`. -/
theorem layer4_v156 (V : Valuation τ sig (Elt F))
    (x0 : (⟨S10000x1, .f32⟩ : BufTy).Contents (Elt F)) (x1 : (⟨S2x320000, .i32⟩ : BufTy).Contents (Elt F))
    (x2 : (⟨S1x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (x6 : (⟨S64x16, .f32⟩ : BufTy).Contents (Elt F)) (x7 : (⟨S16, .f32⟩ : BufTy).Contents (Elt F))
    (h106 : V main_v106 = val_main_v106 (F := F) x0 x1 x2 x3 x4 x5)
    (h3 : V main_v3 = val_main_v3 (F := F) x1) (h6 : V main_v6 = val_main_v6 (F := F) x1)
    (h6a : V main_arg6 = x6) (h7a : V main_arg7 = x7) :
    after hostOps0_4 V (Proc.devRef .tc main_v156) = val_main_v156 (F := F) x0 x1 x2 x3 x4 x5 x6 x7 := by
  after_results_simp
  rw [h106, h3, h6, h6a, h7a]
  rfl

/-! ## The chain -/

/-- THE COMMON PREFIX. On every core, for any float values, the row the encoder region reads — the kernel program's
    `main_v156` after its first five items — is the reference's `h` as a function of the launch contents of the first
    eight arguments (features, edge list, and the three layers' weights and biases). -/
theorem prefix_eq (m : (ℓ : Loc nD τ sig) → Buf (Elt F) ℓ) (c : Dev nD) :
    V5 (F := F) m c main_v156
      = val_main_v156 (F := F) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  -- item 0, from the launch contents
  have h3 : V1 m c main_v3 = val_main_v3 (F := F) (m ((c : Thread nD τ).loc main_arg1)) := layer0_v3 (V0 m c)
  have h6 : V1 m c main_v6 = val_main_v6 (F := F) (m ((c : Thread nD τ).loc main_arg1)) := layer0_v6 (V0 m c)
  have h55 : V1 m c main_v55 = val_main_v55 (F := F) (m ((c : Thread nD τ).loc main_arg0)) (m ((c : Thread nD τ).loc main_arg1))
      (m ((c : Thread nD τ).loc main_arg2)) (m ((c : Thread nD τ).loc main_arg3)) := layer0_v55 (V0 m c)
  -- item 1
  have h56 : V2 m c main_v56 = _ := layer1_v56 (V1 m c) _ _ _ _ h55
  -- item 2: the index vectors and the arguments are untouched by items 0 and 1
  have h105 : V3 m c main_v105 = _ := layer2_v105 (V2 m c) _ _ _ _
    (m ((c : Thread nD τ).loc main_arg4)) (m ((c : Thread nD τ).loc main_arg5)) h56
    ((V2_of m c main_v3 (by decide)).trans h3) ((V2_of m c main_v6 (by decide)).trans h6)
    ((V2_of m c main_arg4 (by decide)).trans <| (V1_of m c main_arg4 (by decide)).trans rfl)
    ((V2_of m c main_arg5 (by decide)).trans <| (V1_of m c main_arg5 (by decide)).trans rfl)
  -- item 3
  have h106 : V4 m c main_v106 = _ := layer3_v106 (V3 m c) _ _ _ _ _ _ h105
  -- item 4: likewise across items 0 to 3
  exact layer4_v156 (V4 m c) _ _ _ _ _ _
    (m ((c : Thread nD τ).loc main_arg6)) (m ((c : Thread nD τ).loc main_arg7)) h106
    ((V4_of m c main_v3 (by decide)).trans <| (V3_of m c main_v3 (by decide)).trans <| (V2_of m c main_v3 (by decide)).trans h3)
    ((V4_of m c main_v6 (by decide)).trans <| (V3_of m c main_v6 (by decide)).trans <| (V2_of m c main_v6 (by decide)).trans h6)
    ((V4_of m c main_arg6 (by decide)).trans <| (V3_of m c main_arg6 (by decide)).trans <| (V2_of m c main_arg6 (by decide)).trans <|
      (V1_of m c main_arg6 (by decide)).trans rfl)
    ((V4_of m c main_arg7 (by decide)).trans <| (V3_of m c main_arg7 (by decide)).trans <| (V2_of m c main_arg7 (by decide)).trans <|
      (V1_of m c main_arg7 (by decide)).trans rfl)

end Cert.KernelIdeal.Hand

end
-- ==== Proof.DecoderValueIdeal.lean ====
/- The value of the decoder region at the extended reals: after its ten grid points the output array holds, at every
   column i₁ of its one row,
       (∑ k : Fin 512, max ((∑ q : Fin 256, z(0,q) · Wd1(q,k)) + bd1(0,k)) 0 · Wd2p(k,i₁)) + bd2p(0,i₁),
   that is relu(z·Wd1 + bd1)·Wd2p + bd2p, as one function of the five arrays the region finds on entry.
   First the body's stored value is read at an index (each contraction is a finite sum over its one contracted axis;
   rounding to the 16-bit format is the identity on the extended reals; the zero literal is 0). Then the blocks are put
   together: grid point t reads the whole of z, Wd1, bd1 and columns 1024·t … 1024·t + 1023 of Wd2p and bd2p, and writes
   those columns of the output; column i₁ is written by point i₁ / 1024, so the ten blocks cover the array. -/
import proofs.«173102_j37185826849263_1_alg».proof.Proof.DecoderRegionIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The two contractions of the body, read at an index

Each is a product of a row vector with a matrix, accumulated into the zero vector: at column k it is the sum over the
one contracted axis of the row's entry times the matrix's entry in column k. -/

/-- The operand coordinates of the first contraction (row [1,256] times matrix [256,512]) at output index i and
    contraction index q: the row is read at (i₀, q), the matrix at (q, i₁). -/
theorem dotZ_lhs0 (i : S1x512.Idx) (q : dot_S1x256_S256x512_S1x512_1_0_0_1_n_n.contr.Idx) :
    (dot_S1x256_S256x512_S1x512_1_0_0_1_n_n.lhsIdx i q 0).val = (i 0).val := by
  unfold DotDims.lhsIdx
  rw [dif_neg (show ¬(0 : Fin S1x256.rank) ∈ dot_S1x256_S256x512_S1x512_1_0_0_1_n_n.lhsBatch by decide), dif_pos (show (0 : Fin S1x256.rank) ∈ dot_S1x256_S256x512_S1x512_1_0_0_1_n_n.lhsNonContracting by decide)]
  rfl
theorem dotZ_lhs1 (i : S1x512.Idx) (q : dot_S1x256_S256x512_S1x512_1_0_0_1_n_n.contr.Idx) :
    (dot_S1x256_S256x512_S1x512_1_0_0_1_n_n.lhsIdx i q 1).val = (q ⟨0, by decide⟩).val :=
  dot_S1x256_S256x512_S1x512_1_0_0_1_n_n.lhsIdx_val_of_single rfl i q
theorem dotZ_rhs0 (i : S1x512.Idx) (q : dot_S1x256_S256x512_S1x512_1_0_0_1_n_n.contr.Idx) :
    (dot_S1x256_S256x512_S1x512_1_0_0_1_n_n.rhsIdx i q 0).val = (q ⟨0, by decide⟩).val :=
  dot_S1x256_S256x512_S1x512_1_0_0_1_n_n.rhsIdx_val_of_single rfl i q
theorem dotZ_rhs1 (i : S1x512.Idx) (q : dot_S1x256_S256x512_S1x512_1_0_0_1_n_n.contr.Idx) :
    (dot_S1x256_S256x512_S1x512_1_0_0_1_n_n.rhsIdx i q 1).val = (i 1).val := by
  unfold DotDims.rhsIdx
  rw [dif_neg (show ¬(1 : Fin S256x512.rank) ∈ dot_S1x256_S256x512_S1x512_1_0_0_1_n_n.rhsBatch by decide), dif_pos (show (1 : Fin S256x512.rank) ∈ dot_S1x256_S256x512_S1x512_1_0_0_1_n_n.rhsNonContracting by decide)]
  rfl

/-- z·Wd1 at column k: the sum over the 256 entries of the row. -/
theorem dotZ_apply (l : FVec Ideal S1x256 .bf16) (r : FVec Ideal S256x512 .bf16) (p : Fin 1) (k : Fin 512) :
    matmul (F := Ideal) dot_S1x256_S256x512_S1x512_1_0_0_1_n_n none l r (constant (F := Ideal) S1x512 .f32 0x00000000#32) (ix2 p k)
      = ∑ q : Fin 256, l (ix2 p q) * r (ix2 q k) := by
  simp only [matmul]
  rw [Ideal.matmul_constant_zero_apply, ← Equiv.sum_comp (ValueIdx.contrEquiv1 dot_S1x256_S256x512_S1x512_1_0_0_1_n_n 256 rfl rfl).symm]
  refine Finset.sum_congr rfl fun q _ => ?_
  have hq := ValueIdx.contrEquiv1_symm_val dot_S1x256_S256x512_S1x512_1_0_0_1_n_n 256 rfl rfl q
  have el : dot_S1x256_S256x512_S1x512_1_0_0_1_n_n.lhsIdx (ix2 p k) ((ValueIdx.contrEquiv1 dot_S1x256_S256x512_S1x512_1_0_0_1_n_n 256 rfl rfl).symm q) = ix2 p q := funext fun a => Fin.ext (by
    match a with
    | ⟨0, _⟩ => exact dotZ_lhs0 _ _
    | ⟨1, _⟩ => exact (dotZ_lhs1 _ _).trans hq)
  have er : dot_S1x256_S256x512_S1x512_1_0_0_1_n_n.rhsIdx (ix2 p k) ((ValueIdx.contrEquiv1 dot_S1x256_S256x512_S1x512_1_0_0_1_n_n 256 rfl rfl).symm q) = ix2 q k := funext fun a => Fin.ext (by
    match a with
    | ⟨0, _⟩ => exact (dotZ_rhs0 _ _).trans hq
    | ⟨1, _⟩ => exact dotZ_rhs1 _ _)
  rw [el, er]

/-- The operand coordinates of the second contraction (row [1,512] times matrix [512,1024]). -/
theorem dotH_lhs0 (i : S1x1024.Idx) (q : dot_S1x512_S512x1024_S1x1024_1_0_0_1_n_n.contr.Idx) :
    (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl
theorem dotH_lhs1 (i : S1x1024.Idx) (q : dot_S1x512_S512x1024_S1x1024_1_0_0_1_n_n.contr.Idx) :
    (dot_S1x512_S512x1024_S1x1024_1_0_0_1_n_n.lhsIdx i q 1).val = (q ⟨0, by decide⟩).val :=
  dot_S1x512_S512x1024_S1x1024_1_0_0_1_n_n.lhsIdx_val_of_single rfl i q
theorem dotH_rhs0 (i : S1x1024.Idx) (q : dot_S1x512_S512x1024_S1x1024_1_0_0_1_n_n.contr.Idx) :
    (dot_S1x512_S512x1024_S1x1024_1_0_0_1_n_n.rhsIdx i q 0).val = (q ⟨0, by decide⟩).val :=
  dot_S1x512_S512x1024_S1x1024_1_0_0_1_n_n.rhsIdx_val_of_single rfl i q
theorem dotH_rhs1 (i : S1x1024.Idx) (q : dot_S1x512_S512x1024_S1x1024_1_0_0_1_n_n.contr.Idx) :
    (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl

/-- The hidden row relu(z·Wd1 + bd1) times the Wd2p tile, at column n of the tile: the sum over the row's 512 entries. -/
theorem dotH_apply (l : FVec Ideal S1x512 .bf16) (r : FVec Ideal S512x1024 .bf16) (p : Fin 1) (n : Fin 1024) :
    matmul (F := Ideal) dot_S1x512_S512x1024_S1x1024_1_0_0_1_n_n none l r (constant (F := Ideal) S1x1024 .f32 0x00000000#32) (ix2 p n)
      = ∑ k : Fin 512, l (ix2 p k) * r (ix2 k n) := by
  simp only [matmul]
  rw [Ideal.matmul_constant_zero_apply, ← Equiv.sum_comp (ValueIdx.contrEquiv1 dot_S1x512_S512x1024_S1x1024_1_0_0_1_n_n 512 rfl rfl).symm]
  refine Finset.sum_congr rfl fun k _ => ?_
  have hk := ValueIdx.contrEquiv1_symm_val dot_S1x512_S512x1024_S1x1024_1_0_0_1_n_n 512 rfl rfl k
  have el : dot_S1x512_S512x1024_S1x1024_1_0_0_1_n_n.lhsIdx (ix2 p n) ((ValueIdx.contrEquiv1 dot_S1x512_S512x1024_S1x1024_1_0_0_1_n_n 512 rfl rfl).symm k) = ix2 p k := funext fun a => Fin.ext (by
    match a with
    | ⟨0, _⟩ => exact dotH_lhs0 _ _
    | ⟨1, _⟩ => exact (dotH_lhs1 _ _).trans hk)
  have er : dot_S1x512_S512x1024_S1x1024_1_0_0_1_n_n.rhsIdx (ix2 p n) ((ValueIdx.contrEquiv1 dot_S1x512_S512x1024_S1x1024_1_0_0_1_n_n 512 rfl rfl).symm k) = ix2 k n := funext fun a => Fin.ext (by
    match a with
    | ⟨0, _⟩ => exact (dotH_rhs0 _ _).trans hk
    | ⟨1, _⟩ => exact dotH_rhs1 _ _)
  rw [el, er]

/-! ## The body's stored value at an index -/

/-- What the body stores at column n of its tile, from its five loaded blocks: relu(z·Wd1 + bd1)·Wd2p_tile + bd2p_tile
    there. Rounding to the 16-bit format is the identity on the extended reals and the zero literal is 0. -/
theorem tile_apply (x0 : Vec Ideal S1x256 .f32) (x1 : Vec Ideal S256x512 .f32) (x2 : Vec Ideal S1x512 .f32)
    (x3 : Vec Ideal S512x1024 .f32) (x4 : Vec Ideal S1x1024 .f32) (p : Fin 1) (n : Fin 1024) :
    k1_pay1 (F := Ideal) x0 x1 x2 x3 x4 (ix2 p n)
      = (∑ k : Fin 512, max ((∑ q : Fin 256, x0 (ix2 p q) * x1 (ix2 q k)) + x2 (ix2 p k)) 0 * x3 (ix2 k n)) + x4 (ix2 p n) := by
  unfold k1_pay1
  simp only [shapeCast_self]
  rw [addf_apply, dotH_apply]
  refine congrArg (· + x4 (ix2 p n)) (Finset.sum_congr rfl fun k _ => ?_)
  rw [truncf_apply, truncf_apply, maximumf_apply, addf_apply, dotZ_apply, broadcast_apply]
  rw [show Scalar.ofBits (F := Ideal) .f32 0x00000000#32 = (0 : EReal) from Ideal.ofBits_zero_f32]
  simp only [truncf_apply]

/-! ## The result as one function of the entry arrays -/

/-- relu(z·Wd1 + bd1)·Wd2p + bd2p at column i₁ of the one row. -/
def decG (z : S1x256.Idx → EReal) (Wd1 : S256x512.Idx → EReal) (bd1 : S1x512.Idx → EReal)
    (Wd2p : S512x10240.Idx → EReal) (bd2p : S1x10240.Idx → EReal) : S1x10240.Idx → EReal := fun i =>
  (∑ k : Fin 512, max ((∑ q : Fin 256, z (ix2 0 q) * Wd1 (ix2 q k)) + bd1 (ix2 0 k)) 0 * Wd2p (ix2 k (i 1))) + bd2p (ix2 0 (i 1))

/-- The same read at an index given by its coordinates. -/
theorem decG_ix2 (z : S1x256.Idx → EReal) (Wd1 : S256x512.Idx → EReal) (bd1 : S1x512.Idx → EReal)
    (Wd2p : S512x10240.Idx → EReal) (bd2p : S1x10240.Idx → EReal) (p : Fin 1) (N : Fin 10240) :
    decG z Wd1 bd1 Wd2p bd2p (ix2 p N)
      = (∑ k : Fin 512, max ((∑ q : Fin 256, z (ix2 0 q) * Wd1 (ix2 q k)) + bd1 (ix2 0 k)) 0 * Wd2p (ix2 k N)) + bd2p (ix2 0 N) := rfl

/-- A tile of the result from the body's five blocks: if the first three blocks are the arrays z, Wd1, bd1 and column n
    of the last two blocks is column N of Wd2p and bd2p, what the body stores at column n is the result at column N. -/
theorem tile_eq_decG (x0 : Vec Ideal S1x256 .f32) (x1 : Vec Ideal S256x512 .f32) (x2 : Vec Ideal S1x512 .f32)
    (x3 : Vec Ideal S512x1024 .f32) (x4 : Vec Ideal S1x1024 .f32)
    (z : S1x256.Idx → EReal) (Wd1 : S256x512.Idx → EReal) (bd1 : S1x512.Idx → EReal)
    (Wd2p : S512x10240.Idx → EReal) (bd2p : S1x10240.Idx → EReal)
    (h0 : ∀ q : Fin 256, x0 (ix2 0 q) = z (ix2 0 q))
    (h1 : ∀ (q : Fin 256) (k : Fin 512), x1 (ix2 q k) = Wd1 (ix2 q k))
    (h2 : ∀ k : Fin 512, x2 (ix2 0 k) = bd1 (ix2 0 k))
    (n : Fin 1024) (N : Fin 10240)
    (h3 : ∀ k : Fin 512, x3 (ix2 k n) = Wd2p (ix2 k N))
    (h4 : x4 (ix2 0 n) = bd2p (ix2 0 N)) :
    k1_pay1 (F := Ideal) x0 x1 x2 x3 x4 (ix2 0 n) = decG z Wd1 bd1 Wd2p bd2p (ix2 0 N) := by
  rw [tile_apply, decG_ix2, h4]
  refine congrArg (· + bd2p (ix2 0 N)) (Finset.sum_congr rfl fun k _ => ?_)
  rw [h3 k, h2 k]
  refine congrArg (fun s => max (s + bd1 (ix2 0 k)) 0 * Wd2p (ix2 k N)) (Finset.sum_congr rfl fun q _ => ?_)
  rw [h0 q, h1 q k]

/-! ## From blocks to the array -/

section Blocks
-- what the TensorCore's buffers hold when the region is entered, at the extended reals
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: z, Wd1, bd1 stay at block (0, 0); the Wd2p, bd2p and output tiles are at
    block (0, t) at point t. -/
theorem block_indices : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

/-- The block of z at any point is z. -/
theorem zblk_apply (c : Dev nD) (t : Fin cfg1.N) (p : Fin 1) (q : Fin 256) :
    (iblk1 V c 0 t : Vec Ideal S1x256 .f32) (ix2 p q) = (V c main_v159 : S1x256.Idx → EReal) (ix2 p q) := by
  obtain ⟨e0, e1, -⟩ := block_indices t
  show (V c main_v159 : S1x256.Idx → EReal) (((cfg1.win 0).blk t).view.emb (ix2 p q)) = _
  refine congrArg (V c main_v159 : S1x256.Idx → EReal) (funext fun a => Fin.ext ?_)
  match a with
  | ⟨0, _⟩ => show win1_0.index t (0 : Fin 2) * 1 + 1 * p.val = p.val; rw [e0]; omega
  | ⟨1, _⟩ => show win1_0.index t (1 : Fin 2) * 256 + 1 * q.val = q.val; rw [e1]; omega

/-- The block of Wd1 at any point is Wd1. -/
theorem wd1blk_apply (c : Dev nD) (t : Fin cfg1.N) (q : Fin 256) (k : Fin 512) :
    (iblk1 V c 1 t : Vec Ideal S256x512 .f32) (ix2 q k) = (V c main_arg12 : S256x512.Idx → EReal) (ix2 q k) := by
  obtain ⟨-, -, e0, e1, -⟩ := block_indices t
  show (V c main_arg12 : S256x512.Idx → EReal) (((cfg1.win 1).blk t).view.emb (ix2 q k)) = _
  refine congrArg (V c main_arg12 : S256x512.Idx → EReal) (funext fun a => Fin.ext ?_)
  match a with
  | ⟨0, _⟩ => show win1_1.index t (0 : Fin 2) * 256 + 1 * q.val = q.val; rw [e0]; omega
  | ⟨1, _⟩ => show win1_1.index t (1 : Fin 2) * 512 + 1 * k.val = k.val; rw [e1]; omega

/-- The block of bd1 at any point is bd1. -/
theorem bd1blk_apply (c : Dev nD) (t : Fin cfg1.N) (p : Fin 1) (k : Fin 512) :
    (iblk1 V c 2 t : Vec Ideal S1x512 .f32) (ix2 p k) = (V c main_v162 : S1x512.Idx → EReal) (ix2 p k) := by
  obtain ⟨-, -, -, -, e0, e1, -⟩ := block_indices t
  show (V c main_v162 : S1x512.Idx → EReal) (((cfg1.win 2).blk t).view.emb (ix2 p k)) = _
  refine congrArg (V c main_v162 : S1x512.Idx → EReal) (funext fun a => Fin.ext ?_)
  match a with
  | ⟨0, _⟩ => show win1_2.index t (0 : Fin 2) * 1 + 1 * p.val = p.val; rw [e0]; omega
  | ⟨1, _⟩ => show win1_2.index t (1 : Fin 2) * 512 + 1 * k.val = k.val; rw [e1]; omega

/-- Column n of the Wd2p tile at point t is column 1024·t + n of Wd2p. -/
theorem wd2blk_apply (c : Dev nD) (t : Fin cfg1.N) (k : Fin 512) (n : Fin 1024) (N : Fin 10240) (hN : N.val = t.val * 1024 + n.val) :
    (iblk1 V c 3 t : Vec Ideal S512x1024 .f32) (ix2 k n) = (V c main_v160 : S512x10240.Idx → EReal) (ix2 k N) := by
  obtain ⟨-, -, -, -, -, -, e0, e1, -⟩ := block_indices t
  show (V c main_v160 : S512x10240.Idx → EReal) (((cfg1.win 3).blk t).view.emb (ix2 k n)) = _
  refine congrArg (V c main_v160 : S512x10240.Idx → EReal) (funext fun a => Fin.ext ?_)
  match a with
  | ⟨0, _⟩ => show win1_3.index t (0 : Fin 2) * 512 + 1 * k.val = k.val; rw [e0]; omega
  | ⟨1, _⟩ => show win1_3.index t (1 : Fin 2) * 1024 + 1 * n.val = N.val; rw [e1, hN]; omega

/-- Column n of the bd2p tile at point t is column 1024·t + n of bd2p. -/
theorem bd2blk_apply (c : Dev nD) (t : Fin cfg1.N) (p : Fin 1) (n : Fin 1024) (N : Fin 10240) (hN : N.val = t.val * 1024 + n.val) :
    (iblk1 V c 4 t : Vec Ideal S1x1024 .f32) (ix2 p n) = (V c main_v163 : S1x10240.Idx → EReal) (ix2 p N) := by
  obtain ⟨-, -, -, -, -, -, -, -, e0, e1, -⟩ := block_indices t
  show (V c main_v163 : S1x10240.Idx → EReal) (((cfg1.win 4).blk t).view.emb (ix2 p n)) = _
  refine congrArg (V c main_v163 : S1x10240.Idx → EReal) (funext fun a => Fin.ext ?_)
  match a with
  | ⟨0, _⟩ => show win1_4.index t (0 : Fin 2) * 1 + 1 * p.val = p.val; rw [e0]; omega
  | ⟨1, _⟩ => show win1_4.index t (1 : Fin 2) * 1024 + 1 * n.val = N.val; rw [e1, hN]; omega

/-- What point t writes back is its block of the result: columns 1024·t … 1024·t + 1023. -/
theorem flushed_eq_decG (c : Dev nD) (t : Fin cfg1.N) :
    (dat1 (F := Ideal) V c).flushed 5 t
      = ((cfg1.win 5).blk t).view.read (Elt Ideal) (decG (V c main_v159) (V c main_arg12) (V c main_v162) (V c main_v160) (V c main_v163)) := by
  show (cfg1.win 5).cut (grid1.coords t) ((dat1 V c).after 5 t) = _
  rw [after1_5]
  unfold out1_5
  rw [View.canon_unit_zero zero_offsets]
  simp only [View.ld_unit_zero (S := S1x256) zero_offsets, View.ld_unit_zero (S := S256x512) zero_offsets,
    View.ld_unit_zero (S := S1x512) zero_offsets, View.ld_unit_zero (S := S512x1024) zero_offsets,
    View.ld_unit_zero (S := S1x1024) zero_offsets]
  funext j
  obtain ⟨p, n, rfl⟩ : ∃ (p : Fin 1) (n : Fin 1024), j = ix2 p n := ⟨j 0, j 1, eq_ix2 j⟩
  obtain rfl : p = 0 := Subsingleton.elim _ _
  have hN10 : cfg1.N = 10 := N_1
  have ht : t.val < 10 := hN10 ▸ t.isLt
  obtain ⟨N, hN⟩ : ∃ N : Fin 10240, N.val = t.val * 1024 + n.val := ⟨⟨t.val * 1024 + n.val, by have := n.isLt; omega⟩, rfl⟩
  obtain ⟨-, -, -, -, -, -, -, -, -, -, e0, e1⟩ := block_indices t
  show k1_pay1 (F := Ideal) (iblk1 V c 0 t) (iblk1 V c 1 t) (iblk1 V c 2 t) (iblk1 V c 3 t) (iblk1 V c 4 t) (ix2 0 n)
    = decG (V c main_v159) (V c main_arg12) (V c main_v162) (V c main_v160) (V c main_v163) (((cfg1.win 5).blk t).view.emb (ix2 0 n))
  refine (tile_eq_decG _ _ _ _ _ (V c main_v159) (V c main_arg12) (V c main_v162) (V c main_v160) (V c main_v163)
    (fun q => zblk_apply V c t 0 q) (fun q k => wd1blk_apply V c t q k) (fun k => bd1blk_apply V c t 0 k) n N
    (fun k => wd2blk_apply V c t k n N hN) (bd2blk_apply V c t 0 n N hN)).trans ?_
  refine congrArg (decG (V c main_v159) (V c main_arg12) (V c main_v162) (V c main_v160) (V c main_v163)) (funext fun a => Fin.ext ?_)
  match a with
  | ⟨0, _⟩ => show 0 = win1_5.index t (0 : Fin 2) * 1 + 1 * 0; rw [e0]
  | ⟨1, _⟩ => show N.val = win1_5.index t (1 : Fin 2) * 1024 + 1 * n.val; rw [e1, hN]; omega

/-- An index of the output array is in point t's block iff each coordinate is in the block's range on its axis. -/
theorem mem_outblk (t : Fin cfg1.N) (i : S1x10240.Idx) :
    i ∈ ((cfg1.win 5).blk t).view.set ↔ ∀ a : Fin 2, win1_5.index t a * S1x1024.size a ≤ (i a).val ∧ (i a).val < win1_5.index t a * S1x1024.size a + S1x1024.size a := by
  show i ∈ ((View.whole main_v164).slice (win1_5.rect t)).set ↔ _
  rw [View.set_slice_whole, Rect.mem_set_unit]
  exact Iff.rfl

/-- Every column is written back by some point: column i₁ by point i₁ / 1024. -/
theorem out_covered (i : S1x10240.Idx) : ∃ t : Fin cfg1.N, (cfg1.win 5).flush t = true ∧ i ∈ ((cfg1.win 5).blk t).view.set := by
  have h0 : (i 0).val < 1 := (i 0).isLt
  have h1 : (i 1).val < 10240 := (i 1).isLt
  have hN10 : cfg1.N = 10 := N_1
  obtain ⟨t, ht⟩ : ∃ t : Fin cfg1.N, t.val = (i 1).val / 1024 := ⟨⟨(i 1).val / 1024, by rw [hN10]; omega⟩, rfl⟩
  obtain ⟨-, -, -, -, -, -, -, -, -, -, e0, e1⟩ := block_indices t
  refine ⟨t, flush1_5 t, ?_⟩
  rw [mem_outblk]
  intro a
  match a with
  | ⟨0, _⟩ => show win1_5.index t (0 : Fin 2) * 1 ≤ (i 0).val ∧ (i 0).val < win1_5.index t (0 : Fin 2) * 1 + 1; rw [e0]; omega
  | ⟨1, _⟩ => show win1_5.index t (1 : Fin 2) * 1024 ≤ (i 1).val ∧ (i 1).val < win1_5.index t (1 : Fin 2) * 1024 + 1024; rw [e1, ht]; omega

/-- The output array after the region's ten points is relu(z·Wd1 + bd1)·Wd2p + bd2p of the entry arrays. -/
theorem dec_final (c : Dev nD) :
    (dat1 (F := Ideal) V c).arrAt 5 cfg1.N = decG (V c main_v159) (V c main_arg12) (V c main_v162) (V c main_v160) (V c main_v163) :=
  (dat1 V c).arrAt_eq_of_cover 5 (decG (V c main_v159) (V c main_arg12) (V c main_v162) (V c main_v160) (V c main_v163))
    (fun t _ => flushed_eq_decG V c t) (out_covered)

end Blocks

end Cert.KernelIdeal.Hand

end
-- ==== Proof.LibTileSum.lean ====
/-
  Finite sums over an additive commutative monoid, cut into tiles (general: nothing here mentions a program). Three families of facts, each true in EVERY additive commutative monoid `M` — in particular
  in the extended reals, whose addition is commutative and associative everywhere, the infinities included, so that
  no finiteness hypothesis appears anywhere below:

  § 1  REGROUPING. A sum over `T * B` consecutive indices is the sum over the `T` tiles of the sums over each
       tile's `B` indices; index `r` of tile `t` is the index `t * B + r` (`sum_tiles`), also written
       `B * t + r` against a length `N` known to be `T * B` (`sum_tiles_of_eq`), and at the literal sizes
       `160000 = 50 * 3200` (`sum_tiles_50_3200`).
  § 2  THE RUNNING ACCUMULATOR. A sequence that starts at `0 + a 0` and adds `a (t + 1)` at step `t + 1` is, at
       step `n`, the sum of `a 0, …, a n` (`running_sum`, `running_sum_of_lt`); at `n = 49` that is the sum over
       `Fin 50` (`running_sum_49`).
  § 3  ZERO PADDING. A family over `Fin n` extended by `0` to `Fin N` (`pad`) and a matrix's columns likewise
       (`padCols`) read, below `n`, the family itself (`pad_of_lt`, `pad_mk`, `padCols_mk`) and `0` from `n` on
       (`pad_of_le`); cut into tiles of `B` columns, column `c` of tile `t` is column `B * t + c`
       (`pad_tile`, `padCols_tile`), and every column below `T * B` is one of those (`exists_tile`); last the
       literal sizes `10000 ≤ 10240 = 10 * 1024`.
-/
import Mathlib.Algebra.BigOperators.Fin
import Mathlib.Logic.Equiv.Fin.Basic

open scoped BigOperators

namespace Cert.LibTileSum

variable {M : Type*} [AddCommMonoid M]

/-! ## § 1 Regrouping a sum by tiles -/

/-- Index `r` of tile `t`, among `T` tiles of `B` indices each, is below `T * B`:
    `t * B + r < t * B + B = (t + 1) * B ≤ T * B`. -/
theorem tile_lt {T B : ℕ} (t : Fin T) (r : Fin B) : t.val * B + r.val < T * B :=
  calc t.val * B + r.val < t.val * B + B := Nat.add_lt_add_left r.isLt _
    _ = (t.val + 1) * B := (Nat.succ_mul _ _).symm
    _ ≤ T * B := Nat.mul_le_mul_right _ t.isLt

/-- The same with the product written `B * t`, against a length `N` that is `T * B`. -/
theorem tile_lt' {N T B : ℕ} (h : N = T * B) (t : Fin T) (r : Fin B) : B * t.val + r.val < N := by
  rw [h, Nat.mul_comm B]; exact tile_lt t r

/-- REGROUPING: a sum over `T * B` indices is the sum, over the `T` tiles, of the sum over each tile's `B` indices,
    index `r` of tile `t` being `t * B + r`. (The pairs `(t, r)` are in bijection with the indices below `T * B`
    by `(t, r) ↦ r + B * t`; a sum is invariant under a bijection of its index set, and a sum over pairs is the
    iterated sum. Commutativity of `+` is all that is used.) -/
theorem sum_tiles {T B : ℕ} (f : Fin (T * B) → M) :
    ∑ k, f k = ∑ t : Fin T, ∑ r : Fin B, f ⟨t.val * B + r.val, tile_lt t r⟩ := by
  rw [← Equiv.sum_comp finProdFinEquiv f, Fintype.sum_prod_type]
  refine Finset.sum_congr rfl fun t _ => Finset.sum_congr rfl fun r _ => ?_
  congr 1
  apply Fin.ext
  show r.val + B * t.val = t.val * B + r.val
  rw [Nat.add_comm, Nat.mul_comm]

/-- REGROUPING against a length `N = T * B`, the tile's offset written `B * t`: the form in which a literal length
    (`160000`) and literal tile sizes (`50`, `3200`) meet without a product inside the index type. -/
theorem sum_tiles_of_eq {N T B : ℕ} (h : N = T * B) (f : Fin N → M) :
    ∑ k, f k = ∑ t : Fin T, ∑ r : Fin B, f ⟨B * t.val + r.val, tile_lt' h t r⟩ := by
  subst h
  rw [sum_tiles f]
  refine Finset.sum_congr rfl fun t _ => Finset.sum_congr rfl fun r _ => ?_
  congr 1
  apply Fin.ext
  show t.val * B + r.val = B * t.val + r.val
  rw [Nat.mul_comm]

/-- REGROUPING at `160000 = 50 * 3200`: a sum over `Fin 160000` is the sum over 50 tiles of the sums over each
    tile's 3200 indices `3200 * t + r`. -/
theorem sum_tiles_50_3200 (f : Fin 160000 → M) :
    ∑ q, f q = ∑ t : Fin 50, ∑ r : Fin 3200, f ⟨3200 * t.val + r.val, by have := t.isLt; have := r.isLt; omega⟩ :=
  sum_tiles_of_eq (N := 160000) (T := 50) (B := 3200) rfl f

/-! ## § 2 The running accumulator -/

/-- THE RUNNING ACCUMULATOR, as far as it is known to run: a sequence `S` with `S 0 = 0 + a 0` and
    `S (t + 1) = S t + a (t + 1)` for every `t < n` has `S n = a 0 + a 1 + ⋯ + a n`. (Induction on `n`;
    `0 + x = x` and the sum over `range (n + 2)` is the sum over `range (n + 1)` plus the last term.) -/
theorem running_sum_of_lt (S a : ℕ → M) (h0 : S 0 = 0 + a 0) (n : ℕ)
    (hs : ∀ t, t < n → S (t + 1) = S t + a (t + 1)) :
    S n = ∑ t ∈ Finset.range (n + 1), a t := by
  induction n with
  | zero => rw [h0, zero_add, Finset.sum_range_one]
  | succ n ih =>
    rw [hs n (Nat.lt_succ_self n), ih fun t ht => hs t (Nat.lt_succ_of_lt ht), Finset.sum_range_succ _ (n + 1)]

/-- THE RUNNING ACCUMULATOR with the step known at every index. -/
theorem running_sum (S a : ℕ → M) (h0 : S 0 = 0 + a 0) (hs : ∀ t, S (t + 1) = S t + a (t + 1)) (n : ℕ) :
    S n = ∑ t ∈ Finset.range (n + 1), a t :=
  running_sum_of_lt S a h0 n fun t _ => hs t

/-- THE RUNNING ACCUMULATOR after 50 steps: `S 49` is the sum of the 50 terms, written over `Fin 50`. Only the
    steps `t < 49` are asked for. -/
theorem running_sum_49 (S a : ℕ → M) (h0 : S 0 = 0 + a 0) (hs : ∀ t, t < 49 → S (t + 1) = S t + a (t + 1)) :
    S 49 = ∑ t : Fin 50, a t.val := by
  rw [running_sum_of_lt S a h0 49 hs, Fin.sum_univ_eq_sum_range]

/-- The same over any number of steps: `S n` is the sum over `Fin (n + 1)`. -/
theorem running_sum_fin (S a : ℕ → M) (h0 : S 0 = 0 + a 0) (n : ℕ)
    (hs : ∀ t, t < n → S (t + 1) = S t + a (t + 1)) :
    S n = ∑ t : Fin (n + 1), a t.val := by
  rw [running_sum_of_lt S a h0 n hs, Fin.sum_univ_eq_sum_range]

/-! ## § 3 Zero padding -/

/-- A family over `Fin n` extended by `0` to `Fin N`: the family below `n`, `0` from `n` on. -/
def pad (n N : ℕ) (b : Fin n → M) : Fin N → M := fun j => if h : j.val < n then b ⟨j.val, h⟩ else 0

/-- A matrix's columns extended by `0` from `n` to `N` columns, row by row. -/
def padCols {K : ℕ} (n N : ℕ) (W : Fin K → Fin n → M) : Fin K → Fin N → M := fun k => pad n N (W k)

variable {n N : ℕ}

/-- Below `n` the padded family is the family. -/
theorem pad_of_lt (b : Fin n → M) (j : Fin N) (h : j.val < n) : pad n N b j = b ⟨j.val, h⟩ := dif_pos h

/-- From `n` on the padded family is `0`. -/
theorem pad_of_le (b : Fin n → M) (j : Fin N) (h : n ≤ j.val) : pad n N b j = 0 := dif_neg (Nat.not_lt.mpr h)

/-- The padded family at an index of the unpadded one, carried over by its value: the family there. -/
theorem pad_mk (b : Fin n → M) (j : Fin n) (hj : j.val < N) : pad n N b ⟨j.val, hj⟩ = b j := dif_pos j.isLt

/-- The padded matrix at a column of the unpadded one: the matrix there. -/
theorem padCols_mk {K : ℕ} (W : Fin K → Fin n → M) (k : Fin K) (j : Fin n) (hj : j.val < N) :
    padCols n N W k ⟨j.val, hj⟩ = W k j := pad_mk (W k) j hj

/-- Below `n` the padded matrix is the matrix. -/
theorem padCols_of_lt {K : ℕ} (W : Fin K → Fin n → M) (k : Fin K) (j : Fin N) (h : j.val < n) :
    padCols n N W k j = W k ⟨j.val, h⟩ := dif_pos h

/-- From column `n` on the padded matrix is `0`. -/
theorem padCols_of_le {K : ℕ} (W : Fin K → Fin n → M) (k : Fin K) (j : Fin N) (h : n ≤ j.val) :
    padCols n N W k j = 0 := dif_neg (Nat.not_lt.mpr h)

/-- TILES OF THE PADDED FAMILY: with `N = T * B`, entry `c` of tile `t` is entry `B * t + c`, and where that is
    below `n` it is the unpadded family there. -/
theorem pad_tile {T B : ℕ} (hN : N = T * B) (b : Fin n → M) (t : Fin T) (c : Fin B) (h : B * t.val + c.val < n) :
    pad n N b ⟨B * t.val + c.val, tile_lt' hN t c⟩ = b ⟨B * t.val + c.val, h⟩ := dif_pos h

/-- TILES OF THE PADDED MATRIX: column `c` of column-tile `t` is column `B * t + c`, and where that is below `n`
    it is the unpadded matrix's column. -/
theorem padCols_tile {K T B : ℕ} (hN : N = T * B) (W : Fin K → Fin n → M) (k : Fin K) (t : Fin T) (c : Fin B)
    (h : B * t.val + c.val < n) :
    padCols n N W k ⟨B * t.val + c.val, tile_lt' hN t c⟩ = W k ⟨B * t.val + c.val, h⟩ := dif_pos h

/-- Every index below `T * B` is entry `c` of tile `t` for some pair `(t, c)`: `t` the quotient by `B`, `c` the
    remainder. -/
theorem exists_tile {T B : ℕ} (j : ℕ) (hj : j < T * B) : ∃ (t : Fin T) (c : Fin B), j = B * t.val + c.val := by
  have hB : 0 < B := Nat.pos_of_ne_zero fun h => by subst h; simp at hj
  exact ⟨⟨j / B, Nat.div_lt_of_lt_mul (by rwa [Nat.mul_comm] at hj)⟩, ⟨j % B, Nat.mod_lt _ hB⟩,
    (Nat.div_add_mod j B).symm⟩

/-! ### The literal sizes `10000 ≤ 10240 = 10 * 1024` -/

/-- The padded family over `Fin 10240` at a column of the unpadded one over `Fin 10000`. -/
theorem pad_10000_mk (b : Fin 10000 → M) (j : Fin 10000) :
    pad 10000 10240 b ⟨j.val, by have := j.isLt; omega⟩ = b j := dif_pos j.isLt

/-- The padded matrix over `Fin 10240` columns at a column of the unpadded one over `Fin 10000`. -/
theorem padCols_10000_mk {K : ℕ} (W : Fin K → Fin 10000 → M) (k : Fin K) (j : Fin 10000) :
    padCols 10000 10240 W k ⟨j.val, by have := j.isLt; omega⟩ = W k j := dif_pos j.isLt

/-- Column `c` of tile `t` of the 10 tiles of 1024 columns is column `1024 * t + c` of the 10240. -/
theorem tile_1024_lt (t : Fin 10) (c : Fin 1024) : 1024 * t.val + c.val < 10240 := by
  have := t.isLt; have := c.isLt; omega

/-- TILES at the literal sizes: where column `1024 * t + c` is below `10000`, the padded family there is the
    unpadded family there. -/
theorem pad_tile_1024 (b : Fin 10000 → M) (t : Fin 10) (c : Fin 1024) (h : 1024 * t.val + c.val < 10000) :
    pad 10000 10240 b ⟨1024 * t.val + c.val, tile_1024_lt t c⟩ = b ⟨1024 * t.val + c.val, h⟩ := dif_pos h

/-- TILES at the literal sizes, for the matrix. -/
theorem padCols_tile_1024 {K : ℕ} (W : Fin K → Fin 10000 → M) (k : Fin K) (t : Fin 10) (c : Fin 1024)
    (h : 1024 * t.val + c.val < 10000) :
    padCols 10000 10240 W k ⟨1024 * t.val + c.val, tile_1024_lt t c⟩ = W k ⟨1024 * t.val + c.val, h⟩ := dif_pos h

/-- Every column `j` of the 10000 is column `c` of tile `t` for `t = j / 1024` and `c = j % 1024`. -/
theorem exists_tile_1024 (j : Fin 10000) : ∃ (t : Fin 10) (c : Fin 1024), j.val = 1024 * t.val + c.val :=
  ⟨⟨j.val / 1024, by have := j.isLt; omega⟩, ⟨j.val % 1024, by omega⟩,
    (Nat.div_add_mod j.val 1024).symm⟩

end Cert.LibTileSum
-- ==== Proof.EncoderValueIdeal.lean ====
/- The value of the encoder region at the extended reals: after its fifty grid points the output array holds, at every
   column i₁ of its one row,
       (∑ k : Fin 512, max ((∑ q : Fin 160000, h(0,q) · We1(q,k)) + be1(0,k)) 0 · We2(k,i₁)) + be2(0,i₁),
   that is relu(h·We1 + be1)·We2 + be2, as one function of the five arrays the region finds on entry.
   First what each control case leaves in the accumulator and in the output's buffer is read back as the body's named
   stored values over the loaded blocks. Then each stored value is read at an index (a contraction is a finite sum over
   its one contracted axis; rounding to the 16-bit format is the identity on the extended reals; the zero literal is 0).
   Then the points are put together: point t adds the partial product of columns 3200·t … 3200·t + 3199 of h with the
   same rows of We1 into the accumulator, which starts from zero, so after the last point it holds the sum of the fifty
   partial products, which is the contraction over all 160000 indices regrouped by tiles; the last point applies the
   second layer to it and writes the one block that is the whole output array. -/
import proofs.«173102_j37185826849263_1_alg».proof.Proof.EncoderRegionIdeal
import proofs.«173102_j37185826849263_1_alg».proof.Proof.LibTileSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open scoped BigOperators

/-! ## What each case's found pieces are

Each store of the body is of a whole buffer and each load reads a whole buffer, so what a case leaves in a buffer is the
payload of its last store there, over the loaded contents themselves. Generic in the float instance. -/

section Pieces
variable {F : FTy → Type} [FloatOps F]

/-- The offsets of every access of the body are zero on both axes. -/
theorem enc_hz : (![0, 0] : Fin 2 → Nat) = fun _ => 0 := funext fun a => by fin_cases a <;> rfl

/-- Case B leaves in the accumulator what it held plus the tile's partial product. -/
theorem sout0_B_0_eq (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : ¬cond0_1 i)
    (x0 : Vec F S1x3200 .f32) (x1 : Vec F S3200x512 .f32) (x2 : Vec F S1x512 .f32) (x3 : Vec F S512x256 .f32) (x4 : Vec F S1x256 .f32) (xs0 : Vec F S1x512 .f32) :
    sout0_B_0 c i arg1 harg1 arg2 harg2 arg3 harg3 arg4 harg4 arg5 harg5 arg6 harg6 arg7 harg7 hc0 hc1 x0 x1 x2 x3 x4 xs0 = k0_pay2 x0 x1 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  rw [View.canon_unit_zero enc_hz]
  simp only [View.readAt_eq_ld, harg1.read_unread, harg2.read_unread, harg3.read_unread, harg4.read_unread, harg5.read_unread, harg6.read_unread, harg7.read_unread, View.ld_unit_zero (S := S1x3200) enc_hz, View.ld_unit_zero (S := S3200x512) enc_hz, View.ld_unit_zero (S := S1x512) enc_hz, View.ld_unit_zero (S := S512x256) enc_hz, View.ld_unit_zero (S := S1x256) enc_hz]

/-- Case C leaves in the accumulator what it held plus the tile's partial product. -/
theorem sout0_C_0_eq (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) :
    sout0_C_0 c i arg1 harg1 arg2 harg2 arg3 harg3 arg4 harg4 arg5 harg5 arg6 harg6 arg7 harg7 hc0 hc1 x0 x1 x2 x3 x4 xs0 = k0_pay2 x0 x1 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero enc_hz]
  simp only [View.readAt_eq_ld, harg1.read_unread, harg2.read_unread, harg3.read_unread, harg4.read_unread, harg5.read_unread, harg6.read_unread, harg7.read_unread, View.ld_unit_zero (S := S1x3200) enc_hz, View.ld_unit_zero (S := S3200x512) enc_hz, View.ld_unit_zero (S := S1x512) enc_hz, View.ld_unit_zero (S := S512x256) enc_hz, View.ld_unit_zero (S := S1x256) enc_hz]

/-- Case C leaves in the output's buffer the second layer applied to the accumulator it has just stored. -/
theorem out0_C_5_eq (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : ¬cond0_0 i) (hc1 : cond0_1 i)
    (x0 : Vec F S1x3200 .f32) (x1 : Vec F S3200x512 .f32) (x2 : Vec F S1x512 .f32) (x3 : Vec F S512x256 .f32) (x4 : Vec F S1x256 .f32) (xs0 : Vec F S1x512 .f32) :
    out0_C_5 c i arg1 harg1 arg2 harg2 arg3 harg3 arg4 harg4 arg5 harg5 arg6 harg6 arg7 harg7 hc0 hc1 x0 x1 x2 x3 x4 xs0 = k0_pay3 (k0_pay2 x0 x1 xs0) x2 x3 x4 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only

  sl_unfold_words
  rw [View.canon_unit_zero enc_hz]
  rw [View.readCov_unit_zero (S := S1x512) _ enc_hz]
  simp only [View.readAt_eq_ld, harg1.read_unread, harg2.read_unread, harg3.read_unread, harg4.read_unread, harg5.read_unread, harg6.read_unread, harg7.read_unread, View.ld_unit_zero (S := S1x3200) enc_hz, View.ld_unit_zero (S := S3200x512) enc_hz, View.ld_unit_zero (S := S1x512) enc_hz, View.ld_unit_zero (S := S512x256) enc_hz, View.ld_unit_zero (S := S1x256) enc_hz]

/-- Case A leaves in the accumulator the tile's partial product added to the zeros it has just stored. -/
theorem sout0_A_0_eq (c : Dev nD) (i : grid0.Coords) (arg1 : Memref sig .tc .vmem S1x3200 .f32) (harg1 : arg1.IsWhole) (arg2 : Memref sig .tc .vmem S3200x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x512 .f32) (harg7 : arg7.IsWhole) (hc0 : cond0_0 i) (hc1 : ¬cond0_1 i)
    (x0 : Vec F S1x3200 .f32) (x1 : Vec F S3200x512 .f32) (x2 : Vec F S1x512 .f32) (x3 : Vec F S512x256 .f32) (x4 : Vec F S1x256 .f32) :
    sout0_A_0 c i arg1 harg1 arg2 harg2 arg3 harg3 arg4 harg4 arg5 harg5 arg6 harg6 arg7 harg7 hc0 hc1 x0 x1 x2 x3 x4 = k0_pay2 x0 x1 k0_pay1 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only

  sl_unfold_words
  rw [View.canon_cons_unit_zero (S := S1x512) enc_hz, View.readCov_unit_zero (S := S1x512) _ enc_hz]
  simp only [View.readAt_eq_ld, harg1.read_unread, harg2.read_unread, harg3.read_unread, harg4.read_unread, harg5.read_unread, harg6.read_unread, harg7.read_unread, View.ld_unit_zero (S := S1x3200) enc_hz, View.ld_unit_zero (S := S3200x512) enc_hz, View.ld_unit_zero (S := S1x512) enc_hz, View.ld_unit_zero (S := S512x256) enc_hz, View.ld_unit_zero (S := S1x256) enc_hz]

end Pieces

/-! ## The two contractions of the body, read at an index

Each is a product of a row vector with a matrix, accumulated into the zero vector: at column k it is the sum over the
one contracted axis of the row's entry times the matrix's entry in column k. -/

/-- The operand coordinates of the first contraction (a row tile [1,3200] times a matrix tile [3200,512]) at output index i and contraction index q: the row is read at (i₀, q), the matrix
    at (q, i₁). -/
theorem dotE1_lhs0 (i : S1x512.Idx) (q : dot_S1x3200_S3200x512_S1x512_1_0_0_1_n_n.contr.Idx) :
    (dot_S1x3200_S3200x512_S1x512_1_0_0_1_n_n.lhsIdx i q 0).val = (i 0).val := by
  unfold DotDims.lhsIdx
  rw [dif_neg (show ¬(0 : Fin S1x3200.rank) ∈ dot_S1x3200_S3200x512_S1x512_1_0_0_1_n_n.lhsBatch by decide), dif_pos (show (0 : Fin S1x3200.rank) ∈ dot_S1x3200_S3200x512_S1x512_1_0_0_1_n_n.lhsNonContracting by decide)]
  rfl
theorem dotE1_lhs1 (i : S1x512.Idx) (q : dot_S1x3200_S3200x512_S1x512_1_0_0_1_n_n.contr.Idx) :
    (dot_S1x3200_S3200x512_S1x512_1_0_0_1_n_n.lhsIdx i q 1).val = (q ⟨0, by decide⟩).val :=
  dot_S1x3200_S3200x512_S1x512_1_0_0_1_n_n.lhsIdx_val_of_single rfl i q
theorem dotE1_rhs0 (i : S1x512.Idx) (q : dot_S1x3200_S3200x512_S1x512_1_0_0_1_n_n.contr.Idx) :
    (dot_S1x3200_S3200x512_S1x512_1_0_0_1_n_n.rhsIdx i q 0).val = (q ⟨0, by decide⟩).val :=
  dot_S1x3200_S3200x512_S1x512_1_0_0_1_n_n.rhsIdx_val_of_single rfl i q
theorem dotE1_rhs1 (i : S1x512.Idx) (q : dot_S1x3200_S3200x512_S1x512_1_0_0_1_n_n.contr.Idx) :
    (dot_S1x3200_S3200x512_S1x512_1_0_0_1_n_n.rhsIdx i q 1).val = (i 1).val := by
  unfold DotDims.rhsIdx
  rw [dif_neg (show ¬(1 : Fin S3200x512.rank) ∈ dot_S1x3200_S3200x512_S1x512_1_0_0_1_n_n.rhsBatch by decide), dif_pos (show (1 : Fin S3200x512.rank) ∈ dot_S1x3200_S3200x512_S1x512_1_0_0_1_n_n.rhsNonContracting by decide)]
  rfl

/-- h_tile·We1_tile at column k: the sum over the tile's 3200 entries of the row. -/
theorem dotE1_apply (l : FVec Ideal S1x3200 .bf16) (r : FVec Ideal S3200x512 .bf16) (p : Fin 1) (k : Fin 512) :
    matmul (F := Ideal) dot_S1x3200_S3200x512_S1x512_1_0_0_1_n_n none l r (constant (F := Ideal) S1x512 .f32 0x00000000#32) (ix2 p k)
      = ∑ r' : Fin 3200, l (ix2 p r') * r (ix2 r' k) := by
  simp only [matmul]
  rw [Ideal.matmul_constant_zero_apply, ← Equiv.sum_comp (ValueIdx.contrEquiv1 dot_S1x3200_S3200x512_S1x512_1_0_0_1_n_n 3200 rfl rfl).symm]
  refine Finset.sum_congr rfl fun r' _ => ?_
  have hq := ValueIdx.contrEquiv1_symm_val dot_S1x3200_S3200x512_S1x512_1_0_0_1_n_n 3200 rfl rfl r'
  have el : dot_S1x3200_S3200x512_S1x512_1_0_0_1_n_n.lhsIdx (ix2 p k) ((ValueIdx.contrEquiv1 dot_S1x3200_S3200x512_S1x512_1_0_0_1_n_n 3200 rfl rfl).symm r') = ix2 p r' := funext fun a => Fin.ext (by
    match a with
    | ⟨0, _⟩ => exact dotE1_lhs0 _ _
    | ⟨1, _⟩ => exact (dotE1_lhs1 _ _).trans hq)
  have er : dot_S1x3200_S3200x512_S1x512_1_0_0_1_n_n.rhsIdx (ix2 p k) ((ValueIdx.contrEquiv1 dot_S1x3200_S3200x512_S1x512_1_0_0_1_n_n 3200 rfl rfl).symm r') = ix2 r' k := funext fun a => Fin.ext (by
    match a with
    | ⟨0, _⟩ => exact (dotE1_rhs0 _ _).trans hq
    | ⟨1, _⟩ => exact dotE1_rhs1 _ _)
  rw [el, er]

/-- The operand coordinates of the second contraction (the hidden row [1,512] times the matrix [512,256]) at output index i and contraction index q: the row is read at (i₀, q), the matrix
    at (q, i₁). -/
theorem dotE2_lhs0 (i : S1x256.Idx) (q : dot_S1x512_S512x256_S1x256_1_0_0_1_n_n.contr.Idx) :
    (dot_S1x512_S512x256_S1x256_1_0_0_1_n_n.lhsIdx i q 0).val = (i 0).val := by
  unfold DotDims.lhsIdx
  rw [dif_neg (show ¬(0 : Fin S1x512.rank) ∈ dot_S1x512_S512x256_S1x256_1_0_0_1_n_n.lhsBatch by decide), dif_pos (show (0 : Fin S1x512.rank) ∈ dot_S1x512_S512x256_S1x256_1_0_0_1_n_n.lhsNonContracting by decide)]
  rfl
theorem dotE2_lhs1 (i : S1x256.Idx) (q : dot_S1x512_S512x256_S1x256_1_0_0_1_n_n.contr.Idx) :
    (dot_S1x512_S512x256_S1x256_1_0_0_1_n_n.lhsIdx i q 1).val = (q ⟨0, by decide⟩).val :=
  dot_S1x512_S512x256_S1x256_1_0_0_1_n_n.lhsIdx_val_of_single rfl i q
theorem dotE2_rhs0 (i : S1x256.Idx) (q : dot_S1x512_S512x256_S1x256_1_0_0_1_n_n.contr.Idx) :
    (dot_S1x512_S512x256_S1x256_1_0_0_1_n_n.rhsIdx i q 0).val = (q ⟨0, by decide⟩).val :=
  dot_S1x512_S512x256_S1x256_1_0_0_1_n_n.rhsIdx_val_of_single rfl i q
theorem dotE2_rhs1 (i : S1x256.Idx) (q : dot_S1x512_S512x256_S1x256_1_0_0_1_n_n.contr.Idx) :
    (dot_S1x512_S512x256_S1x256_1_0_0_1_n_n.rhsIdx i q 1).val = (i 1).val := by
  unfold DotDims.rhsIdx
  rw [dif_neg (show ¬(1 : Fin S512x256.rank) ∈ dot_S1x512_S512x256_S1x256_1_0_0_1_n_n.rhsBatch by decide), dif_pos (show (1 : Fin S512x256.rank) ∈ dot_S1x512_S512x256_S1x256_1_0_0_1_n_n.rhsNonContracting by decide)]
  rfl

/-- relu(acc + be1)·We2 at column j: the sum over the 512 entries of the hidden row. -/
theorem dotE2_apply (l : FVec Ideal S1x512 .bf16) (r : FVec Ideal S512x256 .bf16) (p : Fin 1) (k : Fin 256) :
    matmul (F := Ideal) dot_S1x512_S512x256_S1x256_1_0_0_1_n_n none l r (constant (F := Ideal) S1x256 .f32 0x00000000#32) (ix2 p k)
      = ∑ k' : Fin 512, l (ix2 p k') * r (ix2 k' k) := by
  simp only [matmul]
  rw [Ideal.matmul_constant_zero_apply, ← Equiv.sum_comp (ValueIdx.contrEquiv1 dot_S1x512_S512x256_S1x256_1_0_0_1_n_n 512 rfl rfl).symm]
  refine Finset.sum_congr rfl fun k' _ => ?_
  have hq := ValueIdx.contrEquiv1_symm_val dot_S1x512_S512x256_S1x256_1_0_0_1_n_n 512 rfl rfl k'
  have el : dot_S1x512_S512x256_S1x256_1_0_0_1_n_n.lhsIdx (ix2 p k) ((ValueIdx.contrEquiv1 dot_S1x512_S512x256_S1x256_1_0_0_1_n_n 512 rfl rfl).symm k') = ix2 p k' := funext fun a => Fin.ext (by
    match a with
    | ⟨0, _⟩ => exact dotE2_lhs0 _ _
    | ⟨1, _⟩ => exact (dotE2_lhs1 _ _).trans hq)
  have er : dot_S1x512_S512x256_S1x256_1_0_0_1_n_n.rhsIdx (ix2 p k) ((ValueIdx.contrEquiv1 dot_S1x512_S512x256_S1x256_1_0_0_1_n_n 512 rfl rfl).symm k') = ix2 k' k := funext fun a => Fin.ext (by
    match a with
    | ⟨0, _⟩ => exact (dotE2_rhs0 _ _).trans hq
    | ⟨1, _⟩ => exact dotE2_rhs1 _ _)
  rw [el, er]

/-! ## The body's stored values at an index -/

/-- The reset stores zeros. -/
theorem encPay1_apply (p : Fin 1) (k : Fin 512) : k0_pay1 (F := Ideal) (ix2 p k) = (0 : EReal) := by
  unfold k0_pay1
  simp only [shapeCast_self]
  rw [broadcast_apply]
  exact Ideal.ofBits_zero_f32

/-- What every point stores into the accumulator, at column k: what it held there plus the tile's partial product.
    Rounding to the 16-bit format is the identity on the extended reals. -/
theorem encPay2_apply (x0 : Vec Ideal S1x3200 .f32) (x1 : Vec Ideal S3200x512 .f32) (acc : Vec Ideal S1x512 .f32) (p : Fin 1) (k : Fin 512) :
    k0_pay2 (F := Ideal) x0 x1 acc (ix2 p k) = acc (ix2 p k) + ∑ r : Fin 3200, x0 (ix2 p r) * x1 (ix2 r k) := by
  unfold k0_pay2
  simp only [shapeCast_self]
  rw [addf_apply, dotE1_apply]
  simp only [truncf_apply]

/-- What the last point stores into the output, at column j, from the finished accumulator and the second layer's
    blocks: relu(acc + be1)·We2 + be2 there. The zero literal is 0. -/
theorem encPay3_apply (acc : Vec Ideal S1x512 .f32) (x2 : Vec Ideal S1x512 .f32) (x3 : Vec Ideal S512x256 .f32) (x4 : Vec Ideal S1x256 .f32) (p : Fin 1) (j : Fin 256) :
    k0_pay3 (F := Ideal) acc x2 x3 x4 (ix2 p j)
      = (∑ k : Fin 512, max (acc (ix2 p k) + x2 (ix2 p k)) 0 * x3 (ix2 k j)) + x4 (ix2 p j) := by
  unfold k0_pay3
  simp only [shapeCast_self]
  rw [addf_apply, dotE2_apply]
  refine congrArg (· + x4 (ix2 p j)) (Finset.sum_congr rfl fun k _ => ?_)
  rw [truncf_apply, truncf_apply, maximumf_apply, addf_apply, broadcast_apply]
  rw [show Scalar.ofBits (F := Ideal) .f32 0x00000000#32 = (0 : EReal) from Ideal.ofBits_zero_f32]

/-! ## The result as one function of the entry arrays -/

/-- relu(h·We1 + be1)·We2 + be2 at column i₁ of the one row. -/
def encG (h : S1x160000.Idx → EReal) (We1 : S160000x512.Idx → EReal) (be1 : S1x512.Idx → EReal)
    (We2 : S512x256.Idx → EReal) (be2 : S1x256.Idx → EReal) : S1x256.Idx → EReal := fun i =>
  (∑ k : Fin 512, max ((∑ q : Fin 160000, h (ix2 0 q) * We1 (ix2 q k)) + be1 (ix2 0 k)) 0 * We2 (ix2 k (i 1))) + be2 (ix2 0 (i 1))

/-- The same read at an index given by its coordinates. -/
theorem encG_ix2 (h : S1x160000.Idx → EReal) (We1 : S160000x512.Idx → EReal) (be1 : S1x512.Idx → EReal)
    (We2 : S512x256.Idx → EReal) (be2 : S1x256.Idx → EReal) (p : Fin 1) (j : Fin 256) :
    encG h We1 be1 We2 be2 (ix2 p j)
      = (∑ k : Fin 512, max ((∑ q : Fin 160000, h (ix2 0 q) * We1 (ix2 q k)) + be1 (ix2 0 k)) 0 * We2 (ix2 k j)) + be2 (ix2 0 j) := rfl

/-! ## From blocks to the arrays -/

section Blocks
-- what the TensorCore's buffers hold when the region is entered, at the extended reals
variable (V : (c : Dev nD) → (b : Ref sig .tc) → Buf (Elt Ideal) ((c : Thread nD τ).loc b))

/-- The tile of h and the tile of We1 at point t, and the arrays h and We1 themselves, as functions to the extended reals
    (so that their entries multiply as extended reals). -/
abbrev tileH (c : Dev nD) (t : Fin cfg0.N) : S1x3200.Idx → EReal := iblk0 V c 0 t
abbrev tileW1 (c : Dev nD) (t : Fin cfg0.N) : S3200x512.Idx → EReal := iblk0 V c 1 t
abbrev arrH (c : Dev nD) : S1x160000.Idx → EReal := V c main_v156
abbrev arrW1 (c : Dev nD) : S160000x512.Idx → EReal := V c main_arg8

/-- The block indices over the grid: at point t the tile of h is block (0, t) and the tile of We1 block (t, 0); be1,
    We2, be2 and the output stay at block (0, 0). -/
theorem enc_block_indices : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Entry r of the tile of h at point t is entry 3200·t + r of h. -/
theorem hblk_apply (c : Dev nD) (t : Fin cfg0.N) (p : Fin 1) (r : Fin 3200) (Q : Fin 160000) (hQ : Q.val = t.val * 3200 + r.val) :
    (iblk0 V c 0 t : Vec Ideal S1x3200 .f32) (ix2 p r) = (V c main_v156 : S1x160000.Idx → EReal) (ix2 p Q) := by
  obtain ⟨e0, e1, -⟩ := enc_block_indices t
  show (V c main_v156 : S1x160000.Idx → EReal) (((cfg0.win 0).blk t).view.emb (ix2 p r)) = _
  refine congrArg (V c main_v156 : S1x160000.Idx → EReal) (funext fun a => Fin.ext ?_)
  match a with
  | ⟨0, _⟩ => show win0_0.index t (0 : Fin 2) * 1 + 1 * p.val = p.val; rw [e0]; omega
  | ⟨1, _⟩ => show win0_0.index t (1 : Fin 2) * 3200 + 1 * r.val = Q.val; rw [e1, hQ]; omega

/-- Row r of the tile of We1 at point t is row 3200·t + r of We1. -/
theorem we1blk_apply (c : Dev nD) (t : Fin cfg0.N) (r : Fin 3200) (k : Fin 512) (Q : Fin 160000) (hQ : Q.val = t.val * 3200 + r.val) :
    (iblk0 V c 1 t : Vec Ideal S3200x512 .f32) (ix2 r k) = (V c main_arg8 : S160000x512.Idx → EReal) (ix2 Q k) := by
  obtain ⟨-, -, e0, e1, -⟩ := enc_block_indices t
  show (V c main_arg8 : S160000x512.Idx → EReal) (((cfg0.win 1).blk t).view.emb (ix2 r k)) = _
  refine congrArg (V c main_arg8 : S160000x512.Idx → EReal) (funext fun a => Fin.ext ?_)
  match a with
  | ⟨0, _⟩ => show win0_1.index t (0 : Fin 2) * 3200 + 1 * r.val = Q.val; rw [e0, hQ]; omega
  | ⟨1, _⟩ => show win0_1.index t (1 : Fin 2) * 512 + 1 * k.val = k.val; rw [e1]; omega

/-- The block of be1 at any point is be1. -/
theorem be1blk_apply (c : Dev nD) (t : Fin cfg0.N) (p : Fin 1) (k : Fin 512) :
    (iblk0 V c 2 t : Vec Ideal S1x512 .f32) (ix2 p k) = (V c main_v157 : S1x512.Idx → EReal) (ix2 p k) := by
  obtain ⟨-, -, -, -, e0, e1, -⟩ := enc_block_indices t
  show (V c main_v157 : S1x512.Idx → EReal) (((cfg0.win 2).blk t).view.emb (ix2 p k)) = _
  refine congrArg (V c main_v157 : S1x512.Idx → EReal) (funext fun a => Fin.ext ?_)
  match a with
  | ⟨0, _⟩ => show win0_2.index t (0 : Fin 2) * 1 + 1 * p.val = p.val; rw [e0]; omega
  | ⟨1, _⟩ => show win0_2.index t (1 : Fin 2) * 512 + 1 * k.val = k.val; rw [e1]; omega

/-- The block of We2 at any point is We2. -/
theorem we2blk_apply (c : Dev nD) (t : Fin cfg0.N) (k : Fin 512) (j : Fin 256) :
    (iblk0 V c 3 t : Vec Ideal S512x256 .f32) (ix2 k j) = (V c main_arg10 : S512x256.Idx → EReal) (ix2 k j) := by
  obtain ⟨-, -, -, -, -, -, e0, e1, -⟩ := enc_block_indices t
  show (V c main_arg10 : S512x256.Idx → EReal) (((cfg0.win 3).blk t).view.emb (ix2 k j)) = _
  refine congrArg (V c main_arg10 : S512x256.Idx → EReal) (funext fun a => Fin.ext ?_)
  match a with
  | ⟨0, _⟩ => show win0_3.index t (0 : Fin 2) * 512 + 1 * k.val = k.val; rw [e0]; omega
  | ⟨1, _⟩ => show win0_3.index t (1 : Fin 2) * 256 + 1 * j.val = j.val; rw [e1]; omega

/-- The block of be2 at any point is be2. -/
theorem be2blk_apply (c : Dev nD) (t : Fin cfg0.N) (p : Fin 1) (j : Fin 256) :
    (iblk0 V c 4 t : Vec Ideal S1x256 .f32) (ix2 p j) = (V c main_v158 : S1x256.Idx → EReal) (ix2 p j) := by
  obtain ⟨-, -, -, -, -, -, -, -, e0, e1, -⟩ := enc_block_indices t
  show (V c main_v158 : S1x256.Idx → EReal) (((cfg0.win 4).blk t).view.emb (ix2 p j)) = _
  refine congrArg (V c main_v158 : S1x256.Idx → EReal) (funext fun a => Fin.ext ?_)
  match a with
  | ⟨0, _⟩ => show win0_4.index t (0 : Fin 2) * 1 + 1 * p.val = p.val; rw [e0]; omega
  | ⟨1, _⟩ => show win0_4.index t (1 : Fin 2) * 256 + 1 * j.val = j.val; rw [e1]; omega

/-! ## The accumulator, point by point -/

/-- After the first point the accumulator holds, at column k, zero plus the first tile's partial product. -/
theorem encAcc_A (c : Dev nD) (t : Fin cfg0.N) (h0 : t.val % 50 = 0) (h1 : ¬t.val % 50 = 49) (k : Fin 512) :
    (outsAt0 (F := Ideal) V c t.val t.isLt).2 (ix2 0 k) = 0 + ∑ r : Fin 3200, tileH V c t (ix2 0 r) * tileW1 V c t (ix2 r k) := by
  rw [outsAt0_A V c t h0 h1]
  dsimp only
  rw [sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)]
  rw [encPay2_apply, encPay1_apply]

/-- After a point strictly between the first and the last it holds what the point before left plus this tile's partial
    product. -/
theorem encAcc_B (c : Dev nD) (t : Fin cfg0.N) (h0 : ¬t.val % 50 = 0) (h1 : ¬t.val % 50 = 49) (k : Fin 512) :
    (outsAt0 (F := Ideal) V c t.val t.isLt).2 (ix2 0 k) = (outsAt0 (F := Ideal) V c (t.val - 1) (Nat.lt_of_le_of_lt (Nat.sub_le _ _) t.isLt)).2 (ix2 0 k) + ∑ r : Fin 3200, tileH V c t (ix2 0 r) * tileW1 V c t (ix2 r k) := by
  rw [outsAt0_B V c t h0 h1]
  dsimp only
  rw [sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 (F := Ideal) V c (t.val - 1) (Nat.lt_of_le_of_lt (Nat.sub_le _ _) t.isLt)).2]
  exact encPay2_apply _ _ _ 0 k

/-- The same after the last point. -/
theorem encAcc_C (c : Dev nD) (t : Fin cfg0.N) (h0 : ¬t.val % 50 = 0) (h1 : t.val % 50 = 49) (k : Fin 512) :
    (outsAt0 (F := Ideal) V c t.val t.isLt).2 (ix2 0 k) = (outsAt0 (F := Ideal) V c (t.val - 1) (Nat.lt_of_le_of_lt (Nat.sub_le _ _) t.isLt)).2 (ix2 0 k) + ∑ r : Fin 3200, tileH V c t (ix2 0 r) * tileW1 V c t (ix2 r k) := by
  rw [outsAt0_C V c t h0 h1]
  dsimp only
  rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 (F := Ideal) V c (t.val - 1) (Nat.lt_of_le_of_lt (Nat.sub_le _ _) t.isLt)).2]
  exact encPay2_apply _ _ _ 0 k

/-- Tile n's partial product at column k, as a sequence over the naturals (zero past the grid). -/
def encTile (c : Dev nD) (k : Fin 512) (n : ℕ) : EReal :=
  if h : n < cfg0.N then ∑ r : Fin 3200, tileH V c ⟨n, h⟩ (ix2 0 r) * tileW1 V c ⟨n, h⟩ (ix2 r k) else 0

/-- The accumulator at column k after point n, as a sequence over the naturals (zero past the grid). -/
def encAcc (c : Dev nD) (k : Fin 512) (n : ℕ) : EReal :=
  if h : n < cfg0.N then (outsAt0 (F := Ideal) V c n h).2 (ix2 0 k) else 0

theorem encAcc_zero (c : Dev nD) (k : Fin 512) : encAcc V c k 0 = 0 + encTile V c k 0 := by
  have h : 0 < cfg0.N := by rw [show cfg0.N = 50 from N_0]; decide
  unfold encAcc encTile
  rw [dif_pos h, dif_pos h]
  exact encAcc_A V c ⟨0, h⟩ (Nat.zero_mod _) (by show ¬(0 % 50 = 49); decide) k

theorem encAcc_succ (c : Dev nD) (k : Fin 512) (n : ℕ) (hn : n < 49) :
    encAcc V c k (n + 1) = encAcc V c k n + encTile V c k (n + 1) := by
  have hN : cfg0.N = 50 := N_0
  have h1 : n + 1 < cfg0.N := by omega
  have h2 : n < cfg0.N := by omega
  unfold encAcc encTile
  rw [dif_pos h1, dif_pos h2, dif_pos h1]
  have h0 : ¬(⟨n + 1, h1⟩ : Fin cfg0.N).val % 50 = 0 := by show ¬((n + 1) % 50 = 0); omega
  by_cases h49 : (⟨n + 1, h1⟩ : Fin cfg0.N).val % 50 = 49
  · exact encAcc_C V c ⟨n + 1, h1⟩ h0 h49 k
  · exact encAcc_B V c ⟨n + 1, h1⟩ h0 h49 k

/-- After the last point the accumulator holds the sum of the fifty tiles' partial products: the running sum, started
    from zero. -/
theorem encAcc_49 (c : Dev nD) (k : Fin 512) : encAcc V c k 49 = ∑ t : Fin 50, encTile V c k t.val :=
  Cert.LibTileSum.running_sum_49 (encAcc V c k) (encTile V c k) (encAcc_zero V c k) (fun n hn => encAcc_succ V c k n hn)

/-- That sum is the whole contraction: tile t's entry r is entry 3200·t + r, and the fifty tiles of 3200 entries are the
    160000 entries regrouped. -/
theorem encAcc_total (c : Dev nD) (k : Fin 512) :
    encAcc V c k 49 = ∑ q : Fin 160000, arrH V c (ix2 0 q) * arrW1 V c (ix2 q k) := by
  rw [encAcc_49, Cert.LibTileSum.sum_tiles_50_3200 (fun q : Fin 160000 => arrH V c (ix2 0 q) * arrW1 V c (ix2 q k))]
  refine Finset.sum_congr rfl fun t _ => ?_
  have hN : cfg0.N = 50 := N_0
  have ht : t.val < cfg0.N := by rw [hN]; exact t.isLt
  unfold encTile
  rw [dif_pos ht]
  refine Finset.sum_congr rfl fun r _ => ?_
  have hQ : (⟨3200 * t.val + r.val, by have := t.isLt; have := r.isLt; omega⟩ : Fin 160000).val = (⟨t.val, ht⟩ : Fin cfg0.N).val * 3200 + r.val := by
    show 3200 * t.val + r.val = t.val * 3200 + r.val; omega
  exact congrArg₂ (fun a b : EReal => a * b)
    (hblk_apply V c ⟨t.val, ht⟩ 0 r ⟨3200 * t.val + r.val, by have := t.isLt; have := r.isLt; omega⟩ hQ)
    (we1blk_apply V c ⟨t.val, ht⟩ r k ⟨3200 * t.val + r.val, by have := t.isLt; have := r.isLt; omega⟩ hQ)

/-- What the last point adds into: the accumulator it has just stored is the whole contraction. -/
theorem encAcc_last (c : Dev nD) (t : Fin cfg0.N) (ht : t.val = 49) (k : Fin 512) :
    k0_pay2 (F := Ideal) (iblk0 V c 0 t) (iblk0 V c 1 t) (outsAt0 (F := Ideal) V c (t.val - 1) (Nat.lt_of_le_of_lt (Nat.sub_le _ _) t.isLt)).2 (ix2 0 k)
      = ∑ q : Fin 160000, arrH V c (ix2 0 q) * arrW1 V c (ix2 q k) := by
  have h0 : ¬t.val % 50 = 0 := by omega
  have h49 : t.val % 50 = 49 := by omega
  refine (encPay2_apply _ _ _ 0 k).trans ((encAcc_C V c t h0 h49 k).symm.trans ?_)
  obtain ⟨n, hn⟩ := t
  have ht' : n = 49 := ht
  subst ht'
  have e : encAcc V c k 49 = (outsAt0 (F := Ideal) V c 49 hn).2 (ix2 0 k) := by unfold encAcc; rw [dif_pos hn]
  exact e.symm.trans (encAcc_total V c k)

/-! ## The output array -/

/-- What the last point writes back is the result: its one block is the whole array. -/
theorem enc_flushed_eq (c : Dev nD) (t : Fin cfg0.N) (hf : (cfg0.win 5).flush t = true) :
    (dat0 (F := Ideal) V c).flushed 5 t = ((cfg0.win 5).blk t).view.read (Elt Ideal) (encG (V c main_v156) (V c main_arg8) (V c main_v157) (V c main_arg10) (V c main_v158)) := by
  have hN : cfg0.N = 50 := N_0
  have h1 : t.val % 50 = 49 := (flush0_5 t).mp hf
  have htlt : t.val < 50 := hN ▸ t.isLt
  have h0 : ¬t.val % 50 = 0 := by omega
  have ht : t.val = 49 := by omega
  show (cfg0.win 5).cut (grid0.coords t) ((dat0 V c).after 5 t) = _
  rw [after0_5, outsAt0_C V c t h0 h1]
  dsimp only
  rw [out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 (F := Ideal) V c (t.val - 1) (Nat.lt_of_le_of_lt (Nat.sub_le _ _) t.isLt)).2]
  funext j
  obtain ⟨p, n, rfl⟩ : ∃ (p : Fin 1) (n : Fin 256), j = ix2 p n := ⟨j 0, j 1, eq_ix2 j⟩
  obtain rfl : p = 0 := Subsingleton.elim _ _
  obtain ⟨-, -, -, -, -, -, -, -, -, -, e0, e1⟩ := enc_block_indices t
  show k0_pay3 (F := Ideal) (k0_pay2 (iblk0 V c 0 t) (iblk0 V c 1 t) (outsAt0 (F := Ideal) V c (t.val - 1) (Nat.lt_of_le_of_lt (Nat.sub_le _ _) t.isLt)).2) (iblk0 V c 2 t) (iblk0 V c 3 t) (iblk0 V c 4 t) (ix2 0 n)
    = encG (V c main_v156) (V c main_arg8) (V c main_v157) (V c main_arg10) (V c main_v158) (((cfg0.win 5).blk t).view.emb (ix2 0 n))
  have hemb : ((cfg0.win 5).blk t).view.emb (ix2 (0 : Fin 1) n) = (ix2 (0 : Fin 1) n : S1x256.Idx) := funext fun a => Fin.ext (by
    match a with
    | ⟨0, _⟩ => show win0_5.index t (0 : Fin 2) * 1 + 1 * 0 = 0; rw [e0]
    | ⟨1, _⟩ => show win0_5.index t (1 : Fin 2) * 256 + 1 * n.val = n.val; rw [e1]; omega)
  refine (encPay3_apply _ _ _ _ 0 n).trans (Eq.trans ?_ (congrArg (encG (V c main_v156) (V c main_arg8) (V c main_v157) (V c main_arg10) (V c main_v158)) hemb.symm))
  rw [encG_ix2, be2blk_apply V c t 0 n]
  refine congrArg (· + (V c main_v158 : S1x256.Idx → EReal) (ix2 0 n)) (Finset.sum_congr rfl fun k _ => ?_)
  rw [be1blk_apply V c t 0 k, we2blk_apply V c t k n, encAcc_last V c t ht k]

/-- An index of the output array is in point t's block iff each coordinate is in the block's range on its axis. -/
theorem enc_mem_outblk (t : Fin cfg0.N) (i : S1x256.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v159).slice (win0_5.rect t)).set ↔ _
  rw [View.set_slice_whole, Rect.mem_set_unit]
  exact Iff.rfl

/-- Every column is written back by the last point. -/
theorem enc_out_covered (i : S1x256.Idx) : ∃ t : Fin cfg0.N, (cfg0.win 5).flush t = true ∧ i ∈ ((cfg0.win 5).blk t).view.set := by
  have h0 : (i 0).val < 1 := (i 0).isLt
  have h1 : (i 1).val < 256 := (i 1).isLt
  have hN : cfg0.N = 50 := N_0
  obtain ⟨t, ht⟩ : ∃ t : Fin cfg0.N, t.val = 49 := ⟨⟨49, by rw [hN]; decide⟩, rfl⟩
  obtain ⟨-, -, -, -, -, -, -, -, -, -, e0, e1⟩ := enc_block_indices t
  refine ⟨t, (flush0_5 t).mpr (by rw [ht]), ?_⟩
  rw [enc_mem_outblk]
  intro a
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 256 ≤ (i 1).val ∧ (i 1).val < win0_5.index t (1 : Fin 2) * 256 + 256; rw [e1]; omega

/-- The output array after the region's fifty points is relu(h·We1 + be1)·We2 + be2 of the entry arrays. -/
theorem enc_final (c : Dev nD) :
    (dat0 (F := Ideal) V c).arrAt 5 cfg0.N = encG (V c main_v156) (V c main_arg8) (V c main_v157) (V c main_arg10) (V c main_v158) :=
  (dat0 V c).arrAt_eq_of_cover 5 (encG (V c main_v156) (V c main_arg8) (V c main_v157) (V c main_arg10) (V c main_v158))
    (fun t hf => enc_flushed_eq V c t hf) (enc_out_covered)

end Blocks

end Cert.KernelIdeal.Hand

end
-- ==== Proof.EncDecSpec.lean ====
/-
  The auto-encoder's two dense stages as ONE function of their inputs over the extended reals, entry by entry, and
  the two facts that let a tiled evaluation be compared with it.

  The ENCODER sends a row `h` of 160000 entries to the 256 entries
      `enc i = (∑ k : Fin 512, max ((∑ q : Fin 160000, h q * We1 q k) + be1 k) 0 * We2 k i) + be2 i`
  and the DECODER sends a row `z` of 256 entries to the 10000 entries
      `dec j = (∑ k : Fin 512, max ((∑ q : Fin 256, z q * Wd1 q k) + bd1 k) 0 * Wd2 k j) + bd2 j`;
  `G` is the decoder of the encoder. Sums and products are the extended reals' own: `+` there is commutative and
  associative at every value, the infinities included, which is all that the regrouping below uses.

  § 1  A product of a `M × K` by a `K × N` matrix, summed over the one-axis contraction index of its dimension
       numbers, is the sum over `Fin K` of the entries' products (`plain_sum`, `dot_sum`).
  § 2  The specification: `encPre`, `enc`, `decPre`, `dec`, `G`, and each read at an index built from coordinates.
  § 3  TILED EQUALS WHOLE, the contraction: the 160000 products summed 3200 at a time over 50 tiles are the whole
       sum (`enc_tiles`), so an accumulator that starts at `0` plus tile 0's sum and adds tile `t + 1`'s sum at step
       `t + 1` holds, after step 49, the whole contraction (`acc_49`).
  § 4  TILED EQUALS WHOLE, the columns: the decoder evaluated on tile `t`, column `c` of the weights and bias
       padded with zero columns from 10000 to 10240 is the decoder's entry `1024 * t + c` wherever that is below
       10000 (`dec_tile`), and every entry below 10000 is one of those (`LibTileSum.exists_tile_1024`).
-/
import proofs.«173102_j37185826849263_1_alg».proof.KernelIdeal
import proofs.«173102_j37185826849263_1_alg».proof.Proof.LibTileSum
import Idealize.ShloMosaic.PureOps.Ideal
import Idealize.ShloMosaic.PureOps.Ideal.Laws
import Idealize.ShloMosaic.Lib.ValueIdx

noncomputable section

open Idealize.ShloMosaic
open Idealize.ShloMosaic.ValueIdx
open scoped BigOperators

namespace Cert.Spec

open Cert.KernelIdeal (S1x160000 S160000x512 S512 S1x512 S512x256 S256 S1x256 S256x512 S512x10000 S10000 S1x10000
  S512x10240 S10240 S1x10240)

/-! ## § 1 A matrix product's contraction as a sum over `Fin K` -/

/-- The contraction index of a `M × K` by `K × N` product is its one coordinate, below `K`. -/
def plainContr (M K N : ℕ) : (DotDims.plain M K N).contr.Idx ≃ Fin K :=
  contrEquiv1 (DotDims.plain M K N) K rfl rfl

/-- A `M × K` by `K × N` product at the result index `j = (r, c)`: the sum over the contraction index of the operands'
    products is `∑ q : Fin K, L (r, q) * R (q, c)`. (The contraction index is in bijection with `Fin K`; at
    contraction coordinate `q` the left operand is read at `(r, q)` and the right one at `(q, c)`.) -/
theorem plain_sum {A : Type*} [AddCommMonoid A] [Mul A] (M K N : ℕ) (L : (⟨2, ![M, K]⟩ : Shape).Idx → A) (R : (⟨2, ![K, N]⟩ : Shape).Idx → A)
    (j : (⟨2, ![M, N]⟩ : Shape).Idx) :
    ∑ k : (DotDims.plain M K N).contr.Idx, L ((DotDims.plain M K N).lhsIdx j k) * R ((DotDims.plain M K N).rhsIdx j k)
      = ∑ q : Fin K, L (ix2 (j 0) q) * R (ix2 q (j 1)) := by
  rw [← Equiv.sum_comp (plainContr M K N).symm]
  refine Finset.sum_congr rfl fun q _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- The same for any dimension numbers `D` that ARE those of the plain product (`hD`: for a printed record of
    dimension numbers `<[1], [0], [0], [1], …, [], []>` it holds by `rfl`). -/
theorem dot_sum {A : Type*} [AddCommMonoid A] [Mul A] {M K N : ℕ} (D : DotDims ⟨2, ![M, K]⟩ ⟨2, ![K, N]⟩ ⟨2, ![M, N]⟩)
    (hD : D = DotDims.plain M K N) (L : (⟨2, ![M, K]⟩ : Shape).Idx → A) (R : (⟨2, ![K, N]⟩ : Shape).Idx → A)
    (j : (⟨2, ![M, N]⟩ : Shape).Idx) :
    ∑ k : D.contr.Idx, L (D.lhsIdx j k) * R (D.rhsIdx j k) = ∑ q : Fin K, L (ix2 (j 0) q) * R (ix2 q (j 1)) := by
  subst hD; exact plain_sum M K N L R j

/-- A one-row shape's row coordinate is `0`. -/
theorem row_eq_zero {n : ℕ} (j : (⟨2, ![1, n]⟩ : Shape).Idx) : j 0 = (0 : Fin 1) :=
  Fin.ext (by have := idx2_lt0 j; show (j 0).val = 0; omega)

/-- Every index of a one-row shape is `(0, c)` for its column `c`. -/
theorem eq_ix2_zero {n : ℕ} (j : (⟨2, ![1, n]⟩ : Shape).Idx) : j = ix2 (0 : Fin 1) (j 1) := by
  funext a
  match a with
  | ⟨0, _⟩ => exact row_eq_zero j
  | ⟨1, _⟩ => rfl

/-! ## § 2 The specification -/

section Spec

variable (h : S1x160000.Idx → EReal) (We1 : S160000x512.Idx → EReal) (be1 : S512.Idx → EReal)
  (We2 : S512x256.Idx → EReal) (be2 : S256.Idx → EReal)
  (z : S1x256.Idx → EReal) (Wd1 : S256x512.Idx → EReal) (bd1 : S512.Idx → EReal)
  (Wd2 : S512x10000.Idx → EReal) (bd2 : S10000.Idx → EReal)

/-- The encoder's hidden unit `k` before its rectifier: `(∑ q, h q * We1 q k) + be1 k`. -/
def encPre (k : Fin 512) : EReal := (∑ q : Fin 160000, h (ix2 0 q) * We1 (ix2 q k)) + be1 (ix1 k)

/-- THE ENCODER, entry by entry: `(∑ k, max (encPre k) 0 * We2 k i) + be2 i`. -/
def enc : S1x256.Idx → EReal := fun i =>
  (∑ k : Fin 512, max (encPre h We1 be1 k) 0 * We2 (ix2 k (i 1))) + be2 (ix1 (i 1))

/-- The decoder's hidden unit `k` before its rectifier: `(∑ q, z q * Wd1 q k) + bd1 k`. -/
def decPre (k : Fin 512) : EReal := (∑ q : Fin 256, z (ix2 0 q) * Wd1 (ix2 q k)) + bd1 (ix1 k)

/-- THE DECODER, entry by entry: `(∑ k, max (decPre k) 0 * Wd2 k j) + bd2 j`. -/
def dec : S1x10000.Idx → EReal := fun i =>
  (∑ k : Fin 512, max (decPre z Wd1 bd1 k) 0 * Wd2 (ix2 k (i 1))) + bd2 (ix1 (i 1))

/-- THE WHOLE FUNCTION: the decoder of the encoder. -/
def G : S1x10000.Idx → EReal := dec (enc h We1 be1 We2 be2) Wd1 bd1 Wd2 bd2

/-- The encoder at column `c`. -/
theorem enc_apply (c : Fin 256) :
    enc h We1 be1 We2 be2 (ix2 0 c) = (∑ k : Fin 512, max (encPre h We1 be1 k) 0 * We2 (ix2 k c)) + be2 (ix1 c) := rfl

/-- The decoder at column `c`. -/
theorem dec_apply (c : Fin 10000) :
    dec z Wd1 bd1 Wd2 bd2 (ix2 0 c) = (∑ k : Fin 512, max (decPre z Wd1 bd1 k) 0 * Wd2 (ix2 k c)) + bd2 (ix1 c) := rfl

/-- The whole function at column `c`, the encoder left folded. -/
theorem G_apply (c : Fin 10000) :
    G h We1 be1 We2 be2 Wd1 bd1 Wd2 bd2 (ix2 0 c)
      = (∑ k : Fin 512, max (decPre (enc h We1 be1 We2 be2) Wd1 bd1 k) 0 * Wd2 (ix2 k c)) + bd2 (ix1 c) := rfl

/-- The decoder depends on `z` through its entries only: two rows equal at every column give one decoder. -/
theorem dec_congr (z' : S1x256.Idx → EReal) (hz : ∀ c : Fin 256, z (ix2 0 c) = z' (ix2 0 c)) :
    dec z Wd1 bd1 Wd2 bd2 = dec z' Wd1 bd1 Wd2 bd2 := by
  have hpre : ∀ k, decPre z Wd1 bd1 k = decPre z' Wd1 bd1 k := fun k => by
    unfold decPre
    exact congrArg (· + bd1 (ix1 k)) (Finset.sum_congr rfl fun q _ => by rw [hz q])
  funext i
  unfold dec
  exact congrArg (· + bd2 (ix1 (i 1))) (Finset.sum_congr rfl fun k _ => by rw [hpre k])

/-! ## § 3 Tiled equals whole: the contraction over 160000 in 50 tiles of 3200 -/

/-- Index `r` of tile `t` of the 50 tiles of 3200 is below 160000. -/
theorem tile_3200_lt (t : Fin 50) (r : Fin 3200) : 3200 * t.val + r.val < 160000 := by
  have := t.isLt; have := r.isLt; omega

/-- Tile `t`'s share of hidden unit `k`'s contraction: the 3200 products of the tile's entries. -/
def encTile (t : Fin 50) (k : Fin 512) : EReal :=
  ∑ r : Fin 3200, h (ix2 0 ⟨3200 * t.val + r.val, tile_3200_lt t r⟩) * We1 (ix2 ⟨3200 * t.val + r.val, tile_3200_lt t r⟩ k)

/-- TILED EQUALS WHOLE: the 50 tiles' sums of 3200 products each add up to the contraction over all 160000. -/
theorem enc_tiles (k : Fin 512) :
    (∑ t : Fin 50, ∑ r : Fin 3200,
        h (ix2 0 ⟨3200 * t.val + r.val, tile_3200_lt t r⟩) * We1 (ix2 ⟨3200 * t.val + r.val, tile_3200_lt t r⟩ k))
      = ∑ q : Fin 160000, h (ix2 0 q) * We1 (ix2 q k) :=
  (Cert.LibTileSum.sum_tiles_50_3200 fun q : Fin 160000 => h (ix2 0 q) * We1 (ix2 q k)).symm

/-- The same with each tile's sum named. -/
theorem sum_encTile (k : Fin 512) : ∑ t : Fin 50, encTile h We1 t k = ∑ q : Fin 160000, h (ix2 0 q) * We1 (ix2 q k) :=
  enc_tiles h We1 k

/-- Tile `t`'s share for a step counted in the naturals: the tile's sum for `t < 50`, `0` past the last tile. -/
def encTileN (t : ℕ) (k : Fin 512) : EReal := if ht : t < 50 then encTile h We1 ⟨t, ht⟩ k else 0

/-- Below 50 the step's share is the tile's sum. -/
theorem encTileN_of_lt (t : ℕ) (ht : t < 50) (k : Fin 512) : encTileN h We1 t k = encTile h We1 ⟨t, ht⟩ k := dif_pos ht

/-- THE ACCUMULATOR AFTER THE LAST TILE: a sequence that is `0` plus tile 0's sum at step 0 and adds tile
    `t + 1`'s sum at step `t + 1`, for `t < 49`, is at step 49 the whole contraction. -/
theorem acc_49 (k : Fin 512) (S : ℕ → EReal) (h0 : S 0 = 0 + encTile h We1 0 k)
    (hs : ∀ (t : ℕ) (ht : t < 49), S (t + 1) = S t + encTile h We1 ⟨t + 1, by omega⟩ k) :
    S 49 = ∑ q : Fin 160000, h (ix2 0 q) * We1 (ix2 q k) := by
  have e := Cert.LibTileSum.running_sum_49 S (fun t => encTileN h We1 t k)
    (by rw [h0, encTileN_of_lt h We1 0 (by omega) k]; rfl)
    fun t ht => by rw [hs t ht, encTileN_of_lt h We1 (t + 1) (by omega) k]
  rw [e, ← sum_encTile h We1 k]
  exact Finset.sum_congr rfl fun t _ => encTileN_of_lt h We1 t.val t.isLt k

/-- So the accumulator after the last tile, plus the bias, is hidden unit `k` before its rectifier. -/
theorem acc_49_add_bias (k : Fin 512) (S : ℕ → EReal) (h0 : S 0 = 0 + encTile h We1 0 k)
    (hs : ∀ (t : ℕ) (ht : t < 49), S (t + 1) = S t + encTile h We1 ⟨t + 1, by omega⟩ k) :
    S 49 + be1 (ix1 k) = encPre h We1 be1 k := by
  rw [acc_49 h We1 k S h0 hs]; rfl

/-! ## § 4 Tiled equals whole: the decoder's 10000 columns inside 10 tiles of 1024 zero-padded columns -/

/-- TILED EQUALS WHOLE: for weights `Wp` and bias `bp` over 10240 columns that agree with `Wd2` and `bd2` on the
    first 10000 (zero-padded or padded with anything), the decoder's last stage evaluated at column `c` of tile `t`
    is the decoder's entry `1024 * t + c`, wherever that is below 10000. -/
theorem dec_tile (Wp : S512x10240.Idx → EReal) (bp : S10240.Idx → EReal)
    (hW : ∀ (k : Fin 512) (j : Fin 10000), Wp (ix2 k ⟨j.val, by have := j.isLt; omega⟩) = Wd2 (ix2 k j))
    (hb : ∀ j : Fin 10000, bp (ix1 ⟨j.val, by have := j.isLt; omega⟩) = bd2 (ix1 j))
    (t : Fin 10) (c : Fin 1024) (hlt : 1024 * t.val + c.val < 10000) :
    (∑ k : Fin 512, max (decPre z Wd1 bd1 k) 0 * Wp (ix2 k ⟨1024 * t.val + c.val, Cert.LibTileSum.tile_1024_lt t c⟩))
        + bp (ix1 ⟨1024 * t.val + c.val, Cert.LibTileSum.tile_1024_lt t c⟩)
      = dec z Wd1 bd1 Wd2 bd2 (ix2 0 ⟨1024 * t.val + c.val, hlt⟩) := by
  rw [dec_apply]
  have eb := hb ⟨1024 * t.val + c.val, hlt⟩
  have eW : ∀ k : Fin 512, Wp (ix2 k ⟨1024 * t.val + c.val, Cert.LibTileSum.tile_1024_lt t c⟩)
      = Wd2 (ix2 k ⟨1024 * t.val + c.val, hlt⟩) := fun k => hW k ⟨1024 * t.val + c.val, hlt⟩
  rw [eb]
  exact congrArg (· + bd2 (ix1 ⟨1024 * t.val + c.val, hlt⟩)) (Finset.sum_congr rfl fun k _ => by rw [eW k])

/-- The zero-padded weights and bias, as index-by-index functions over 10240 columns: the hypotheses of `dec_tile`
    hold of them. -/
def padW : S512x10240.Idx → EReal := fun i => Cert.LibTileSum.padCols 10000 10240 (fun k j => Wd2 (ix2 k j)) (i 0) (i 1)
def padB : S10240.Idx → EReal := fun i => Cert.LibTileSum.pad 10000 10240 (fun j => bd2 (ix1 j)) (i 0)

/-- The zero-padded weights at one of the first 10000 columns are the weights. -/
theorem padW_apply (k : Fin 512) (j : Fin 10000) : padW Wd2 (ix2 k ⟨j.val, by have := j.isLt; omega⟩) = Wd2 (ix2 k j) :=
  Cert.LibTileSum.padCols_10000_mk (fun k j => Wd2 (ix2 k j)) k j

/-- The zero-padded bias at one of the first 10000 columns is the bias. -/
theorem padB_apply (j : Fin 10000) : padB bd2 (ix1 ⟨j.val, by have := j.isLt; omega⟩) = bd2 (ix1 j) :=
  Cert.LibTileSum.pad_10000_mk (fun j => bd2 (ix1 j)) j

end Spec

end Cert.Spec

end
-- ==== Proof.KernelIsG.lean ====
/-
  The kernel's composite IS the specification `Cert.Spec.G`, column by column.

  The kernel's two stages are stated over the arrays its host glue hands them: the biases as one-row rank-2 arrays
  (`[1, 512]`, `[1, 256]`, `[1, 512]`), and the last weight matrix and bias with 240 extra columns (`[512, 10240]`,
  `[1, 10240]`). The specification is stated over the arrays @main receives: rank-1 biases and 10000 columns. Where
  the one-row biases read the rank-1 ones entry for entry, and the widened weight and bias read the original ones on
  the first 10000 columns (whatever the other 240 hold), the decoder stage applied to a row that is, entry for
  entry, the encoder stage's formula is `G` on those first 10000 columns. Nothing is regrouped here: the biases and
  the columns are rewritten under the sums, term by term.
-/
import proofs.«173102_j37185826849263_1_alg».proof.Proof.EncDecSpec
import proofs.«173102_j37185826849263_1_alg».proof.Proof.DecoderValueIdeal

noncomputable section

open Idealize.ShloMosaic
open Idealize.ShloMosaic.ValueIdx
open scoped BigOperators

namespace Cert.Spec

open Cert.KernelIdeal (S1x160000 S160000x512 S512 S1x512 S512x256 S256 S1x256 S256x512 S512x10000 S10000 S1x10000
  S512x10240 S10240 S1x10240)

section KernelIsG

variable (h : S1x160000.Idx → EReal) (We1 : S160000x512.Idx → EReal) (be1 : S512.Idx → EReal)
  (We2 : S512x256.Idx → EReal) (be2 : S256.Idx → EReal)
  (Wd1 : S256x512.Idx → EReal) (bd1 : S512.Idx → EReal) (Wd2 : S512x10000.Idx → EReal) (bd2 : S10000.Idx → EReal)
  (be1r : S1x512.Idx → EReal) (be2r : S1x256.Idx → EReal) (bd1r : S1x512.Idx → EReal)
  (Wd2p : S512x10240.Idx → EReal) (bd2p : S1x10240.Idx → EReal) (z' : S1x256.Idx → EReal)

/-- Column `j` of the 10000, as a column of the 10240. -/
theorem col_lt (j : Fin 10000) : j.val < 10240 := by have := j.isLt; omega

/-- THE ENCODER STAGE IS `enc`: a row that is, entry for entry, the encoder's formula over the one-row biases is
    the specification's encoder over the rank-1 biases they read. -/
theorem encRow_eq_enc (hbe1 : ∀ k : Fin 512, be1r (ix2 (0 : Fin 1) k) = be1 (ix1 k))
    (hbe2 : ∀ c : Fin 256, be2r (ix2 (0 : Fin 1) c) = be2 (ix1 c))
    (hz : ∀ c : Fin 256, z' (ix2 (0 : Fin 1) c)
      = (∑ k : Fin 512, max ((∑ q : Fin 160000, h (ix2 (0 : Fin 1) q) * We1 (ix2 q k)) + be1r (ix2 (0 : Fin 1) k)) 0 * We2 (ix2 k c))
          + be2r (ix2 (0 : Fin 1) c))
    (c : Fin 256) : z' (ix2 (0 : Fin 1) c) = enc h We1 be1 We2 be2 (ix2 (0 : Fin 1) c) := by
  rw [hz c, enc_apply, hbe2 c]
  refine congrArg (· + be2 (ix1 c)) (Finset.sum_congr rfl fun k _ => ?_)
  rw [hbe1 k]; rfl

/-- THE DECODER STAGE OVER THE WIDENED ARRAYS IS `dec` on the first 10000 columns: the formula over the one-row
    bias `bd1r` and the widened `Wd2p`, `bd2p`, at column `j` below 10000, is the specification's decoder at `j`. -/
theorem decFormula_eq_dec (z : S1x256.Idx → EReal) (hbd1 : ∀ k : Fin 512, bd1r (ix2 (0 : Fin 1) k) = bd1 (ix1 k))
    (hW : ∀ (k : Fin 512) (j : Fin 10000), Wd2p (ix2 k ⟨j.val, col_lt j⟩) = Wd2 (ix2 k j))
    (hb : ∀ j : Fin 10000, bd2p (ix2 (0 : Fin 1) ⟨j.val, col_lt j⟩) = bd2 (ix1 j)) (j : Fin 10000) :
    (∑ k : Fin 512, max ((∑ q : Fin 256, z (ix2 (0 : Fin 1) q) * Wd1 (ix2 q k)) + bd1r (ix2 (0 : Fin 1) k)) 0
        * Wd2p (ix2 k ⟨j.val, col_lt j⟩)) + bd2p (ix2 (0 : Fin 1) ⟨j.val, col_lt j⟩)
      = dec z Wd1 bd1 Wd2 bd2 (ix2 (0 : Fin 1) j) := by
  rw [dec_apply, hb j]
  refine congrArg (· + bd2 (ix1 j)) (Finset.sum_congr rfl fun k _ => ?_)
  rw [hW k j, hbd1 k]; rfl

/-- THE KERNEL'S COMPOSITE IS `G`: the decoder stage's result over the one-row bias and the widened arrays, applied to
    a row that is entry for entry the encoder stage's formula, read at column `j` below 10000, is `G` at `j`. -/
theorem kernel_is_G (hbe1 : ∀ k : Fin 512, be1r (ix2 (0 : Fin 1) k) = be1 (ix1 k))
    (hbe2 : ∀ c : Fin 256, be2r (ix2 (0 : Fin 1) c) = be2 (ix1 c))
    (hbd1 : ∀ k : Fin 512, bd1r (ix2 (0 : Fin 1) k) = bd1 (ix1 k))
    (hW : ∀ (k : Fin 512) (j : Fin 10000), Wd2p (ix2 k ⟨j.val, col_lt j⟩) = Wd2 (ix2 k j))
    (hb : ∀ j : Fin 10000, bd2p (ix2 (0 : Fin 1) ⟨j.val, col_lt j⟩) = bd2 (ix1 j))
    (hz : ∀ c : Fin 256, z' (ix2 (0 : Fin 1) c)
      = (∑ k : Fin 512, max ((∑ q : Fin 160000, h (ix2 (0 : Fin 1) q) * We1 (ix2 q k)) + be1r (ix2 (0 : Fin 1) k)) 0 * We2 (ix2 k c))
          + be2r (ix2 (0 : Fin 1) c))
    (j : Fin 10000) :
    Cert.KernelIdeal.Hand.decG z' Wd1 bd1r Wd2p bd2p (ix2 (0 : Fin 1) ⟨j.val, col_lt j⟩)
      = G h We1 be1 We2 be2 Wd1 bd1 Wd2 bd2 (ix2 (0 : Fin 1) j) := by
  rw [Cert.KernelIdeal.Hand.decG_ix2, decFormula_eq_dec Wd1 bd1 Wd2 bd2 bd1r Wd2p bd2p z' hbd1 hW hb j]
  unfold G
  rw [dec_congr z' Wd1 bd1 Wd2 bd2 (enc h We1 be1 We2 be2) (encRow_eq_enc h We1 be1 We2 be2 be1r be2r z' hbe1 hbe2 hz)]

end KernelIsG

end Cert.Spec

end
-- ==== Proof.ResultIdeal.lean ====
/-
  The kernel's result, column by column, as the specification of the whole network applied to the common
  prefix's row `h`.

  The program's result is the first 10000 columns of what the decoder region leaves; that is, column by
  column, `relu(z·Wd1 + bd1)·Wd2p + bd2p` at the region's entry contents, where `z` is what the encoder region
  left — `relu(h·We1 + be1)·We2 + be2` at ITS entry contents — and the entry contents are the launch contents of
  the arguments reshaped (the biases, as single rows) or padded with zeros (the last weight matrix and bias, to
  10240 columns). Below column 10000 the padding is never read, a bias row at `(0,k)` is the bias at `k`, and the
  row `h` the encoder reads is the row both programs compute by the same host operations.
-/
import proofs.«173102_j37185826849263_1_alg».proof.Proof.RunIdeal
import proofs.«173102_j37185826849263_1_alg».proof.Proof.HostGlueIdeal
import proofs.«173102_j37185826849263_1_alg».proof.Proof.PrefixIdeal
import proofs.«173102_j37185826849263_1_alg».proof.Proof.DecoderValueIdeal
import proofs.«173102_j37185826849263_1_alg».proof.Proof.EncoderValueIdeal
import proofs.«173102_j37185826849263_1_alg».proof.Proof.KernelIsG

set_option maxRecDepth 65536

noncomputable section

namespace Cert.Proof.Res

open Cert.KernelIdeal Cert.KernelIdeal.Gen Cert.KernelIdeal.Hand Cert.KernelIdeal.Rec
open Idealize.ShloMosaic Idealize.ShloMosaic.TcCoe Idealize.SL.Sem Idealize.ShloMosaic.ValueIdx

variable (m : (ℓ : Loc nD τ sig) → Buf (Elt Ideal) ℓ) (c : Dev nD)

/-! ## The operands, each as a function into the extended reals -/

/-- The row the encoder region reads: the embedding the host's graph-convolution layers leave. -/
abbrev hRow : S1x160000.Idx → EReal := V5 (F := Ideal) m c main_v156
abbrev We1 : S160000x512.Idx → EReal := m ((c : Thread nD τ).loc main_arg8)
abbrev We2 : S512x256.Idx → EReal := m ((c : Thread nD τ).loc main_arg10)
/-- The encoder's biases as the single rows the host makes of them. -/
abbrev be1r : S1x512.Idx → EReal := V5 (F := Ideal) m c main_v157
abbrev be2r : S1x256.Idx → EReal := V5 (F := Ideal) m c main_v158
/-- What the decoder region finds: the encoder's output, and its own operands reshaped or padded. -/
abbrev zRow : S1x256.Idx → EReal := V11 (F := Ideal) m (outs1 m) c main_v159
abbrev Wd1 : S256x512.Idx → EReal := m ((c : Thread nD τ).loc main_arg12)
abbrev bd1r : S1x512.Idx → EReal := V11 (F := Ideal) m (outs1 m) c main_v162
abbrev Wd2p : S512x10240.Idx → EReal := V11 (F := Ideal) m (outs1 m) c main_v160
abbrev bd2p : S1x10240.Idx → EReal := V11 (F := Ideal) m (outs1 m) c main_v163

/-- What the encoder region leaves is the encoder's formula over its entry contents. -/
theorem zRow_eq : zRow m c = encG (hRow m c) (We1 m c) (be1r m c) (We2 m c) (be2r m c) := by
  show V11 (F := Ideal) m (outs1 m) c main_v159 = _
  rw [V11_main_v159, outs1_v159]
  unfold out6
  rw [enc_final]
  show encG (V5 (F := Ideal) m c main_v156) (V5 (F := Ideal) m c main_arg8) (V5 (F := Ideal) m c main_v157)
      (V5 (F := Ideal) m c main_arg10) (V5 (F := Ideal) m c main_v158) = _
  rw [V5_main_arg8, V5_main_arg10]

/-- The program's result at column `j` is the decoder's formula over ITS entry contents, at column `j`. -/
theorem result_is_decG (j : Fin 10000) :
    (V13 (F := Ideal) m (outs2 m) c main_v165 : (⟨S1x10000, .f32⟩ : BufTy).Contents (Elt Ideal)) (ix2 (0 : Fin 1) j)
      = decG (zRow m c) (Wd1 m c) (bd1r m c) (Wd2p m c) (bd2p m c) (ix2 (0 : Fin 1) ⟨j.val, Cert.Spec.col_lt j⟩) := by
  rw [V13_main_v165_apply, outs2_v164]
  unfold out12
  rw [dec_final]
  show decG (V11 (F := Ideal) m (outs1 m) c main_v159) (V11 (F := Ideal) m (outs1 m) c main_arg12)
      (V11 (F := Ideal) m (outs1 m) c main_v162) (V11 (F := Ideal) m (outs1 m) c main_v160)
      (V11 (F := Ideal) m (outs1 m) c main_v163) (ix2 (0 : Fin 1) ⟨j.val, Cert.Spec.col_lt j⟩) = _
  rw [V11_main_arg12]

/-- THE KERNEL'S RESULT at column `j`: the specification of the network applied to the prefix's row. -/
theorem kernel_result_at (m : (ℓ : Loc nD τ sig) → Buf (Elt Ideal) ℓ) (c : Dev nD) (j : Fin 10000) :
    (V13 (F := Ideal) m (outs2 m) c main_v165 : (⟨S1x10000, .f32⟩ : BufTy).Contents (Elt Ideal)) (ix2 (0 : Fin 1) j)
      = Cert.Spec.G
          (Cert.ReferenceIdeal.Read.val_main_v156 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) (ix2 (0 : Fin 1) j) := by
  rw [result_is_decG, ← prefix_eq (F := Ideal) m c]
  exact Cert.Spec.kernel_is_G
    (hRow m c) (We1 m c) (m ((c : Thread nD τ).loc main_arg9)) (We2 m c) (m ((c : Thread nD τ).loc main_arg11))
    (Wd1 m c) (m ((c : Thread nD τ).loc main_arg13)) (m ((c : Thread nD τ).loc main_arg14)) (m ((c : Thread nD τ).loc main_arg15))
    (be1r m c) (be2r m c) (bd1r m c) (Wd2p m c) (bd2p m c) (zRow m c)
    (V5_main_v157_apply m c) (V5_main_v158_apply m c) (V11_main_v162_apply m (outs1 m) c)
    (fun k jj => V11_main_v160_apply_of_lt m (outs1 m) c k ⟨jj.val, Cert.Spec.col_lt jj⟩ jj.isLt)
    (fun jj => V11_main_v163_apply_of_lt m (outs1 m) c ⟨jj.val, Cert.Spec.col_lt jj⟩ jj.isLt)
    (fun cc => (congrFun (zRow_eq m c) (ix2 (0 : Fin 1) cc)).trans (encG_ix2 _ _ _ _ _ 0 cc))
    j

end Cert.Proof.Res

end
-- ==== Proof.RefTailIdeal.lean ====
/-
  The reference's last fourteen host operations, read at the extended reals, ARE the specification `Cert.Spec.G`
  of the row they start from.

  After the graph-convolution prefix has produced the row `h` (`val_main_v156`, a `[1, 160000]` array, never
  opened here), the reference computes
      `h · We1 + be1`, its rectifier, `· We2 + be2`   (the encoder: operations %157 to %163),
      `· Wd1 + bd1`, its rectifier, `· Wd2 + bd2`    (the decoder: operations %164 to %170),
  each product one `dot_general`, each bias a rank-1 array broadcast along the row, each rectifier a `maximum` with
  the broadcast zero constant. At the extended reals a `dot_general` entry is the sum over `Fin K` of the operands'
  products, an addition is `+`, a maximum is `max`, and the zero word denotes `0`; so entry by entry the stages are
  `encPre`, `max · 0`, `enc`, `decPre`, `max · 0` and `dec` of Proof/EncDecSpec.lean. The only work is to identify
  each stage's operand indices (built coordinate by coordinate from the result index) with the specification's
  `ix2 0 q`, `ix2 q k`, `ix1 k`.
-/
import proofs.«173102_j37185826849263_1_alg».proof.Proof.EncDecSpec
import proofs.«173102_j37185826849263_1_alg».proof.Proof.Gen.ReferenceIdeal.Read

noncomputable section

open Idealize.ShloMosaic
open Idealize.ShloMosaic.ValueIdx
open scoped BigOperators

namespace Cert.RefTail

open Cert.ReferenceIdeal Cert.ReferenceIdeal.Read
open Cert.Spec (encPre enc decPre dec G)

/-! ## The stages' operand indices are the specification's -/

/-- A rank-2 index given coordinate by coordinate is `ix2` of the coordinates. -/
theorem mk2_eq_ix2 {n0 n1 : ℕ} (a : Fin n0) (b : Fin n1) (f : (⟨2, ![n0, n1]⟩ : Shape).Idx)
    (h0 : (f 0).val = a.val) (h1 : (f 1).val = b.val) : f = ix2 a b :=
  funext fun d => Fin.ext (by match d with | ⟨0, _⟩ => exact h0 | ⟨1, _⟩ => exact h1)

/-- A rank-1 index given by its coordinate is `ix1` of it. -/
theorem mk1_eq_ix1 {n : ℕ} (a : Fin n) (f : (⟨1, ![n]⟩ : Shape).Idx) (h0 : (f 0).val = a.val) : f = ix1 a :=
  funext fun d => Fin.ext (by match d with | ⟨0, _⟩ => exact h0)

section Stages

variable (x0 : (⟨S10000x1, .f32⟩ : BufTy).Contents (Elt Ideal)) (x1 : (⟨S2x320000, .i32⟩ : BufTy).Contents (Elt Ideal)) (x2 : (⟨S1x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x16, .f32⟩ : BufTy).Contents (Elt Ideal)) (x7 : (⟨S16, .f32⟩ : BufTy).Contents (Elt Ideal)) (x8 : (⟨S160000x512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (x12 : (⟨S256x512, .f32⟩ : BufTy).Contents (Elt Ideal)) (x13 : (⟨S512, .f32⟩ : BufTy).Contents (Elt Ideal)) (x14 : (⟨S512x10000, .f32⟩ : BufTy).Contents (Elt Ideal)) (x15 : (⟨S10000, .f32⟩ : BufTy).Contents (Elt Ideal))

/-- The row the tail starts from: the graph-convolution prefix's result, as a `[1, 160000]` array. -/
abbrev hRow : Cert.KernelIdeal.S1x160000.Idx → EReal := val_main_v156 (F := Ideal) x0 x1 x2 x3 x4 x5 x6 x7

/-- %159 at column `k`: the encoder's hidden unit before its rectifier. -/
theorem v159_at (k : Fin 512) :
    val_main_v159 (F := Ideal) x0 x1 x2 x3 x4 x5 x6 x7 x8 x9 (ix2 (0 : Fin 1) k) = encPre (hRow x0 x1 x2 x3 x4 x5 x6 x7) x8 x9 k := by
  rw [val_main_v159_apply, val_main_v157_apply, val_main_v158_apply, Ideal.addf_def]
  unfold encPre
  refine congrArg₂ (· + ·) ?_ ?_
  · refine Finset.sum_congr rfl fun q _ => ?_
    rw [mk2_eq_ix2 (0 : Fin 1) q (lidx_main_v157 (ix2 (0 : Fin 1) k) q) rfl rfl,
      mk2_eq_ix2 q k (ridx_main_v157 (ix2 (0 : Fin 1) k) q) rfl rfl]
  · rw [mk1_eq_ix1 k (idx_main_v158 (ix2 (0 : Fin 1) k)) rfl]

/-- %160 at column `k`: the hidden unit after its rectifier, `max · 0` (the broadcast zero word denotes `0`). -/
theorem v160_at (k : Fin 512) :
    val_main_v160 (F := Ideal) x0 x1 x2 x3 x4 x5 x6 x7 x8 x9 (ix2 (0 : Fin 1) k) = max (encPre (hRow x0 x1 x2 x3 x4 x5 x6 x7) x8 x9 k) 0 := by
  rw [val_main_v160_apply, v159_at, val_main_call2_v0_apply, val_main_call2_cst_apply, Ideal.maximumf_def, Ideal.ofBits_def,
    Ideal.ofBits_zero_f32]

/-- %163 at column `c`: the encoder's entry. -/
theorem v163_at (c : Fin 256) :
    val_main_v163 (F := Ideal) x0 x1 x2 x3 x4 x5 x6 x7 x8 x9 x10 x11 (ix2 (0 : Fin 1) c) = enc (hRow x0 x1 x2 x3 x4 x5 x6 x7) x8 x9 x10 x11 (ix2 (0 : Fin 1) c) := by
  rw [val_main_v163_apply, val_main_v161_apply, val_main_v162_apply, Ideal.addf_def, Cert.Spec.enc_apply]
  refine congrArg₂ (· + ·) ?_ ?_
  · refine Finset.sum_congr rfl fun k _ => ?_
    rw [mk2_eq_ix2 (0 : Fin 1) k (lidx_main_v161 (ix2 (0 : Fin 1) c) k) rfl rfl,
      mk2_eq_ix2 k c (ridx_main_v161 (ix2 (0 : Fin 1) c) k) rfl rfl, v160_at]
  · rw [mk1_eq_ix1 c (idx_main_v162 (ix2 (0 : Fin 1) c)) rfl]

/-- The encoder's row as the reference holds it: %163, a `[1, 256]` array. -/
abbrev zRow : Cert.KernelIdeal.S1x256.Idx → EReal := val_main_v163 (F := Ideal) x0 x1 x2 x3 x4 x5 x6 x7 x8 x9 x10 x11

/-- %166 at column `k`: the decoder's hidden unit before its rectifier, of the row %163. -/
theorem v166_at (k : Fin 512) :
    val_main_v166 (F := Ideal) x0 x1 x2 x3 x4 x5 x6 x7 x8 x9 x10 x11 x12 x13 (ix2 (0 : Fin 1) k) = decPre (zRow x0 x1 x2 x3 x4 x5 x6 x7 x8 x9 x10 x11) x12 x13 k := by
  rw [val_main_v166_apply, val_main_v164_apply, val_main_v165_apply, Ideal.addf_def]
  unfold decPre
  refine congrArg₂ (· + ·) ?_ ?_
  · refine Finset.sum_congr rfl fun q _ => ?_
    rw [mk2_eq_ix2 (0 : Fin 1) q (lidx_main_v164 (ix2 (0 : Fin 1) k) q) rfl rfl,
      mk2_eq_ix2 q k (ridx_main_v164 (ix2 (0 : Fin 1) k) q) rfl rfl]
  · rw [mk1_eq_ix1 k (idx_main_v165 (ix2 (0 : Fin 1) k)) rfl]

/-- %167 at column `k`: that hidden unit after its rectifier. -/
theorem v167_at (k : Fin 512) :
    val_main_v167 (F := Ideal) x0 x1 x2 x3 x4 x5 x6 x7 x8 x9 x10 x11 x12 x13 (ix2 (0 : Fin 1) k) = max (decPre (zRow x0 x1 x2 x3 x4 x5 x6 x7 x8 x9 x10 x11) x12 x13 k) 0 := by
  rw [val_main_v167_apply, v166_at, val_main_call3_v0_apply, val_main_call3_cst_apply, Ideal.maximumf_def, Ideal.ofBits_def,
    Ideal.ofBits_zero_f32]

/-- %170 at column `j`: the decoder's entry, of the row %163. -/
theorem v170_at (j : Fin 10000) :
    val_main_v170 (F := Ideal) x0 x1 x2 x3 x4 x5 x6 x7 x8 x9 x10 x11 x12 x13 x14 x15 (ix2 (0 : Fin 1) j)
      = dec (zRow x0 x1 x2 x3 x4 x5 x6 x7 x8 x9 x10 x11) x12 x13 x14 x15 (ix2 (0 : Fin 1) j) := by
  rw [val_main_v170_apply, val_main_v168_apply, val_main_v169_apply, Ideal.addf_def, Cert.Spec.dec_apply]
  refine congrArg₂ (· + ·) ?_ ?_
  · refine Finset.sum_congr rfl fun k _ => ?_
    rw [mk2_eq_ix2 (0 : Fin 1) k (lidx_main_v168 (ix2 (0 : Fin 1) j) k) rfl rfl,
      mk2_eq_ix2 k j (ridx_main_v168 (ix2 (0 : Fin 1) j) k) rfl rfl, v167_at]
  · rw [mk1_eq_ix1 j (idx_main_v169 (ix2 (0 : Fin 1) j)) rfl]

/-- THE REFERENCE'S TAIL IS `G`: the reference's result at column `j` is the specification's decoder of its encoder
    of the row %156, over the weights and biases `x8 … x15` as @main receives them. -/
theorem ref_tail (j : Fin 10000) :
    val_main_v170 (F := Ideal) x0 x1 x2 x3 x4 x5 x6 x7 x8 x9 x10 x11 x12 x13 x14 x15 (ix2 (0 : Fin 1) j)
      = G (val_main_v156 (F := Ideal) x0 x1 x2 x3 x4 x5 x6 x7) x8 x9 x10 x11 x12 x13 x14 x15 (ix2 (0 : Fin 1) j) := by
  rw [v170_at]
  unfold G
  rw [Cert.Spec.dec_congr (zRow x0 x1 x2 x3 x4 x5 x6 x7 x8 x9 x10 x11) x12 x13 x14 x15 (enc (hRow x0 x1 x2 x3 x4 x5 x6 x7) x8 x9 x10 x11)
    (fun c => v163_at x0 x1 x2 x3 x4 x5 x6 x7 x8 x9 x10 x11 c)]

end Stages

end Cert.RefTail

end
-- ==== Proof.Algebraic.lean ====
/-
  The fifth conjunct: at the extended reals the idealized kernel and the idealized reference, started from memories
  that agree on the sixteen arguments, both run, end with EQUAL results and leave their arguments unchanged.

  The common result is the kernel's: what its run leaves in the result array. The kernel's run ends with that array
  at it by definition, and with the arguments at the launch memory as in its frame. The reference's run ends with its
  result at the composed term of ITS arguments; those are the kernel's arguments (the memories agree), the term read
  at column `j` is the specification `G` of the graph-convolution row and the eight weight and bias arrays (the
  reference's tail), and the kernel's result array read at column `j` is that same `G` (the kernel's result). Every
  index of a `[1, 10000]` array is `(0, j)` for its column `j`, so the two arrays are equal.
-/
import proofs.«173102_j37185826849263_1_alg».proof.Defs
import proofs.«173102_j37185826849263_1_alg».proof.Proof.ResultIdeal
import proofs.«173102_j37185826849263_1_alg».proof.Proof.RefTailIdeal
import proofs.«173102_j37185826849263_1_alg».proof.Proof.Gen.ReferenceIdeal.Run
import proofs.«173102_j37185826849263_1_alg».proof.Proof.Gen.Kernel
import proofs.«173102_j37185826849263_1_alg».proof.Proof.Gen.KernelIdeal
import proofs.«173102_j37185826849263_1_alg».proof.Proof.Gen.ReferenceIdeal
import proofs.«173102_j37185826849263_1_alg».proof.Proof.Gen.Pre_finite_inputs

noncomputable section

namespace Cert.Proof.Alg

open Idealize.ShloMosaic Idealize.ShloMosaic.TcCoe Idealize.ShloMosaic.ValueIdx Idealize.SL.Sem

/-- At the ideal instance the kernel and the reference, from memories agreeing on the arguments, both run, end with
    equal results — the kernel's result array — and unchanged arguments. -/
theorem algebraic : Cert.algebraic_KernelIdeal_ReferenceIdeal := by
  intro m ρ m' ρ' _ hagree
  refine ⟨fun c => Cert.KernelIdeal.Hand.V13 (F := Ideal) m (Cert.KernelIdeal.Rec.outs2 m) c Cert.KernelIdeal.main_v165, ?_, ?_⟩
  · exact (θ_run Cert.KernelIdeal.defs _ _).mono (fun r h c =>
      ⟨h c _ Cert.KernelIdeal.Hand.mem_uc_main_v165,
        (h c _ Cert.KernelIdeal.Hand.mem_uc_main_arg0).trans (Cert.KernelIdeal.Hand.V13_main_arg0 m (Cert.KernelIdeal.Rec.outs2 m) c),
        (h c _ Cert.KernelIdeal.Hand.mem_uc_main_arg1).trans (Cert.KernelIdeal.Hand.V13_main_arg1 m (Cert.KernelIdeal.Rec.outs2 m) c),
        (h c _ Cert.KernelIdeal.Hand.mem_uc_main_arg2).trans (Cert.KernelIdeal.Hand.V13_main_arg2 m (Cert.KernelIdeal.Rec.outs2 m) c),
        (h c _ Cert.KernelIdeal.Hand.mem_uc_main_arg3).trans (Cert.KernelIdeal.Hand.V13_main_arg3 m (Cert.KernelIdeal.Rec.outs2 m) c),
        (h c _ Cert.KernelIdeal.Hand.mem_uc_main_arg4).trans (Cert.KernelIdeal.Hand.V13_main_arg4 m (Cert.KernelIdeal.Rec.outs2 m) c),
        (h c _ Cert.KernelIdeal.Hand.mem_uc_main_arg5).trans (Cert.KernelIdeal.Hand.V13_main_arg5 m (Cert.KernelIdeal.Rec.outs2 m) c),
        (h c _ Cert.KernelIdeal.Hand.mem_uc_main_arg6).trans (Cert.KernelIdeal.Hand.V13_main_arg6 m (Cert.KernelIdeal.Rec.outs2 m) c),
        (h c _ Cert.KernelIdeal.Hand.mem_uc_main_arg7).trans (Cert.KernelIdeal.Hand.V13_main_arg7 m (Cert.KernelIdeal.Rec.outs2 m) c),
        (h c _ Cert.KernelIdeal.Hand.mem_uc_main_arg8).trans (Cert.KernelIdeal.Hand.V13_main_arg8 m (Cert.KernelIdeal.Rec.outs2 m) c),
        (h c _ Cert.KernelIdeal.Hand.mem_uc_main_arg9).trans (Cert.KernelIdeal.Hand.V13_main_arg9 m (Cert.KernelIdeal.Rec.outs2 m) c),
        (h c _ Cert.KernelIdeal.Hand.mem_uc_main_arg10).trans (Cert.KernelIdeal.Hand.V13_main_arg10 m (Cert.KernelIdeal.Rec.outs2 m) c),
        (h c _ Cert.KernelIdeal.Hand.mem_uc_main_arg11).trans (Cert.KernelIdeal.Hand.V13_main_arg11 m (Cert.KernelIdeal.Rec.outs2 m) c),
        (h c _ Cert.KernelIdeal.Hand.mem_uc_main_arg12).trans (Cert.KernelIdeal.Hand.V13_main_arg12 m (Cert.KernelIdeal.Rec.outs2 m) c),
        (h c _ Cert.KernelIdeal.Hand.mem_uc_main_arg13).trans (Cert.KernelIdeal.Hand.V13_main_arg13 m (Cert.KernelIdeal.Rec.outs2 m) c),
        (h c _ Cert.KernelIdeal.Hand.mem_uc_main_arg14).trans (Cert.KernelIdeal.Hand.V13_main_arg14 m (Cert.KernelIdeal.Rec.outs2 m) c),
        (h c _ Cert.KernelIdeal.Hand.mem_uc_main_arg15).trans (Cert.KernelIdeal.Hand.V13_main_arg15 m (Cert.KernelIdeal.Rec.outs2 m) c)⟩)
      (Cert.KernelIdeal.Rec.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v170_eq]
    obtain ⟨e0, e1, e2, e3, e4, e5, e6, e7, e8, e9, e10, e11, e12, e13, e14, e15⟩ := hagree c
    rw [e0, e1, e2, e3, e4, e5, e6, e7, e8, e9, e10, e11, e12, e13, e14, e15]
    refine funext fun i => ?_
    obtain ⟨j, rfl⟩ : ∃ j : Fin 10000, i = ix2 (0 : Fin 1) j := ⟨i 1, Cert.Spec.eq_ix2_zero i⟩
    rw [Cert.RefTail.ref_tail]
    exact (Cert.Proof.Res.kernel_result_at m c j).symm

end Cert.Proof.Alg

end
-- ==== Proof.lean ====
/- The proof of `Cert.Claim` (proofs.«173102_j37185826849263_1_alg».proof.Defs).

   The program is a graph auto-encoder over 10000 nodes. Three graph-convolution layers on the host (gathers and
   scatter-adds along 330000 edges, with the symmetric degree normalisation) produce a node embedding that is laid
   out as one row `h` of 160000 entries. The kernel then computes, in two grid-tiled regions,
     z   = relu(h · We1 + be1) · We2 + be2          (the first product accumulated over 50 tiles of 3200 rows)
     out = relu(z · Wd1 + bd1) · Wd2 + bd2          (over 10 tiles of 1024 columns, the last operands padded with
                                                     zeros to 10240 columns and the padding sliced off again)
   and the reference computes the same two lines with four whole matrix products on the host, after the same
   three graph-convolution layers.

   At the ideal values (extended reals, exact operations, format changes the identity) the two agree column by
   column: a sum over 160000 indices is the sum over its 50 consecutive tiles (addition of extended reals is
   commutative and associative, so no finiteness is needed), a running accumulator started from zero is the sum
   of what was added to it, a zero-padded column below 10000 is the original column, and the row `h` is produced
   on both sides by the same operations of the same arguments.

   The frames: every weakly fair execution of each program terminates, faults nowhere and leaves the argument
   arrays as launched. For the two kernel programs this is the run of @main as thirteen items — host stretches and
   the two regions — each region carrying its proof data (the encoder's invariant holds the accumulator between
   grid points); no item writes an argument. For the reference it is its run with the result dropped.
   The idealization rewrote no operation, so `preserves` has nothing to state. -/
import proofs.«173102_j37185826849263_1_alg».proof.Defs
import proofs.«173102_j37185826849263_1_alg».proof.Proof.Claims
import proofs.«173102_j37185826849263_1_alg».proof.Proof.Algebraic
import proofs.«173102_j37185826849263_1_alg».proof.Proof.Gen.Kernel
import proofs.«173102_j37185826849263_1_alg».proof.Proof.Gen.KernelIdeal
import proofs.«173102_j37185826849263_1_alg».proof.Proof.Gen.ReferenceIdeal
import proofs.«173102_j37185826849263_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Alg.algebraic⟩

end Cert.Proof

end
